-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S2000000x1 : Shape := ⟨2, ![2000000, 1]⟩
abbrev S64x64 : Shape := ⟨2, ![64, 64]⟩
abbrev S64 : Shape := ⟨1, ![64]⟩
abbrev S1000000x1 : Shape := ⟨2, ![1000000, 1]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000000x1 : S_.BroadcastsInDim S1000000x1 (![] : Fin 0 → Fin S1000000x1.rank)
  reducesTo_S1000000x1_S_d0_1 : S1000000x1.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S1000000x1 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1000000x1 .f32 := Host.absf main_arg7
  let main_cst_10 : FVec F S_ .f32 := constant S_ .f32 0x7F800000#32
  let main_v30 : FVec F S1000000x1 .f32 := broadcastInDim S1000000x1 ![] bcast_S_S1000000x1 main_cst_10
  let main_v31 : IVec S1000000x1 1 := cmpf .olt main_v29 main_v30
  let main_c_11 : IVec S_ 1 := constantI S_ 1 1#1
  let main_v32 : IVec S_ 1 := (fun x v => Host.reduce IntOp.andi x v reducesTo_S1000000x1_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S2000000x1 .f32) (main_arg3 : FVec F S64x64 .f32) (main_arg4 : FVec F S64 .f32) (main_arg5 : FVec F S64x64 .f32) (main_arg6 : FVec F S64 .f32) (main_arg7 : FVec F S1000000x1 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2000000x1 .f32 := Host.absf main_arg2
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S2000000x1 : Shape := ⟨2, ![2000000, 1]⟩
abbrev S64x64 : Shape := ⟨2, ![64, 64]⟩
abbrev S64 : Shape := ⟨1, ![64]⟩
abbrev S1000000x1 : Shape := ⟨2, ![1000000, 1]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩
abbrev S4000x64 : Shape := ⟨2, ![4000, 64]⟩
abbrev S4000x1 : Shape := ⟨2, ![4000, 1]⟩
abbrev S1000000x64 : Shape := ⟨2, ![1000000, 64]⟩

abbrev nBuf : Space → Nat
  | .hbm => 62
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S2000000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1000000x1, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x64, .f32⟩
  | .hbm, ⟨29, _⟩ => ⟨S1x64, .f32⟩
  | .hbm, ⟨30, _⟩ => ⟨S1x1, .f32⟩
  | .hbm, ⟨31, _⟩ => ⟨S100000x64, .bf16⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .bf16⟩
  | .hbm, ⟨41, _⟩ => ⟨S1000000x64, .f32⟩
  | .hbm, ⟨42, _⟩ => ⟨S_, .f32⟩
  | .hbm, ⟨43, _⟩ => ⟨S100000x64, .f32⟩
  | .hbm, ⟨44, _⟩ => ⟨S1000000x1, .i32⟩
  | .hbm, ⟨45, _⟩ => ⟨S100000x64, .f32⟩
  | .hbm, ⟨46, _⟩ => ⟨S100000x64, .bf16⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .bf16⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S1x1, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x64, .bf16⟩
  | .local _ .vmem, ⟨10, _⟩ => ⟨S4000x64, .bf16⟩
  | .local _ .vmem, ⟨11, _⟩ => ⟨S4000x1, .f32⟩
  | .local _ .vmem, ⟨12, _⟩ => ⟨S4000x1, .f32⟩
  | .local _ .vmem, ⟨13, _⟩ => ⟨S1x64, .f32⟩
  | .local _ .vmem, ⟨14, _⟩ => ⟨S64x64, .f32⟩
  | .local _ .vmem, ⟨15, _⟩ => ⟨S4000x64, .bf16⟩
  | .local _ .vmem, ⟨16, _⟩ => ⟨S4000x64, .bf16⟩
  | .local _ .vmem, ⟨17, _⟩ => ⟨S4000x64, .f32⟩
  | .local _ .vmem, ⟨18, _⟩ => ⟨S4000x64, .f32⟩
  | .local _ .vmem, ⟨19, _⟩ => ⟨S4000x64, .bf16⟩
  | .local _ .vmem, ⟨20, _⟩ => ⟨S4000x64, .bf16⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S1x1, .f32⟩
  | .local _ .vmem, ⟨27, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v26 : BitVec 1 := Scalar.cmpi .eq arg0 c24_i32
  let v27 : BitVec 32 := Scalar.extui v26
  let c0_i32_13 : BitVec 32 := 0#32
  let v28 : BitVec 1 := Scalar.cmpi .ne v27 c0_i32_13
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S64_S1x64 : S64.ShapeCasts S1x64
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S64 : S4000x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  scatter_S100000_S1000000x1_S1000000_n_0_0_1_wf : ScatterDims.WF S100000 S1000000x1 S1000000 [] [0] [0] 1
  dot_S4000x64_S64x64_S4000x64_1_0_0_1_n_n_wf : DotDims.WF S4000x64 S64x64 S4000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .bf16 = 32 ∨ (Rect.block (s := S100000x64) S4000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .bf16 = 32 ∨ (Rect.block (s := S100000x64) S4000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .bf16 = 32 ∨ (Rect.block (s := S100000x64) S4000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S2000000x1 : Shape := ⟨2, ![2000000, 1]⟩
abbrev S64x64 : Shape := ⟨2, ![64, 64]⟩
abbrev S64 : Shape := ⟨1, ![64]⟩
abbrev S1000000x1 : Shape := ⟨2, ![1000000, 1]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1x1000000x1x1 : Shape := ⟨4, ![1, 1000000, 1, 1]⟩
abbrev S2x1000000x1x1 : Shape := ⟨4, ![2, 1000000, 1, 1]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1000000, .i32⟩
  | 2 => ⟨S2000000x1, .f32⟩
  | 3 => ⟨S64x64, .f32⟩
  | 4 => ⟨S64, .f32⟩
  | 5 => ⟨S64x64, .f32⟩
  | 6 => ⟨S64, .f32⟩
  | 7 => ⟨S1000000x1, .f32⟩
  | 8 => ⟨S64x1, .f32⟩
  | 9 => ⟨S1, .f32⟩
  | 10 => ⟨S1x1000000, .i32⟩
  | 11 => ⟨S1000000, .i32⟩
  | 12 => ⟨S1x1000000, .i32⟩
  | 13 => ⟨S1000000, .i32⟩
  | 14 => ⟨S1x1000000x1x1, .f32⟩
  | 15 => ⟨S2x1000000x1x1, .f32⟩
  | 16 => ⟨S2000000x1, .f32⟩
  | 17 => ⟨S2000000x1, .f32⟩
  | 18 => ⟨S100000, .i32⟩
  | 19 => ⟨S1100000, .i32⟩
  | 20 => ⟨S1100000, .i32⟩
  | 21 => ⟨S_, .f32⟩
  | 22 => ⟨S1100000, .f32⟩
  | 23 => ⟨S_, .f32⟩
  | 24 => ⟨S100000, .f32⟩
  | 25 => ⟨S1100000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S100000x64, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S1100000x1, .f32⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1100000x64, .f32⟩
  | 61 => ⟨S1100000x64, .f32⟩
  | 62 => ⟨S1100000x64, .f32⟩
  | 63 => ⟨S_, .f32⟩
  | 64 => ⟨S100000x64, .f32⟩
  | 65 => ⟨S1100000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000, .i32⟩
  | 74 => ⟨S1100000, .i32⟩
  | 75 => ⟨S1100000, .i32⟩
  | 76 => ⟨S_, .f32⟩
  | 77 => ⟨S1100000, .f32⟩
  | 78 => ⟨S_, .f32⟩
  | 79 => ⟨S100000, .f32⟩
  | 80 => ⟨S1100000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S100000x64, .f32⟩
  | 87 => ⟨S_, .i32⟩
  | 88 => ⟨S1100000, .i32⟩
  | 89 => ⟨S1100000, .i1⟩
  | 90 => ⟨S_, .i32⟩
  | 91 => ⟨S1100000, .i32⟩
  | 92 => ⟨S1100000, .i32⟩
  | 93 => ⟨S1100000, .i32⟩
  | 94 => ⟨S1100000x1, .i32⟩
  | 95 => ⟨S1100000, .f32⟩
  | 96 => ⟨S_, .i32⟩
  | 97 => ⟨S1100000, .i32⟩
  | 98 => ⟨S1100000, .i1⟩
  | 99 => ⟨S_, .i32⟩
  | 100 => ⟨S1100000, .i32⟩
  | 101 => ⟨S1100000, .i32⟩
  | 102 => ⟨S1100000, .i32⟩
  | 103 => ⟨S1100000x1, .i32⟩
  | 104 => ⟨S1100000, .f32⟩
  | 105 => ⟨S1100000, .f32⟩
  | 106 => ⟨S1100000x1, .f32⟩
  | 107 => ⟨S_, .i32⟩
  | 108 => ⟨S1100000, .i32⟩
  | 109 => ⟨S1100000, .i1⟩
  | 110 => ⟨S_, .i32⟩
  | 111 => ⟨S1100000, .i32⟩
  | 112 => ⟨S1100000, .i32⟩
  | 113 => ⟨S1100000, .i32⟩
  | 114 => ⟨S1100000x1, .i32⟩
  | 115 => ⟨S1100000x64, .f32⟩
  | 116 => ⟨S1100000x64, .f32⟩
  | 117 => ⟨S1100000x64, .f32⟩
  | 118 => ⟨S_, .f32⟩
  | 119 => ⟨S100000x64, .f32⟩
  | 120 => ⟨S1100000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S1x1, .f32⟩
  | 7 => ⟨S1x1, .f32⟩
  | 8 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S1000000x1_S1x1000000x1x1 : S1000000x1.ShapeCasts S1x1000000x1x1
  bcast_S1x1000000x1x1_S2x1000000x1x1_0_1_2_3 : S1x1000000x1x1.BroadcastsInDim S2x1000000x1x1 (![0, 1, 2, 3] : Fin 4 → Fin S2x1000000x1x1.rank)
  shapeCasts_S2x1000000x1x1_S2000000x1 : S2x1000000x1x1.ShapeCasts S2000000x1
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  scatter_S100000_S1100000x1_S1100000_n_0_0_1_wf : ScatterDims.WF S100000 S1100000x1 S1100000 [] [0] [0] 1
  dot_S100000x64_S64x64_S100000x64_1_0_0_1_n_n_wf : DotDims.WF S100000x64 S64x64 S100000x64 [1] [0] [0] [1] [] []
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S1x64_S64x1_S1x1_1_0_0_1_n_n_wf : DotDims.WF S1x64 S64x1 S1x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.KbRegion0.lean ====
/-
  Pallas kernel 0 of the program, as one step of its pipeline, at any float instance.

  The pipeline stages, at grid point `t`, block `t` of each input array (rows 4000·t … 4000·t + 3999 of a node-indexed
  array; the whole array for a weight matrix or a bias row), runs the body on the staged blocks, and writes the body's
  output block back. Here: what each window's block is when the region is entered with the buffers at `V` (`iblk0`);
  that the body, run on whole staging buffers holding the input blocks, leaves the inputs as they were and the output
  buffer at ONE pure function of them (`out0_3`: the body's single store of the skeleton's payload, read back);
  and from it the pipeline's proof data (`dat0`) and the obligation the pipeline's soundness theorem asks of a body,
  at every grid point (`body_obligation0`). Nothing is owed to another core and the region's invariant is the
  untouched rest of the scoped memory.
-/
import proofs.«139629_j28845000360148_2_alg».proof.Proof.Gen.Kernel.Launch
import proofs.«139629_j28845000360148_2_alg».proof.Proof.Gen.Kernel.Skeleton
import proofs.«139629_j28845000360148_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S4000x64 := Rect.unit (s := S4000x64) ![0, 0] S4000x64.size inb_S4000x64_S4000x64_0_0
abbrev r0_1 : Rect S64x64 := Rect.unit (s := S64x64) ![0, 0] S64x64.size inb_S64x64_S64x64_0_0
abbrev r0_2 : Rect S4000x1 := Rect.unit (s := S4000x1) ![0, 0] S4000x1.size inb_S4000x1_S4000x1_0_0
abbrev r0_3 : Rect S4000x64 := Rect.unit (s := S4000x64) ![0, 0] S4000x64.size inb_S4000x64_S4000x64_0_0

/-- The output buffer after the body, from the input blocks: its one store, read back. -/
def out0_3 (x0 : Vec F S4000x64 .f32) (x1 : Vec F S64x64 .f32) (x2 : Vec F S4000x1 .f32) : Vec F S4000x64 .bf16 :=
  View.canon [⟨r0_3, k0_pay1 (View.ld x0 r0_0) (View.ld x1 r0_1) (View.ld x2 r0_2)⟩]

/-- The store covers the buffer. -/
theorem cover0_3 (p0 : Vec F S4000x64 .bf16) (y : S4000x64.Idx) :
    ∃ pc ∈ ([⟨r0_3, p0⟩] : List (View.Piece (Elt F) S4000x64 .bf16)), y ∈ pc.1.set :=
  View.cover_of_tiled [⟨r0_3, p0⟩] S4000x64.size (by rfl) y

set_option maxHeartbeats 4000000 in
/-- The body on whole staging buffers, the inputs' at contents `x·` and the output's at anything, runs to the
    continuation with the inputs as they were and the output at `out0_3` of them. -/
theorem sound_kernel0 (c : Dev nD) (E : Set ℕ) (i : grid0.Coords) (arg1 : Memref sig .tc .vmem S4000x64 .f32) (harg1 : arg1.IsWhole) (arg2 : Memref sig .tc .vmem S64x64 .f32) (harg2 : arg2.IsWhole) (arg3 : Memref sig .tc .vmem S4000x1 .f32) (harg3 : arg3.IsWhole) (arg4 : Memref sig .tc .vmem S4000x64 .bf16) (harg4 : arg4.IsWhole)
    (x0 : Vec F S4000x64 .f32) (x1 : Vec F S64x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__prescale_matmul_kernel i arg1 harg1 arg2 harg2 arg3 harg3 arg4 harg4) K := by
  simp only [cc0__prescale_matmul_kernel_eq_skeleton]; unfold cc0__prescale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's at
    `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KbRegion1.lean ====
/-
  Pallas kernel 1 of the program, as one step of its pipeline, at any float instance.

  The pipeline stages, at grid point `t`, block `t` of each input array (rows 4000·t … 4000·t + 3999 of a node-indexed
  array; the whole array for a weight matrix or a bias row), runs the body on the staged blocks, and writes the body's
  output block back. Here: what each window's block is when the region is entered with the buffers at `V` (`iblk1`);
  that the body, run on whole staging buffers holding the input blocks, leaves the inputs as they were and the output
  buffer at ONE pure function of them (`out1_5`: the body's single store of the skeleton's payload, read back);
  and from it the pipeline's proof data (`dat1`) and the obligation the pipeline's soundness theorem asks of a body,
  at every grid point (`body_obligation1`). Nothing is owed to another core and the region's invariant is the
  untouched rest of the scoped memory.
-/
import proofs.«139629_j28845000360148_2_alg».proof.Proof.Gen.Kernel.Launch
import proofs.«139629_j28845000360148_2_alg».proof.Proof.Gen.Kernel.Skeleton
import proofs.«139629_j28845000360148_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S4000x64 := Rect.unit (s := S4000x64) ![0, 0] S4000x64.size inb_S4000x64_S4000x64_0_0
abbrev r1_1 : Rect S4000x64 := Rect.unit (s := S4000x64) ![0, 0] S4000x64.size inb_S4000x64_S4000x64_0_0
abbrev r1_2 : Rect S4000x1 := Rect.unit (s := S4000x1) ![0, 0] S4000x1.size inb_S4000x1_S4000x1_0_0
abbrev r1_3 : Rect S1x64 := Rect.unit (s := S1x64) ![0, 0] S1x64.size inb_S1x64_S1x64_0_0
abbrev r1_4 : Rect S64x64 := Rect.unit (s := S64x64) ![0, 0] S64x64.size inb_S64x64_S64x64_0_0
abbrev r1_5 : Rect S4000x64 := Rect.unit (s := S4000x64) ![0, 0] S4000x64.size inb_S4000x64_S4000x64_0_0

/-- The output buffer after the body, from the input blocks: its one store, read back. -/
def out1_5 (x0 : Vec F S4000x64 .f32) (x1 : Vec F S4000x64 .bf16) (x2 : Vec F S4000x1 .f32) (x3 : Vec F S1x64 .f32) (x4 : Vec F S64x64 .f32) : Vec F S4000x64 .bf16 :=
  View.canon [⟨r1_5, k1_pay1 (View.ld x2 r1_2) (View.ld x0 r1_0) (View.ld x1 r1_1) (View.ld x3 r1_3) (View.ld x4 r1_4) (View.ld x2 r1_2)⟩]

/-- The store covers the buffer. -/
theorem cover1_5 (p0 : Vec F S4000x64 .bf16) (y : S4000x64.Idx) :
    ∃ pc ∈ ([⟨r1_5, p0⟩] : List (View.Piece (Elt F) S4000x64 .bf16)), y ∈ pc.1.set :=
  View.cover_of_tiled [⟨r1_5, p0⟩] S4000x64.size (by rfl) y

set_option maxHeartbeats 4000000 in
/-- The body on whole staging buffers, the inputs' at contents `x·` and the output's at anything, runs to the
    continuation with the inputs as they were and the output at `out1_5` of them. -/
theorem sound_kernel1 (c : Dev nD) (E : Set ℕ) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S4000x64 .bf16) (harg6 : arg6.IsWhole)
    (x0 : Vec F S4000x64 .f32) (x1 : Vec F S4000x64 .bf16) (x2 : Vec F S4000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__fused_layer_kernel i arg1 harg1 arg2 harg2 arg3 harg3 arg4 harg4 arg5 harg5 arg6 harg6) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` each input's buffer at its block and the output's at
    `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbRegion2Runs.lean ====
/-
  Pallas kernel 2 of the program (the pooled readout), what its three kinds of grid point share.

  The body keeps a running row of column sums in a scratch buffer that lives across the 25 grid points: at the first
  point it clears the row, at every point it adds the column sums of the point's 4000 activated rows, and at the last
  point it scales the row by the reciprocal of the node count, multiplies it with the final weight column, adds the
  final bias and stores the one result. Its two branch conditions are functions of the grid coordinate alone; here they
  are put in closed form over the grid (first point: `t = 0`; last point: `t = 24`), with what follows for the
  output window (it is left untouched, and not written back, except at the last point).
-/
import proofs.«139629_j28845000360148_2_alg».proof.Proof.Gen.Kernel.Launch
import proofs.«139629_j28845000360148_2_alg».proof.Proof.Gen.Kernel.Skeleton
import proofs.«139629_j28845000360148_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions, in closed form over the grid -/

/-- "This is the first grid point", as the body computes it. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last grid point", as the body computes it. -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

/-! ## Where the windows are left untouched -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off the last point the output window is left untouched and is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The buffers the body is called with -/

/-- One staging buffer of the output window, through which its contents are stated. -/
abbrev VO2_6 : View sig .tc .vmem S1x1 .f32 := (Memref.whole cc2_stg6_0 : Memref sig .tc .vmem S1x1 .f32).view
abbrev ms2_0 (t : Fin cfg2.N) : Memref sig .tc .vmem S4000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
/-- The running row of column sums: a whole scoped buffer of the kernel's own. -/
abbrev scM2_0 : Memref sig .tc .vmem S1x64 .f32 := Memref.whole cc2_scratch0
abbrev VS2_0 : View sig .tc .vmem S1x64 .f32 := scM2_0.view

/-- The scoped buffers the region does not stage, split into the running row and all the others. -/
theorem scopedRest2_split (c : Dev nD) :
    (Pipeline.scopedRest (Ix := Unit) (Name := ℕ) (U := UR sig nD τ) (Lvl := ℕ) (Val := Elt F) spec2 c : sProp 𝕄)
      = BI.sep (bigSepL [cc2_scratch0] fun b => iprop(∃ f : Buf (Elt F) ((c.tc : Thread nD τ).loc b), ((c.tc : Thread nD τ).loc b) ↦{fullShare} f))
          (Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

end Cert.Kernel.Fr

end
-- ==== Proof.KbRegion2RunA.lean ====
/-
  Pallas kernel 2 of the program, its body run whole at the first grid point (the running row is cleared, then the point's column sums are added; nothing is stored into the output).

  The body is run symbolically on whole staging buffers holding the point's input blocks; what it leaves in the running
  row (and, at the last point, in the output buffer) is recorded as the list of its stores there, last first.
-/
import proofs.«139629_j28845000360148_2_alg».proof.Proof.KbRegion2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body makes, with the proof that it runs to the continuation holding every input buffer as it was, the output buffer untouched and the written buffers with those stores applied. -/
noncomputable def kernelRun2_A (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) :
    Σ' (L6 : List (View.Piece (Elt F) S1x1 .f32)), { LS0 : List (View.Piece (Elt F) S1x64 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__fused_pool_kernel i arg1 harg1 arg2 harg2 arg3 harg3 arg4 harg4 arg5 harg5 arg6 harg6 arg7 harg7 arg8 harg8) K } := by
  refine ⟨[], ?_, fun xi6 E K => ?run⟩
  case run =>
    simp only [cc2__fused_pool_kernel_eq_skeleton]; unfold cc2__fused_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Fr

end
-- ==== Proof.KbRegion2RunB.lean ====
/-
  Pallas kernel 2 of the program, its body run whole at a grid point that is neither first nor last (the point's column sums are added to the running row; nothing is stored into the output).

  The body is run symbolically on whole staging buffers holding the point's input blocks; what it leaves in the running
  row (and, at the last point, in the output buffer) is recorded as the list of its stores there, last first.
-/
import proofs.«139629_j28845000360148_2_alg».proof.Proof.KbRegion2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body makes, with the proof that it runs to the continuation holding every input buffer as it was, the output buffer untouched and the written buffers with those stores applied. -/
noncomputable def kernelRun2_B (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    Σ' (L6 : List (View.Piece (Elt F) S1x1 .f32)), { LS0 : List (View.Piece (Elt F) S1x64 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__fused_pool_kernel i arg1 harg1 arg2 harg2 arg3 harg3 arg4 harg4 arg5 harg5 arg6 harg6 arg7 harg7 arg8 harg8) K } := by
  refine ⟨[], ?_, fun xi6 E K => ?run⟩
  case run =>
    simp only [cc2__fused_pool_kernel_eq_skeleton]; unfold cc2__fused_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.Kernel.Fr

end
-- ==== Proof.KbRegion2RunC.lean ====
/-
  Pallas kernel 2 of the program, its body run whole at the last grid point (the point's column sums are added to the running row, and the result is computed from the row and stored).

  The body is run symbolically on whole staging buffers holding the point's input blocks; what it leaves in the running
  row (and, at the last point, in the output buffer) is recorded as the list of its stores there, last first.
-/
import proofs.«139629_j28845000360148_2_alg».proof.Proof.KbRegion2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body makes, with the proof that it runs to the continuation holding every input buffer as it was and the written buffers with those stores applied. -/
noncomputable def kernelRun2_C (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    Σ' (L6 : List (View.Piece (Elt F) S1x1 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__fused_pool_kernel i arg1 harg1 arg2 harg2 arg3 harg3 arg4 harg4 arg5 harg5 arg6 harg6 arg7 harg7 arg8 harg8) K } := by
  refine ⟨?_, ?_, fun E K => ?run⟩
  case run =>
    simp only [cc2__fused_pool_kernel_eq_skeleton]; unfold cc2__fused_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Fr

end
-- ==== Proof.KbRegion2.lean ====
/-
  Pallas kernel 2 of the program (the pooled readout) as one step of its pipeline, at any float instance.

  The running row of column sums is carried from grid point to grid point in a scratch buffer, so what the body leaves
  depends on the point before. `outsAt2 V c n` is the pair (output buffer, running row) after the body at point `n`,
  by recursion on `n`: at point 0 from the point's input blocks alone, afterwards from the blocks and the row the point
  before left. The region's invariant before point `n + 1` holds the row at `(outsAt2 V c n).2`; before point 0 it is
  the untouched rest of the scoped memory. With it the pipeline's proof data (`dat2`) and the obligation asked of a
  body at every grid point (`body_obligation2`), by cases on first / middle / last point.
-/
import proofs.«139629_j28845000360148_2_alg».proof.Proof.KbRegion2RunA
import proofs.«139629_j28845000360148_2_alg».proof.Proof.KbRegion2RunB
import proofs.«139629_j28845000360148_2_alg».proof.Proof.KbRegion2RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-! ## What each kind of point leaves -/

/-- At such a point nothing is stored into the output buffer: a placeholder nothing consults. -/
def out2_A_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) : Vec F S1x1 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- The body's stores into the running row cover it. -/
theorem scover2_A_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (y : S1x64.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S1x64.size (by sl_kernel_rfl) y

/-- What the point leaves in the running row. -/
def sout2_A_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- At such a point nothing is stored into the output buffer: a placeholder nothing consults. -/
def out2_B_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x1 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- The body's stores into the running row cover it. -/
theorem scover2_B_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) (y : S1x64.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the point leaves in the running row. -/
def sout2_B_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- At the last point the body's stores into the output buffer cover it. -/
theorem cover2_C_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) (y : S1x1.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S1x1.size (by sl_kernel_rfl) y

/-- What the last point leaves in the output buffer. -/
def out2_C_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x1 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- The body's stores into the running row cover it. -/
theorem scover2_C_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) (y : S1x64.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the point leaves in the running row. -/
def sout2_C_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

/-! ## What the output buffer and the running row hold after each point -/

/-- THE ACCUMULATION: the pair (output buffer, running row) after the body at position `n`. -/
def outsAt2 (c : Dev nD) : (n : ℕ) → n < cfg2.N → Vec F S1x1 .f32 × Vec F S1x64 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr rfl) (fun hh => absurd ((hcond2_1 ⟨0, hn⟩).mp hh) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr rfl) (fun hh => absurd ((hcond2_1 ⟨0, hn⟩).mp hh) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 24 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) (fun hh => h1 ((hcond2_1 ⟨n + 1, hn⟩).mp hh)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) (fun hh => h1 ((hcond2_1 ⟨n + 1, hn⟩).mp hh)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- At the first point. -/
theorem outsAt2_A (c : Dev nD) (t : Fin cfg2.N) (h0 : t.val = 0) (h1 : ¬t.val = 24) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun hh => h1 ((hcond2_1 t).mp hh)) (iblk2 V c 0 t) (iblk2 V c 1 t) (iblk2 V c 2 t) (iblk2 V c 3 t) (iblk2 V c 4 t) (iblk2 V c 5 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun hh => h1 ((hcond2_1 t).mp hh)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- At a point that is neither first nor last, over what the point before left. -/
theorem outsAt2_B (c : Dev nD) (t : Fin cfg2.N) (h0 : ¬t.val = 0) (h1 : ¬t.val = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt2_C (c : Dev nD) (t : Fin cfg2.N) (h0 : ¬t.val = 0) (h1 : t.val = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Every scoped buffer the region does not stage, but the running row. -/
def restS (c : Dev nD) : sProp 𝕄 :=
  Pipeline.scopedRestBut (Ix := Unit) (Name := ℕ) (U := UR sig nD τ) (Lvl := ℕ) (Val := Elt F) spec2 c [cc2_scratch0]

/-- The untouched rest of the scoped memory, with the running row split out at some contents. -/
theorem PhiA2_eq (c : Dev nD) :
    (Pipeline.ΦA spec2 c : sProp 𝕄)
      = iprop(iprop((∃ d, owns (c : Thread nD τ) scM2_0 fullShare d) ∗ restS (F := F) c) ∗ (∃ r, prngReg c r)) := by
  unfold Pipeline.ΦA restS; rw [scopedRest2_split]; simp only [bigSepL_singleton, scM2_0, owns_whole]; try rfl

/-- Before position `n`: at the start the untouched rest; afterwards the running row at what the point before left. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restS (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restS (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point, by cases on first / middle / last. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val = 0
  · have h1 : ¬t.val = 24 := by omega
    rw [Dat.leavesExact_idle (dat2 V c) 6 t (idleAt2_6 t (fun hh => h1 ((hcond2_1 t).mp hh))) (noFlush2_6 t (fun hh => h1 ((hcond2_1 t).mp hh)))]
    rw [outsAt2_A V c t h0 h1]
    unfold sout2_A_0; (try dsimp only)
    have hz : t.val = 0 := h0
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ ((hcond2_0 t).mpr h0) (fun hh => h1 ((hcond2_1 t).mp hh)) (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 24
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_6 sout2_C_0; (try dsimp only)
      have hz : t.val ≠ 0 := h0
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun hh => h0 ((hcond2_0 t).mp hh)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6 t (fun hh => h1 ((hcond2_1 t).mp hh))) (noFlush2_6 t (fun hh => h1 ((hcond2_1 t).mp hh)))]
      rw [outsAt2_B V c t h0 h1]
      unfold sout2_B_0; (try dsimp only)
      have hz : t.val ≠ 0 := h0
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untouched rest back: the running row's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 25 := N_2; omega)

end Cert.Kernel.Fr

end
-- ==== Proof.KbRun.lean ====
/-
  The whole run of the program's @main, at any float instance: three stretches of host operations, each followed by
  a Pallas kernel region.

  The contents of every TensorCore buffer at each of the seven boundaries are a fold from the launch memory
  (`W0 … W6`): a host stretch applies its operations, a region leaves its input arrays as it found them and its output
  array at what the pipeline's write-backs leave (`Dat.arrAt … N` of the region's proof data). Each region is a
  segment over the thread state "every unscoped buffer at the boundary's contents"; the run theorem `run_all` says
  every weakly fair execution of @main terminates without a fault and ends with every unscoped buffer at `W6`. From
  it: the argument arrays end as launched (`frame`), and the result buffer ends at `W6`'s value (`run_value`).
-/
import proofs.«139629_j28845000360148_2_alg».proof.Proof.KbRegion0
import proofs.«139629_j28845000360148_2_alg».proof.Proof.KbRegion1
import proofs.«139629_j28845000360148_2_alg».proof.Proof.KbRegion2
import proofs.«139629_j28845000360148_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

/-- A region's arrays at its exit; every other buffer as at its entry. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves a buffer it does not write as it was. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- A region's arrays at its exit; every other buffer as at its entry. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves a buffer it does not write as it was. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- A region's arrays at its exit; every other buffer as at its entry. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves a buffer it does not write as it was. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-! ## The arguments end as launched -/

theorem W6_main_arg0 (c : Dev nD) : W6 m ρ c (Proc.devRef .tc main_arg0) = m ((c : Thread nD τ).loc main_arg0) :=
  (W6_of_ne m ρ c main_arg0 (by decide)).trans <| (W5_keep m ρ c main_arg0 (by decide)).trans <| (W4_of_ne m ρ c main_arg0 (by decide)).trans <| (W3_keep m ρ c main_arg0 (by decide)).trans <| (W2_in m ρ c 0 rfl).trans <| (W1_keep m ρ c main_arg0 (by decide)).trans <| rfl
theorem W6_main_arg1 (c : Dev nD) : W6 m ρ c (Proc.devRef .tc main_arg1) = m ((c : Thread nD τ).loc main_arg1) :=
  (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem W6_main_arg2 (c : Dev nD) : W6 m ρ c (Proc.devRef .tc main_arg2) = m ((c : Thread nD τ).loc main_arg2) :=
  (W6_of_ne m ρ c main_arg2 (by decide)).trans <| (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem W6_main_arg3 (c : Dev nD) : W6 m ρ c (Proc.devRef .tc main_arg3) = m ((c : Thread nD τ).loc main_arg3) :=
  (W6_of_ne m ρ c main_arg3 (by decide)).trans <| (W5_keep m ρ c main_arg3 (by decide)).trans <| (W4_of_ne m ρ c main_arg3 (by decide)).trans <| (W3_keep m ρ c main_arg3 (by decide)).trans <| (W2_in m ρ c 1 rfl).trans <| (W1_keep m ρ c main_arg3 (by decide)).trans <| rfl
theorem W6_main_arg4 (c : Dev nD) : W6 m ρ c (Proc.devRef .tc main_arg4) = m ((c : Thread nD τ).loc main_arg4) :=
  (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem W6_main_arg5 (c : Dev nD) : W6 m ρ c (Proc.devRef .tc main_arg5) = m ((c : Thread nD τ).loc main_arg5) :=
  (W6_of_ne m ρ c main_arg5 (by decide)).trans <| (W5_keep m ρ c main_arg5 (by decide)).trans <| (W4_in m ρ c 4 rfl).trans <| (W3_keep m ρ c main_arg5 (by decide)).trans <| (W2_of_ne m ρ c main_arg5 (by decide)).trans <| (W1_keep m ρ c main_arg5 (by decide)).trans <| rfl
theorem W6_main_arg6 (c : Dev nD) : W6 m ρ c (Proc.devRef .tc main_arg6) = m ((c : Thread nD τ).loc main_arg6) :=
  (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem W6_main_arg7 (c : Dev nD) : W6 m ρ c (Proc.devRef .tc main_arg7) = m ((c : Thread nD τ).loc main_arg7) :=
  (W6_of_ne m ρ c main_arg7 (by decide)).trans <| (W5_keep m ρ c main_arg7 (by decide)).trans <| (W4_of_ne m ρ c main_arg7 (by decide)).trans <| (W3_keep m ρ c main_arg7 (by decide)).trans <| (W2_of_ne m ρ c main_arg7 (by decide)).trans <| (W1_keep m ρ c main_arg7 (by decide)).trans <| rfl
theorem W6_main_arg8 (c : Dev nD) : W6 m ρ c (Proc.devRef .tc main_arg8) = m ((c : Thread nD τ).loc main_arg8) :=
  (W6_in m ρ c 4 rfl).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem W6_main_arg9 (c : Dev nD) : W6 m ρ c (Proc.devRef .tc main_arg9) = m ((c : Thread nD τ).loc main_arg9) :=
  (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_keep m ρ c main_arg9 (by decide)).trans <| rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    every final state holds every unscoped buffer at `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v41 (by decide)), (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

end Cert.Kernel.Fr

end
-- ==== Proof.KiRegion0.lean ====
/-
  Pallas kernel 0 of the program, as one step of its pipeline, at any float instance.

  The pipeline stages, at grid point `t`, block `t` of each input array (rows 4000·t … 4000·t + 3999 of a node-indexed
  array; the whole array for a weight matrix or a bias row), runs the body on the staged blocks, and writes the body's
  output block back. Here: what each window's block is when the region is entered with the buffers at `V` (`iblk0`);
  that the body, run on whole staging buffers holding the input blocks, leaves the inputs as they were and the output
  buffer at ONE pure function of them (`out0_3`: the body's single store of the skeleton's payload, read back);
  and from it the pipeline's proof data (`dat0`) and the obligation the pipeline's soundness theorem asks of a body,
  at every grid point (`body_obligation0`). Nothing is owed to another core and the region's invariant is the
  untouched rest of the scoped memory.
-/
import proofs.«139629_j28845000360148_2_alg».proof.Proof.Gen.KernelIdeal.Launch
import proofs.«139629_j28845000360148_2_alg».proof.Proof.Gen.KernelIdeal.Skeleton
import proofs.«139629_j28845000360148_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S4000x64 := Rect.unit (s := S4000x64) ![0, 0] S4000x64.size inb_S4000x64_S4000x64_0_0
abbrev r0_1 : Rect S64x64 := Rect.unit (s := S64x64) ![0, 0] S64x64.size inb_S64x64_S64x64_0_0
abbrev r0_2 : Rect S4000x1 := Rect.unit (s := S4000x1) ![0, 0] S4000x1.size inb_S4000x1_S4000x1_0_0
abbrev r0_3 : Rect S4000x64 := Rect.unit (s := S4000x64) ![0, 0] S4000x64.size inb_S4000x64_S4000x64_0_0

/-- The output buffer after the body, from the input blocks: its one store, read back. -/
def out0_3 (x0 : Vec F S4000x64 .f32) (x1 : Vec F S64x64 .f32) (x2 : Vec F S4000x1 .f32) : Vec F S4000x64 .bf16 :=
  View.canon [⟨r0_3, k0_pay1 (View.ld x0 r0_0) (View.ld x1 r0_1) (View.ld x2 r0_2)⟩]

/-- The store covers the buffer. -/
theorem cover0_3 (p0 : Vec F S4000x64 .bf16) (y : S4000x64.Idx) :
    ∃ pc ∈ ([⟨r0_3, p0⟩] : List (View.Piece (Elt F) S4000x64 .bf16)), y ∈ pc.1.set :=
  View.cover_of_tiled [⟨r0_3, p0⟩] S4000x64.size (by rfl) y

set_option maxHeartbeats 4000000 in
/-- The body on whole staging buffers, the inputs' at contents `x·` and the output's at anything, runs to the
    continuation with the inputs as they were and the output at `out0_3` of them. -/
theorem sound_kernel0 (c : Dev nD) (E : Set ℕ) (i : grid0.Coords) (arg1 : Memref sig .tc .vmem S4000x64 .f32) (harg1 : arg1.IsWhole) (arg2 : Memref sig .tc .vmem S64x64 .f32) (harg2 : arg2.IsWhole) (arg3 : Memref sig .tc .vmem S4000x1 .f32) (harg3 : arg3.IsWhole) (arg4 : Memref sig .tc .vmem S4000x64 .bf16) (harg4 : arg4.IsWhole)
    (x0 : Vec F S4000x64 .f32) (x1 : Vec F S64x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__prescale_matmul_kernel i arg1 harg1 arg2 harg2 arg3 harg3 arg4 harg4) K := by
  simp only [cc0__prescale_matmul_kernel_eq_skeleton]; unfold cc0__prescale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's at
    `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiRegion1.lean ====
/-
  Pallas kernel 1 of the program, as one step of its pipeline, at any float instance.

  The pipeline stages, at grid point `t`, block `t` of each input array (rows 4000·t … 4000·t + 3999 of a node-indexed
  array; the whole array for a weight matrix or a bias row), runs the body on the staged blocks, and writes the body's
  output block back. Here: what each window's block is when the region is entered with the buffers at `V` (`iblk1`);
  that the body, run on whole staging buffers holding the input blocks, leaves the inputs as they were and the output
  buffer at ONE pure function of them (`out1_5`: the body's single store of the skeleton's payload, read back);
  and from it the pipeline's proof data (`dat1`) and the obligation the pipeline's soundness theorem asks of a body,
  at every grid point (`body_obligation1`). Nothing is owed to another core and the region's invariant is the
  untouched rest of the scoped memory.
-/
import proofs.«139629_j28845000360148_2_alg».proof.Proof.Gen.KernelIdeal.Launch
import proofs.«139629_j28845000360148_2_alg».proof.Proof.Gen.KernelIdeal.Skeleton
import proofs.«139629_j28845000360148_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S4000x64 := Rect.unit (s := S4000x64) ![0, 0] S4000x64.size inb_S4000x64_S4000x64_0_0
abbrev r1_1 : Rect S4000x64 := Rect.unit (s := S4000x64) ![0, 0] S4000x64.size inb_S4000x64_S4000x64_0_0
abbrev r1_2 : Rect S4000x1 := Rect.unit (s := S4000x1) ![0, 0] S4000x1.size inb_S4000x1_S4000x1_0_0
abbrev r1_3 : Rect S1x64 := Rect.unit (s := S1x64) ![0, 0] S1x64.size inb_S1x64_S1x64_0_0
abbrev r1_4 : Rect S64x64 := Rect.unit (s := S64x64) ![0, 0] S64x64.size inb_S64x64_S64x64_0_0
abbrev r1_5 : Rect S4000x64 := Rect.unit (s := S4000x64) ![0, 0] S4000x64.size inb_S4000x64_S4000x64_0_0

/-- The output buffer after the body, from the input blocks: its one store, read back. -/
def out1_5 (x0 : Vec F S4000x64 .f32) (x1 : Vec F S4000x64 .bf16) (x2 : Vec F S4000x1 .f32) (x3 : Vec F S1x64 .f32) (x4 : Vec F S64x64 .f32) : Vec F S4000x64 .bf16 :=
  View.canon [⟨r1_5, k1_pay1 (View.ld x2 r1_2) (View.ld x0 r1_0) (View.ld x1 r1_1) (View.ld x3 r1_3) (View.ld x4 r1_4) (View.ld x2 r1_2)⟩]

/-- The store covers the buffer. -/
theorem cover1_5 (p0 : Vec F S4000x64 .bf16) (y : S4000x64.Idx) :
    ∃ pc ∈ ([⟨r1_5, p0⟩] : List (View.Piece (Elt F) S4000x64 .bf16)), y ∈ pc.1.set :=
  View.cover_of_tiled [⟨r1_5, p0⟩] S4000x64.size (by rfl) y

set_option maxHeartbeats 4000000 in
/-- The body on whole staging buffers, the inputs' at contents `x·` and the output's at anything, runs to the
    continuation with the inputs as they were and the output at `out1_5` of them. -/
theorem sound_kernel1 (c : Dev nD) (E : Set ℕ) (i : grid1.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S4000x64 .bf16) (harg6 : arg6.IsWhole)
    (x0 : Vec F S4000x64 .f32) (x1 : Vec F S4000x64 .bf16) (x2 : Vec F S4000x1 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__fused_layer_kernel i arg1 harg1 arg2 harg2 arg3 harg3 arg4 harg4 arg5 harg5 arg6 harg6) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` each input's buffer at its block and the output's at
    `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiRegion2Runs.lean ====
/-
  Pallas kernel 2 of the program (the pooled readout), what its three kinds of grid point share.

  The body keeps a running row of column sums in a scratch buffer that lives across the 25 grid points: at the first
  point it clears the row, at every point it adds the column sums of the point's 4000 activated rows, and at the last
  point it scales the row by the reciprocal of the node count, multiplies it with the final weight column, adds the
  final bias and stores the one result. Its two branch conditions are functions of the grid coordinate alone; here they
  are put in closed form over the grid (first point: `t = 0`; last point: `t = 24`), with what follows for the
  output window (it is left untouched, and not written back, except at the last point).
-/
import proofs.«139629_j28845000360148_2_alg».proof.Proof.Gen.KernelIdeal.Launch
import proofs.«139629_j28845000360148_2_alg».proof.Proof.Gen.KernelIdeal.Skeleton
import proofs.«139629_j28845000360148_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The branch conditions, in closed form over the grid -/

/-- "This is the first grid point", as the body computes it. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- "This is the last grid point", as the body computes it. -/
abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

/-! ## Where the windows are left untouched -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Off the last point the output window is left untouched and is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The buffers the body is called with -/

/-- One staging buffer of the output window, through which its contents are stated. -/
abbrev VO2_6 : View sig .tc .vmem S1x1 .f32 := (Memref.whole cc2_stg6_0 : Memref sig .tc .vmem S1x1 .f32).view
abbrev ms2_0 (t : Fin cfg2.N) : Memref sig .tc .vmem S4000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4000x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
/-- The running row of column sums: a whole scoped buffer of the kernel's own. -/
abbrev scM2_0 : Memref sig .tc .vmem S1x64 .f32 := Memref.whole cc2_scratch0
abbrev VS2_0 : View sig .tc .vmem S1x64 .f32 := scM2_0.view

/-- The scoped buffers the region does not stage, split into the running row and all the others. -/
theorem scopedRest2_split (c : Dev nD) :
    (Pipeline.scopedRest (Ix := Unit) (Name := ℕ) (U := UR sig nD τ) (Lvl := ℕ) (Val := Elt F) spec2 c : sProp 𝕄)
      = BI.sep (bigSepL [cc2_scratch0] fun b => iprop(∃ f : Buf (Elt F) ((c.tc : Thread nD τ).loc b), ((c.tc : Thread nD τ).loc b) ↦{fullShare} f))
          (Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

end Cert.KernelIdeal.Fr

end
-- ==== Proof.KiRegion2RunA.lean ====
/-
  Pallas kernel 2 of the program, its body run whole at the first grid point (the running row is cleared, then the point's column sums are added; nothing is stored into the output).

  The body is run symbolically on whole staging buffers holding the point's input blocks; what it leaves in the running
  row (and, at the last point, in the output buffer) is recorded as the list of its stores there, last first.
-/
import proofs.«139629_j28845000360148_2_alg».proof.Proof.KiRegion2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The stores the body makes, with the proof that it runs to the continuation holding every input buffer as it was, the output buffer untouched and the written buffers with those stores applied. -/
noncomputable def kernelRun2_A (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) :
    Σ' (L6 : List (View.Piece (Elt F) S1x1 .f32)), { LS0 : List (View.Piece (Elt F) S1x64 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__fused_pool_kernel i arg1 harg1 arg2 harg2 arg3 harg3 arg4 harg4 arg5 harg5 arg6 harg6 arg7 harg7 arg8 harg8) K } := by
  refine ⟨[], ?_, fun xi6 E K => ?run⟩
  case run =>
    simp only [cc2__fused_pool_kernel_eq_skeleton]; unfold cc2__fused_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Fr

end
-- ==== Proof.KiRegion2RunB.lean ====
/-
  Pallas kernel 2 of the program, its body run whole at a grid point that is neither first nor last (the point's column sums are added to the running row; nothing is stored into the output).

  The body is run symbolically on whole staging buffers holding the point's input blocks; what it leaves in the running
  row (and, at the last point, in the output buffer) is recorded as the list of its stores there, last first.
-/
import proofs.«139629_j28845000360148_2_alg».proof.Proof.KiRegion2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The stores the body makes, with the proof that it runs to the continuation holding every input buffer as it was, the output buffer untouched and the written buffers with those stores applied. -/
noncomputable def kernelRun2_B (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    Σ' (L6 : List (View.Piece (Elt F) S1x1 .f32)), { LS0 : List (View.Piece (Elt F) S1x64 .f32) //
      ∀ (xi6 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc2__fused_pool_kernel i arg1 harg1 arg2 harg2 arg3 harg3 arg4 harg4 arg5 harg5 arg6 harg6 arg7 harg7 arg8 harg8) K } := by
  refine ⟨[], ?_, fun xi6 E K => ?run⟩
  case run =>
    simp only [cc2__fused_pool_kernel_eq_skeleton]; unfold cc2__fused_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

end Cert.KernelIdeal.Fr

end
-- ==== Proof.KiRegion2RunC.lean ====
/-
  Pallas kernel 2 of the program, its body run whole at the last grid point (the point's column sums are added to the running row, and the result is computed from the row and stored).

  The body is run symbolically on whole staging buffers holding the point's input blocks; what it leaves in the running
  row (and, at the last point, in the output buffer) is recorded as the list of its stores there, last first.
-/
import proofs.«139629_j28845000360148_2_alg».proof.Proof.KiRegion2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The stores the body makes, with the proof that it runs to the continuation holding every input buffer as it was and the written buffers with those stores applied. -/
noncomputable def kernelRun2_C (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    Σ' (L6 : List (View.Piece (Elt F) S1x1 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__fused_pool_kernel i arg1 harg1 arg2 harg2 arg3 harg3 arg4 harg4 arg5 harg5 arg6 harg6 arg7 harg7 arg8 harg8) K } := by
  refine ⟨?_, ?_, fun E K => ?run⟩
  case run =>
    simp only [cc2__fused_pool_kernel_eq_skeleton]; unfold cc2__fused_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Fr

end
-- ==== Proof.KiRegion2.lean ====
/-
  Pallas kernel 2 of the program (the pooled readout) as one step of its pipeline, at any float instance.

  The running row of column sums is carried from grid point to grid point in a scratch buffer, so what the body leaves
  depends on the point before. `outsAt2 V c n` is the pair (output buffer, running row) after the body at point `n`,
  by recursion on `n`: at point 0 from the point's input blocks alone, afterwards from the blocks and the row the point
  before left. The region's invariant before point `n + 1` holds the row at `(outsAt2 V c n).2`; before point 0 it is
  the untouched rest of the scoped memory. With it the pipeline's proof data (`dat2`) and the obligation asked of a
  body at every grid point (`body_obligation2`), by cases on first / middle / last point.
-/
import proofs.«139629_j28845000360148_2_alg».proof.Proof.KiRegion2RunA
import proofs.«139629_j28845000360148_2_alg».proof.Proof.KiRegion2RunB
import proofs.«139629_j28845000360148_2_alg».proof.Proof.KiRegion2RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/- the TensorCore's buffer contents when the region is entered -/
variable (V : (c : Dev nD) → (b : Ref sig .tc) → Buf (Elt F) ((c : Thread nD τ).loc b))

/-! ## What each kind of point leaves -/

/-- At such a point nothing is stored into the output buffer: a placeholder nothing consults. -/
def out2_A_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) : Vec F S1x1 .f32 :=
  VO2_6.read (Elt F) (VO2_6.writes (Elt F) VO2_6.junk (kernelRun2_A c i arg1 harg1 arg2 harg2 arg3 harg3 arg4 harg4 arg5 harg5 arg6 harg6 arg7 harg7 arg8 harg8 hc0 hc1 x0 x1 x2 x3 x4 x5).1)

/-- The body's stores into the running row cover it. -/
theorem scover2_A_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (y : S1x64.Idx) :
    ∃ pc ∈ (kernelRun2_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3 x4 x5).2.1 S1x64.size (by sl_kernel_rfl) y

/-- What the point leaves in the running row. -/
def sout2_A_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3 x4 x5).2.1)

/-- At such a point nothing is stored into the output buffer: a placeholder nothing consults. -/
def out2_B_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x1 .f32 :=
  VO2_6.read (Elt F) (VO2_6.writes (Elt F) VO2_6.junk (kernelRun2_B c i arg1 harg1 arg2 harg2 arg3 harg3 arg4 harg4 arg5 harg5 arg6 harg6 arg7 harg7 arg8 harg8 hc0 hc1 x0 x1 x2 x3 x4 x5 xs0).1)

/-- The body's stores into the running row cover it. -/
theorem scover2_B_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) (y : S1x64.Idx) :
    ∃ pc ∈ (kernelRun2_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the point leaves in the running row. -/
def sout2_B_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 x4 x5 xs0).2.1)

/-- At the last point the body's stores into the output buffer cover it. -/
theorem cover2_C_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) (y : S1x1.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S1x1.size (by sl_kernel_rfl) y

/-- What the last point leaves in the output buffer. -/
def out2_C_6 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x1 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

/-- The body's stores into the running row cover it. -/
theorem scover2_C_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) (y : S1x64.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S1x64.size (by sl_kernel_rfl) y

/-- What the point leaves in the running row. -/
def sout2_C_0 (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i)
    (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 x4 x5 xs0).2.1)

/-! ## What the output buffer and the running row hold after each point -/

/-- THE ACCUMULATION: the pair (output buffer, running row) after the body at position `n`. -/
def outsAt2 (c : Dev nD) : (n : ℕ) → n < cfg2.N → Vec F S1x1 .f32 × Vec F S1x64 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr rfl) (fun hh => absurd ((hcond2_1 ⟨0, hn⟩).mp hh) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr rfl) (fun hh => absurd ((hcond2_1 ⟨0, hn⟩).mp hh) (show ¬ (0 : ℕ) = 24 by decide)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 24 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) (fun hh => h1 ((hcond2_1 ⟨n + 1, hn⟩).mp hh)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun hh => (Nat.succ_ne_zero n) ((hcond2_0 ⟨n + 1, hn⟩).mp hh)) (fun hh => h1 ((hcond2_1 ⟨n + 1, hn⟩).mp hh)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- At the first point. -/
theorem outsAt2_A (c : Dev nD) (t : Fin cfg2.N) (h0 : t.val = 0) (h1 : ¬t.val = 24) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun hh => h1 ((hcond2_1 t).mp hh)) (iblk2 V c 0 t) (iblk2 V c 1 t) (iblk2 V c 2 t) (iblk2 V c 3 t) (iblk2 V c 4 t) (iblk2 V c 5 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun hh => h1 ((hcond2_1 t).mp hh)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- At a point that is neither first nor last, over what the point before left. -/
theorem outsAt2_B (c : Dev nD) (t : Fin cfg2.N) (h0 : ¬t.val = 0) (h1 : ¬t.val = 24) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt2_C (c : Dev nD) (t : Fin cfg2.N) (h0 : ¬t.val = 0) (h1 : t.val = 24) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Every scoped buffer the region does not stage, but the running row. -/
def restS (c : Dev nD) : sProp 𝕄 :=
  Pipeline.scopedRestBut (Ix := Unit) (Name := ℕ) (U := UR sig nD τ) (Lvl := ℕ) (Val := Elt F) spec2 c [cc2_scratch0]

/-- The untouched rest of the scoped memory, with the running row split out at some contents. -/
theorem PhiA2_eq (c : Dev nD) :
    (Pipeline.ΦA spec2 c : sProp 𝕄)
      = iprop(iprop((∃ d, owns (c : Thread nD τ) scM2_0 fullShare d) ∗ restS (F := F) c) ∗ (∃ r, prngReg c r)) := by
  unfold Pipeline.ΦA restS; rw [scopedRest2_split]; simp only [bigSepL_singleton, scM2_0, owns_whole]; try rfl

/-- Before position `n`: at the start the untouched rest; afterwards the running row at what the point before left. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restS (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restS (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point, by cases on first / middle / last. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val = 0
  · have h1 : ¬t.val = 24 := by omega
    rw [Dat.leavesExact_idle (dat2 V c) 6 t (idleAt2_6 t (fun hh => h1 ((hcond2_1 t).mp hh))) (noFlush2_6 t (fun hh => h1 ((hcond2_1 t).mp hh)))]
    rw [outsAt2_A V c t h0 h1]
    unfold sout2_A_0; (try dsimp only)
    have hz : t.val = 0 := h0
    rw [PhiS2_castSucc V c t, PhiS2_zero V c _ _ hz, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ _ _ ((hcond2_0 t).mpr h0) (fun hh => h1 ((hcond2_1 t).mp hh)) (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 24
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C_6 sout2_C_0; (try dsimp only)
      have hz : t.val ≠ 0 := h0
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun hh => h0 ((hcond2_0 t).mp hh)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6 t (fun hh => h1 ((hcond2_1 t).mp hh))) (noFlush2_6 t (fun hh => h1 ((hcond2_1 t).mp hh)))]
      rw [outsAt2_B V c t h0 h1]
      unfold sout2_B_0; (try dsimp only)
      have hz : t.val ≠ 0 := h0
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the untouched rest back: the running row's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Fr

end
-- ==== Proof.KiRun.lean ====
/-
  The whole run of the program's @main, at any float instance: three stretches of host operations, each followed by
  a Pallas kernel region.

  The contents of every TensorCore buffer at each of the seven boundaries are a fold from the launch memory
  (`W0 … W6`): a host stretch applies its operations, a region leaves its input arrays as it found them and its output
  array at what the pipeline's write-backs leave (`Dat.arrAt … N` of the region's proof data). Each region is a
  segment over the thread state "every unscoped buffer at the boundary's contents"; the run theorem `run_all` says
  every weakly fair execution of @main terminates without a fault and ends with every unscoped buffer at `W6`. From
  it: the argument arrays end as launched (`frame`), and the result buffer ends at `W6`'s value (`run_value`).
-/
import proofs.«139629_j28845000360148_2_alg».proof.Proof.KiRegion0
import proofs.«139629_j28845000360148_2_alg».proof.Proof.KiRegion1
import proofs.«139629_j28845000360148_2_alg».proof.Proof.KiRegion2
import proofs.«139629_j28845000360148_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b

/-- A region's arrays at its exit; every other buffer as at its entry. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A host stretch leaves a buffer it does not write as it was. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- A region's arrays at its exit; every other buffer as at its entry. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A host stretch leaves a buffer it does not write as it was. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- A region's arrays at its exit; every other buffer as at its entry. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A host stretch leaves a buffer it does not write as it was. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-! ## The arguments end as launched -/

theorem W6_main_arg0 (c : Dev nD) : W6 m ρ c (Proc.devRef .tc main_arg0) = m ((c : Thread nD τ).loc main_arg0) :=
  (W6_of_ne m ρ c main_arg0 (by decide)).trans <| (W5_keep m ρ c main_arg0 (by decide)).trans <| (W4_of_ne m ρ c main_arg0 (by decide)).trans <| (W3_keep m ρ c main_arg0 (by decide)).trans <| (W2_in m ρ c 0 rfl).trans <| (W1_keep m ρ c main_arg0 (by decide)).trans <| rfl
theorem W6_main_arg1 (c : Dev nD) : W6 m ρ c (Proc.devRef .tc main_arg1) = m ((c : Thread nD τ).loc main_arg1) :=
  (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem W6_main_arg2 (c : Dev nD) : W6 m ρ c (Proc.devRef .tc main_arg2) = m ((c : Thread nD τ).loc main_arg2) :=
  (W6_of_ne m ρ c main_arg2 (by decide)).trans <| (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem W6_main_arg3 (c : Dev nD) : W6 m ρ c (Proc.devRef .tc main_arg3) = m ((c : Thread nD τ).loc main_arg3) :=
  (W6_of_ne m ρ c main_arg3 (by decide)).trans <| (W5_keep m ρ c main_arg3 (by decide)).trans <| (W4_of_ne m ρ c main_arg3 (by decide)).trans <| (W3_keep m ρ c main_arg3 (by decide)).trans <| (W2_in m ρ c 1 rfl).trans <| (W1_keep m ρ c main_arg3 (by decide)).trans <| rfl
theorem W6_main_arg4 (c : Dev nD) : W6 m ρ c (Proc.devRef .tc main_arg4) = m ((c : Thread nD τ).loc main_arg4) :=
  (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem W6_main_arg5 (c : Dev nD) : W6 m ρ c (Proc.devRef .tc main_arg5) = m ((c : Thread nD τ).loc main_arg5) :=
  (W6_of_ne m ρ c main_arg5 (by decide)).trans <| (W5_keep m ρ c main_arg5 (by decide)).trans <| (W4_in m ρ c 4 rfl).trans <| (W3_keep m ρ c main_arg5 (by decide)).trans <| (W2_of_ne m ρ c main_arg5 (by decide)).trans <| (W1_keep m ρ c main_arg5 (by decide)).trans <| rfl
theorem W6_main_arg6 (c : Dev nD) : W6 m ρ c (Proc.devRef .tc main_arg6) = m ((c : Thread nD τ).loc main_arg6) :=
  (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem W6_main_arg7 (c : Dev nD) : W6 m ρ c (Proc.devRef .tc main_arg7) = m ((c : Thread nD τ).loc main_arg7) :=
  (W6_of_ne m ρ c main_arg7 (by decide)).trans <| (W5_keep m ρ c main_arg7 (by decide)).trans <| (W4_of_ne m ρ c main_arg7 (by decide)).trans <| (W3_keep m ρ c main_arg7 (by decide)).trans <| (W2_of_ne m ρ c main_arg7 (by decide)).trans <| (W1_keep m ρ c main_arg7 (by decide)).trans <| rfl
theorem W6_main_arg8 (c : Dev nD) : W6 m ρ c (Proc.devRef .tc main_arg8) = m ((c : Thread nD τ).loc main_arg8) :=
  (W6_in m ρ c 4 rfl).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem W6_main_arg9 (c : Dev nD) : W6 m ρ c (Proc.devRef .tc main_arg9) = m ((c : Thread nD τ).loc main_arg9) :=
  (W6_of_ne m ρ c main_arg9 (by decide)).trans <| (W5_keep m ρ c main_arg9 (by decide)).trans <| (W4_of_ne m ρ c main_arg9 (by decide)).trans <| (W3_keep m ρ c main_arg9 (by decide)).trans <| (W2_of_ne m ρ c main_arg9 (by decide)).trans <| (W1_keep m ρ c main_arg9 (by decide)).trans <| rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    every final state holds every unscoped buffer at `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c _ (mem_uc main_v41 (by decide)), (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c)⟩) (run_all m ρ)

end Cert.KernelIdeal.Fr

end
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.Spec.lean ====
/-
  The mathematics of the two programs, as functions of the argument arrays read at plain indices, over the extended reals.

  A graph on `Nn` nodes has `Ne` directed edges `src e → dst e`, given as 32-bit words. A start index `v` LANDS on node
  `n` when its signed value is exactly `n` (an accumulating scatter drops every other update); a gather of row `v`
  reads row `rowOf v`: a negative word is first moved up by `Nn`, and the result is clamped into the rows.

  Both programs run two rounds of "multiply the node features by a weight matrix, average them over the in-edges
  and a self-loop with the symmetric weights `dinv s · dinv d`, add a bias, clip below at zero", then the mean over
  all nodes, one more product with a column of weights, and a bias.

  * `Kern`: the self-loop is kept apart. The features are scaled by `dinv` once (`scaled`), only the `Ne` edges are
    summed (`agg`), and the receiving node's own scaled row and the second factor `dinv d` are applied afterwards
    (`act`). The in-degree counts the edges and adds one. The mean is a product with the reciprocal `invN`.
  * `Ref`: the self-loops are `Nn` further edges `i → i` appended to the list (`fsrc`, `fdst` over `Nf = Ne + Nn`),
    every message carries its whole weight `dinv s · dinv d`, and the mean is a quotient by `cN`.

  `Cert.Gcn.kern_eq_ref` (in the algebra module) says the two results are one extended real.
-/
import Idealize.ShloMosaic.PureOps.Ideal
import Idealize.ShloMosaic.Lib.ValueIdx
import proofs.«139629_j28845000360148_2_alg».proof.Proof.LibGatherScatter

noncomputable section

open scoped BigOperators

namespace Cert.Gcn

open Idealize.ShloMosaic Idealize.ShloMosaic.RowIdx

/-- The number of nodes, of edges, and of edges with one self-loop per node appended. -/
abbrev Nn : Nat := 100000
abbrev Ne : Nat := 1000000
abbrev Nf : Nat := 1100000

/-- The float constants the programs carry, as the extended reals their words denote. -/
def one : EReal := Ideal.ofBits .f32 0x3F800000#32
def eps : EReal := Ideal.ofBits .f32 0x2B8CBCCC#32
def cN : EReal := Ideal.ofBits .f32 0x47C35000#32
/-- The reciprocal of the number of nodes, as the exact rational. -/
def invN : EReal := ((1 / 100000 : ℝ) : EReal)

/-- A start index with a negative word moved up by the number of nodes (NumPy's indexing from the end). -/
def wrap (v : BitVec 32) : BitVec 32 := Scalar.select (IntOp.cmpi .slt v 0#32) (IntOp.addi v 100000#32) v
/-- The row a gather reads at start index `v`. -/
def rowOf (v : BitVec 32) : Fin Nn := clampRow Nn (by decide) (wrap v)
/-- The updates of an accumulating scatter that land on node `n`. -/
def into {M : Nat} (d : Fin M → BitVec 32) (n : Fin Nn) : Finset (Fin M) :=
  Finset.univ.filter fun e => (d e).toInt = (n.val : Int)

/-- The reciprocal square root of a degree, floored at `eps`. -/
def rs (deg : EReal) : EReal := Ideal.rsqrt (max deg eps)

/-- A product of node features with a weight matrix, at node `n`, column `f`. -/
def mm (a : Fin Nn → Fin 64 → EReal) (W : Fin 64 → Fin 64 → EReal) (n : Fin Nn) (f : Fin 64) : EReal := ∑ k, a n k * W k f

section Kern
variable (src dst : Fin Ne → BitVec 32)

/-- In-degree plus the self-loop. -/
def degK (n : Fin Nn) : EReal := (∑ _e ∈ into dst n, one) + one
def dinvK (n : Fin Nn) : EReal := rs (degK dst n)
/-- Features times weights, scaled by the node's own factor. -/
def scaled (a : Fin Nn → Fin 64 → EReal) (W : Fin 64 → Fin 64 → EReal) (n : Fin Nn) (f : Fin 64) : EReal := mm a W n f * dinvK dst n
/-- The scaled rows of the sources of the edges into `n`, summed. -/
def agg (hs : Fin Nn → Fin 64 → EReal) (n : Fin Nn) (f : Fin 64) : EReal := ∑ e ∈ into dst n, hs (rowOf (src e)) f
/-- One round's output from the scaled features. -/
def act (hs : Fin Nn → Fin 64 → EReal) (b : Fin 64 → EReal) (n : Fin Nn) (f : Fin 64) : EReal :=
  max (dinvK dst n * (agg src dst hs n f + hs n f) + b f) 0

variable (x : Fin Nn → Fin 64 → EReal) (W1 W2 : Fin 64 → Fin 64 → EReal) (b1 b2 : Fin 64 → EReal) (fw : Fin 64 → EReal) (fb : EReal)

def a1K : Fin Nn → Fin 64 → EReal := act src dst (scaled dst x W1) b1
def a2K : Fin Nn → Fin 64 → EReal := act src dst (scaled dst (a1K src dst x W1 b1) W2) b2
/-- The first kernel's whole output array and the second's. -/
def h1K : Fin Nn → Fin 64 → EReal := scaled dst x W1
def h2K : Fin Nn → Fin 64 → EReal := scaled dst (a1K src dst x W1 b1) W2
/-- The kernel's result. -/
def outK : EReal := (∑ k, ((∑ n, a2K src dst x W1 W2 b1 b2 n k) * invN) * fw k) + fb

end Kern

section Ref
variable (src dst : Fin Ne → BitVec 32)

/-- The edge list with a self-loop `i → i` per node appended (the same words for sources and destinations). -/
def withLoops (d : Fin Ne → BitVec 32) (e : Fin Nf) : BitVec 32 :=
  if h : e.val < Ne then d ⟨e.val, h⟩ else BitVec.ofNat 32 (e.val - Ne)

def degR (n : Fin Nn) : EReal := ∑ _e ∈ into (withLoops dst) n, one
def dinvR (n : Fin Nn) : EReal := rs (degR dst n)
/-- One round of the reference: every message carries its symmetric weight. -/
def layerR (a : Fin Nn → Fin 64 → EReal) (W : Fin 64 → Fin 64 → EReal) (b : Fin 64 → EReal) (n : Fin Nn) (f : Fin 64) : EReal :=
  max ((∑ e ∈ into (withLoops dst) n,
      mm a W (rowOf (withLoops src e)) f * (dinvR dst (rowOf (withLoops src e)) * dinvR dst (rowOf (withLoops dst e)))) + b f) 0

variable (x : Fin Nn → Fin 64 → EReal) (W1 W2 : Fin 64 → Fin 64 → EReal) (b1 b2 : Fin 64 → EReal) (fw : Fin 64 → EReal) (fb : EReal)

def a1R : Fin Nn → Fin 64 → EReal := layerR src dst x W1 b1
def a2R : Fin Nn → Fin 64 → EReal := layerR src dst (a1R src dst x W1 b1) W2 b2
/-- The reference's result. -/
def outR : EReal := (∑ k, Ideal.div (∑ n, a2R src dst x W1 W2 b1 b2 n k) cN * fw k) + fb

end Ref

/-! ## The argument arrays read at plain indices -/

open Idealize.ShloMosaic.ValueIdx in
/-- The sources and the destinations of the edges: rows 0 and 1 of the edge array. -/
def srcOf (ei : (⟨2, ![2, 1000000]⟩ : Shape).Idx → BitVec 32) (e : Fin Ne) : BitVec 32 := ei (ix2 (0 : Fin 2) e)
open Idealize.ShloMosaic.ValueIdx in
def dstOf (ei : (⟨2, ![2, 1000000]⟩ : Shape).Idx → BitVec 32) (e : Fin Ne) : BitVec 32 := ei (ix2 (1 : Fin 2) e)
open Idealize.ShloMosaic.ValueIdx in
/-- A rank-2 array as a function of its two coordinates, a rank-1 array of its one. -/
def mat {A B : Nat} (x : (⟨2, ![A, B]⟩ : Shape).Idx → EReal) (i : Fin A) (j : Fin B) : EReal := x (ix2 i j)
open Idealize.ShloMosaic.ValueIdx in
def vec {A : Nat} (b : (⟨1, ![A]⟩ : Shape).Idx → EReal) (i : Fin A) : EReal := b (ix1 i)

/-- The kernel's and the reference's results as functions of the ten argument arrays (the two the programs never read
    left out): `x`, the edge array, `W1`, `b1`, `W2`, `b2`, `fc_w`, `fc_b`. -/
def kernOf (x : (⟨2, ![100000, 64]⟩ : Shape).Idx → EReal) (ei : (⟨2, ![2, 1000000]⟩ : Shape).Idx → BitVec 32)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (fw : (⟨2, ![64, 1]⟩ : Shape).Idx → EReal) (fb : (⟨1, ![1]⟩ : Shape).Idx → EReal) : EReal :=
  outK (srcOf ei) (dstOf ei) (mat x) (mat W1) (mat W2) (vec b1) (vec b2) (fun k => mat fw k (0 : Fin 1)) (vec fb (0 : Fin 1))
def refOf (x : (⟨2, ![100000, 64]⟩ : Shape).Idx → EReal) (ei : (⟨2, ![2, 1000000]⟩ : Shape).Idx → BitVec 32)
    (W1 : (⟨2, ![64, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (fw : (⟨2, ![64, 1]⟩ : Shape).Idx → EReal) (fb : (⟨1, ![1]⟩ : Shape).Idx → EReal) : EReal :=
  outR (srcOf ei) (dstOf ei) (mat x) (mat W1) (mat W2) (vec b1) (vec b2) (fun k => mat fw k (0 : Fin 1)) (vec fb (0 : Fin 1))

end Cert.Gcn

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.Payloads.lean ====
/-
  The kernel bodies' arithmetic, read at one entry at the ideal values.

  Each kernel body stores one pure term of the blocks it loads. At the ideal values the format changes between the
  32-bit and the 16-bit floats are the identity, a product accumulated into the zero array is the sum over the shared
  extent, a column or a row broadcast across a block repeats that column or row, and a sum over the rows of a block is
  the sum over the row coordinate. So entry (p, q) of the first body's block is (∑ₖ x(p,k)·w(k,q))·d(p); of the second
  body's block (∑ₖ relu(d(p)·(g(p,k) + h(p,k)) + b(k))·w(k,q))·d'(p); the pooling body first stores a zero row, then adds
  to the running row the column sums of relu(d(r)·(g(r,f) + h(r,f)) + b(f)) over the block's rows, and last multiplies the
  running row by the reciprocal of the node count, contracts it with the final weights and adds the final bias.
-/
import proofs.«139629_j28845000360148_2_alg».proof.Proof.Gen.KernelIdeal.Skeleton
import proofs.«139629_j28845000360148_2_alg».proof.Proof.Spec
import proofs.«139629_j28845000360148_2_alg».proof.Proof.LibMatRows
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx

/-- An `[a, 1]` column broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first two bodies' product is the plain one: rows by the shared extent times the shared extent by columns. -/
theorem dot0_eq : dot_S4000x64_S64x64_S4000x64_1_0_0_1_n_n = DotDims.plain 4000 64 64 := rfl

/-- Entry (p, q) of the first body's block: the product's entry times the row's scale. -/
theorem pay0 (x0 : Vec Ideal S4000x64 .f32) (w : Vec Ideal S64x64 .f32) (d : Vec Ideal S4000x1 .f32) (p : Fin 4000) (q : Fin 64) :
    k0_pay1 (F := Ideal) x0 w d (ix2 p q) = (∑ k : Fin 64, x0 (ix2 p k) * w (ix2 k q)) * d (ix2 p (0 : Fin 1)) := by
  unfold k0_pay1
  rw [truncf_apply, mulf_apply]
  refine congrArg₂ (· * ·) ?_ ?_
  · exact MatRows.matmul_plain_apply none (truncf .bf16 x0 bitsLt_bf16_f32) (truncf .bf16 w bitsLt_bf16_f32) p q
  · exact (broadcastTo_a1_ab_apply _ _ p q).trans (congrFun (shapeCast_self d _) _)

/-- The activation both later bodies compute from a block: at (p, k) it is relu of the row's scale times the sum of the
    aggregated and the own feature, plus the bias of column k. -/
theorem act_apply (d : FVec Ideal S4000x1 .f32) (g : FVec Ideal S4000x64 .f32) (hs : FVec Ideal S4000x64 .bf16)
    (b : FVec Ideal S1x64 .f32) (p : Fin 4000) (k : Fin 64) :
    maximumf
        (addf
          (mulf (broadcastTo S4000x64 (shapeCast S4000x1 d shapeCasts_S4000x1_S4000x1) broadcasts_S4000x1_S4000x64)
            (addf (shapeCast S4000x64 g shapeCasts_S4000x64_S4000x64)
              (extf .f32 (shapeCast S4000x64 hs shapeCasts_S4000x64_S4000x64) bitsLt_bf16_f32)))
          (broadcastTo S4000x64 (shapeCast S1x64 b shapeCasts_S1x64_S1x64) broadcasts_S1x64_S4000x64))
        (broadcast S4000x64 (Scalar.ofBits .f32 0x00000000#32)) (ix2 p k)
      = max (d (ix2 p (0 : Fin 1)) * (g (ix2 p k) + hs (ix2 p k)) + b (ix2 (0 : Fin 1) k)) 0 := by
  show max (broadcastTo S4000x64 (shapeCast S4000x1 d _) _ (ix2 p k)
        * (shapeCast S4000x64 g _ (ix2 p k) + shapeCast S4000x64 hs _ (ix2 p k))
        + broadcastTo S4000x64 (shapeCast S1x64 b _) _ (ix2 p k)) (Ideal.ofBits .f32 0x00000000#32) = _
  rw [broadcastTo_a1_ab_apply, broadcastTo_1b_ab_apply, shapeCast_self, shapeCast_self, shapeCast_self, shapeCast_self,
    Ideal.ofBits_zero_f32]

/-- Entry (p, q) of the second body's block: the activation's row p contracted with the weights' column q, times the
    row's scale. -/
theorem pay1 (d : Vec Ideal S4000x1 .f32) (g : Vec Ideal S4000x64 .f32) (hs : Vec Ideal S4000x64 .bf16) (b : Vec Ideal S1x64 .f32) (w : Vec Ideal S64x64 .f32) (d' : Vec Ideal S4000x1 .f32) (p : Fin 4000) (q : Fin 64) :
    k1_pay1 (F := Ideal) d g hs b w d' (ix2 p q)
      = (∑ k : Fin 64, max (d (ix2 p (0 : Fin 1)) * (g (ix2 p k) + hs (ix2 p k)) + b (ix2 (0 : Fin 1) k)) 0 * w (ix2 k q)) * d' (ix2 p (0 : Fin 1)) := by
  unfold k1_pay1
  rw [truncf_apply, mulf_apply]
  refine congrArg₂ (· * ·) ?_ ?_
  · refine (MatRows.matmul_plain_apply none _ (truncf .bf16 w bitsLt_bf16_f32) p q).trans ?_
    refine Finset.sum_congr rfl fun k _ => ?_
    refine congrArg₂ (· * ·) ?_ rfl
    rw [truncf_apply]
    exact act_apply d g hs b p k
  · exact (broadcastTo_a1_ab_apply _ _ p q).trans (congrFun (shapeCast_self d' _) _)

/-- The sum over the rows of a block, read at column f: the sum over the row coordinate. -/
theorem colsum_apply (src : FVec Ideal S4000x64 .f32) (hφ : FKind.Formats .f32)
    (hacc : (0x00000000#32 : BitVec 32) = FKind.add.neutral .f32 hφ) (f : Fin 64) :
    multiReduction .add [0] S64 src 0x00000000#32 reduces_S4000x64_S64 hφ hacc (ix1 f) = ∑ r : Fin 4000, src (ix2 r f) := by
  refine (Ideal.multiReduction_add_single src _ reduces_S4000x64_S64 hφ hacc (ix1 f)).trans ?_
  refine Finset.sum_congr rfl fun r _ => congrArg src ?_
  funext a
  refine Fin.ext ?_
  match a with
  | ⟨0, _⟩ => rfl
  | ⟨1, _⟩ => rfl

/-- The pooling body's first store is the zero row. -/
theorem pay2_zero (f : Fin 64) : k2_pay1 (F := Ideal) (ix2 (0 : Fin 1) f) = 0 := by
  unfold k2_pay1
  refine (congrFun (shapeCast_self _ _) _).trans ?_
  rw [broadcast_apply]
  exact Ideal.ofBits_zero_f32

/-- The pooling body's running row at column f: the row before plus the block's column sum of the activation. -/
theorem pay2_acc (d : Vec Ideal S4000x1 .f32) (g : Vec Ideal S4000x64 .f32) (hs : Vec Ideal S4000x64 .bf16) (b : Vec Ideal S1x64 .f32) (acc : Vec Ideal S1x64 .f32) (f : Fin 64) :
    k2_pay2 (F := Ideal) d g hs b acc (ix2 (0 : Fin 1) f)
      = acc (ix2 (0 : Fin 1) f) + ∑ r : Fin 4000, max (d (ix2 r (0 : Fin 1)) * (g (ix2 r f) + hs (ix2 r f)) + b (ix2 (0 : Fin 1) f)) 0 := by
  unfold k2_pay2
  refine (congrFun (shapeCast_self _ _) _).trans ?_
  rw [addf_apply]
  refine congrArg₂ (· + ·) rfl ?_
  refine (shapeCast_a_1a_apply _ _ (0 : Fin 1) f).trans ?_
  refine (colsum_apply _ _ _ f).trans ?_
  exact Finset.sum_congr rfl fun r _ => act_apply d g hs b r f

/-- The pooling body's last product is the plain one of a row with a column. -/
theorem dot1_eq : dot_S1x64_S64x1_S1x1_1_0_0_1_n_n = DotDims.plain 1 64 1 := rfl

/-- The named reciprocal denotes the exact rational the table gives it. -/
theorem inv_named : Named.named (F := Ideal) Cert.KernelIdeal.κ "inv_100000" (φ := .f32) 0x3727C5AC#32 = Cert.Gcn.invN :=
  IdealRules.named_const.ideal_named_scalar _ _ _ _ rfl

/-- The pooling body's result: the running row times the reciprocal of the node count, contracted with the final
    weights, plus the final bias. -/
theorem pay2_out (acc : Vec Ideal S1x64 .f32) (fw : Vec Ideal S64x1 .f32) (fb : Vec Ideal S1x1 .f32) :
    k2_pay3 (F := Ideal) acc fw fb (ix2 (0 : Fin 1) (0 : Fin 1))
      = (∑ k : Fin 64, (acc (ix2 (0 : Fin 1) k) * Cert.Gcn.invN) * fw (ix2 k (0 : Fin 1))) + fb (ix2 (0 : Fin 1) (0 : Fin 1)) := by
  unfold k2_pay3
  rw [addf_apply]
  refine congrArg₂ (· + ·) ?_ (congrFun (shapeCast_self fb _) _)
  refine (MatRows.matmul_plain_apply none _ (truncf .bf16 fw bitsLt_bf16_f32) (0 : Fin 1) (0 : Fin 1)).trans ?_
  refine Finset.sum_congr rfl fun k _ => ?_
  refine congrArg₂ (· * ·) ?_ rfl
  rw [truncf_apply, mulf_apply, broadcast_apply]
  exact congrArg (acc (ix2 (0 : Fin 1) k) * ·) inv_named

end Cert.KernelIdeal.Pay

end
-- ==== Proof.KiValue01.lean ====
/-
  The output arrays of the first two kernels, each as one function of the arrays the region finds, at the ideal values.

  Both kernels run over 25 grid points. At point `t` a row-blocked window holds rows `4000 t … 4000 t + 3999` of its
  array, a whole-array window (a weight matrix, a bias row) holds the array, and the body's one store leaves in the output
  block a pure function of the input blocks; the block is written back at every point. Entry `(p, q)` of the block at
  point `t` is entry `(4000 t + p, q)` of the array, the blocks of the 25 points cover the array (row `r` lies in block
  `r / 4000`), so the array ends as ONE function of the input arrays, entry by entry:

  * the first kernel: `(Σ_k x(n,k) · w(k,f)) · d(n)`;
  * the second: `(Σ_k max(d(n) · (g(n,k) + h(n,k)) + b(k), 0) · w(k,f)) · d(n)`.
-/
import proofs.«139629_j28845000360148_2_alg».proof.Proof.KiRegion0
import proofs.«139629_j28845000360148_2_alg».proof.Proof.KiRegion1
import proofs.«139629_j28845000360148_2_alg».proof.Proof.Payloads
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first kernel's output array -/

/-- Entry `(n, f)` of the scaled product: row `n` of the features contracted with column `f` of the weights, times the row's factor. -/
def g0 (x : S100000x64.Idx → EReal) (w : S64x64.Idx → EReal) (d : S100000x1.Idx → EReal) (n : Fin 100000) (f : Fin 64) : EReal :=
  (∑ k : Fin 64, x (ix2 n k) * w (ix2 k f)) * d (ix2 n (0 : Fin 1))

/-- The whole array of them. -/
def G0 (x : S100000x64.Idx → EReal) (w : S64x64.Idx → EReal) (d : S100000x1.Idx → EReal) : S100000x64.Idx → EReal :=
  fun i => g0 x w d (i 0) (i 1)

theorem G0_apply (x : S100000x64.Idx → EReal) (w : S64x64.Idx → EReal) (d : S100000x1.Idx → EReal) (n : Fin 100000) (f : Fin 64) :
    G0 x w d (ix2 n f) = g0 x w d n f := rfl

/-- The block indices at grid point `t`: the row-blocked windows are at block `t`, the whole-array window at block 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One entry of the body's block, from the entries of the input blocks it reads. -/
theorem point0 (x0 : Vec Ideal S4000x64 .f32) (w : Vec Ideal S64x64 .f32) (d : Vec Ideal S4000x1 .f32)
    (X : S100000x64.Idx → EReal) (W : S64x64.Idx → EReal) (D : S100000x1.Idx → EReal) (p : Fin 4000) (q : Fin 64) (n : Fin 100000)
    (hx : ∀ k : Fin 64, x0 (ix2 p k) = X (ix2 n k)) (hw : ∀ k : Fin 64, w (ix2 k q) = W (ix2 k q))
    (hd : d (ix2 p (0 : Fin 1)) = D (ix2 n (0 : Fin 1))) :
    k0_pay1 (F := Ideal) x0 w d (ix2 p q) = g0 X W D n q := by
  rw [Pay.pay0]
  unfold g0
  rw [hd]
  refine congrArg (· * D (ix2 n (0 : Fin 1))) ?_
  exact Finset.sum_congr rfl fun k _ => by rw [hx, hw]

/-- Window 0's block at point `t` is rows `4000 t … 4000 t + 3999` of the features. -/
theorem iblk0_0_apply (c : Dev nD) (t : Fin cfg0.N) (p : Fin 4000) (k : Fin 64) (n : Fin 100000) (hn : n.val = 4000 * t.val + p.val) :
    (iblk0 V c 0 t : Vec Ideal S4000x64 .f32) (ix2 p k) = (V c main_arg0 : S100000x64.Idx → EReal) (ix2 n k) := by
  obtain ⟨e0, e1, -⟩ := index0 t
  unfold iblk0
  rw [View.read_apply]
  show V c main_arg0 _ = V c main_arg0 _
  congr 1
  funext a
  apply Fin.ext
  match a with
  | ⟨0, _⟩ => show win0_0.index t 0 * 4000 + 1 * p.val = n.val; rw [e0, hn]; omega
  | ⟨1, _⟩ => show win0_0.index t 1 * 64 + 1 * k.val = k.val; rw [e1]; omega

/-- Window 1's block is the weights. -/
theorem iblk0_1_apply (c : Dev nD) (t : Fin cfg0.N) (k : Fin 64) (q : Fin 64) :
    (iblk0 V c 1 t : Vec Ideal S64x64 .f32) (ix2 k q) = (V c main_arg3 : S64x64.Idx → EReal) (ix2 k q) := by
  obtain ⟨-, -, e2, e3, -⟩ := index0 t
  unfold iblk0
  rw [View.read_apply]
  show V c main_arg3 _ = V c main_arg3 _
  congr 1
  funext a
  apply Fin.ext
  match a with
  | ⟨0, _⟩ => show win0_1.index t 0 * 64 + 1 * k.val = k.val; rw [e2]; omega
  | ⟨1, _⟩ => show win0_1.index t 1 * 64 + 1 * q.val = q.val; rw [e3]; omega

/-- Window 2's block at point `t` is rows `4000 t …` of the factors. -/
theorem iblk0_2_apply (c : Dev nD) (t : Fin cfg0.N) (p : Fin 4000) (n : Fin 100000) (hn : n.val = 4000 * t.val + p.val) :
    (iblk0 V c 2 t : Vec Ideal S4000x1 .f32) (ix2 p (0 : Fin 1)) = (V c main_v13 : S100000x1.Idx → EReal) (ix2 n (0 : Fin 1)) := by
  obtain ⟨-, -, -, -, e4, e5, -⟩ := index0 t
  unfold iblk0
  rw [View.read_apply]
  show V c main_v13 _ = V c main_v13 _
  congr 1
  funext a
  apply Fin.ext
  match a with
  | ⟨0, _⟩ => show win0_2.index t 0 * 4000 + 1 * p.val = n.val; rw [e4, hn]; omega
  | ⟨1, _⟩ => show win0_2.index t 1 * 1 + 1 * 0 = 0; rw [e5]

/-- Entry `(p, q)` of the output window's block at point `t` is entry `(4000 t + p, q)` of the array. -/
theorem emb0_3 (t : Fin cfg0.N) (p : Fin 4000) (q : Fin 64) (n : Fin 100000) (hn : n.val = 4000 * t.val + p.val) :
    (((cfg0.win 3).blk t).view.emb (ix2 p q) : S100000x64.Idx) = ix2 n q := by
  obtain ⟨-, -, -, -, -, -, e6, e7⟩ := index0 t
  funext a
  apply Fin.ext
  match a with
  | ⟨0, _⟩ => show win0_3.index t 0 * 4000 + 1 * p.val = n.val; rw [e6, hn]; omega
  | ⟨1, _⟩ => show win0_3.index t 1 * 64 + 1 * q.val = q.val; rw [e7]; omega

/-- What point `t` writes back is block `t` of `G0` of the arrays as the region finds them. -/
theorem flushed0_eq (c : Dev nD) (t : Fin cfg0.N) :
    (dat0 (F := Ideal) V c).flushed 3 t
      = ((cfg0.win 3).blk t).view.read (Elt Ideal) (G0 (V c main_arg0) (V c main_arg3) (V c main_v13)) := by
  show (cfg0.win 3).cut (grid0.coords t) ((dat0 V c).after 3 t) = _
  rw [after0_3]
  unfold out0_3
  rw [View.canon_unit_zero zero_offsets]
  simp only [View.ld_unit_zero (S := S4000x64) zero_offsets, View.ld_unit_zero (S := S64x64) zero_offsets,
    View.ld_unit_zero (S := S4000x1) zero_offsets]
  show (fun j : S4000x64.Idx => k0_pay1 (F := Ideal) (iblk0 V c 0 t) (iblk0 V c 1 t) (iblk0 V c 2 t) j)
    = fun j : S4000x64.Idx => G0 (V c main_arg0) (V c main_arg3) (V c main_v13) (((cfg0.win 3).blk t).view.emb j)
  funext j
  obtain ⟨p, q, rfl⟩ : ∃ (p : Fin 4000) (q : Fin 64), j = ix2 p q := ⟨j 0, j 1, eq_ix2 j⟩
  have ht : t.val < 25 := by have h1 := t.isLt; have hN : cfg0.N = 25 := N_0; omega
  have hp : p.val < 4000 := p.isLt
  let n : Fin 100000 := ⟨4000 * t.val + p.val, by omega⟩
  rw [emb0_3 t p q n rfl, G0_apply]
  exact point0 (iblk0 V c 0 t) (iblk0 V c 1 t) (iblk0 V c 2 t) (V c main_arg0) (V c main_arg3) (V c main_v13) p q n
    (fun k => iblk0_0_apply V c t p k n rfl) (fun k => iblk0_1_apply V c t k q) (iblk0_2_apply V c t p n rfl)

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v17).slice (win0_3.rect t)).set ↔ _
  rw [View.set_slice_whole, Rect.mem_set_unit]
  exact Iff.rfl

/-- Every entry of the array is in some point's block: row `r` in block `r / 4000`. -/
theorem cover0 (i : S100000x64.Idx) :
    ∃ t : Fin cfg0.N, (cfg0.win 3).flush t = true ∧ i ∈ ((cfg0.win 3).blk t).view.set := by
  have h0 : (i 0).val < 100000 := idx2_lt0 i
  have h1 : (i 1).val < 64 := idx2_lt1 i
  have hN : cfg0.N = 25 := N_0
  refine ⟨⟨(i 0).val / 4000, by rw [hN]; omega⟩, flush0_3 _, ?_⟩
  rw [mem_blk0]
  obtain ⟨-, -, -, -, -, -, e6, e7⟩ := index0 ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e6]; show (i 0).val / 4000 * 4000 ≤ (i 0).val ∧ (i 0).val < (i 0).val / 4000 * 4000 + 4000; omega
  | ⟨1, _⟩ =>
    show win0_3.index _ (1 : Fin 2) * 64 ≤ (i 1).val ∧ (i 1).val < win0_3.index _ (1 : Fin 2) * 64 + 64
    rw [e7]; omega

/-- The first kernel's output array after the run, entry by entry. -/
theorem arr0 (c : Dev nD) (n : Fin 100000) (f : Fin 64) :
    ((dat0 (F := Ideal) V c).arrAt 3 cfg0.N : S100000x64.Idx → EReal) (ix2 n f)
      = g0 (V c main_arg0) (V c main_arg3) (V c main_v13) n f := by
  rw [(dat0 (F := Ideal) V c).arrAt_eq_of_cover 3 (G0 (V c main_arg0) (V c main_arg3) (V c main_v13))
    (fun t _ => flushed0_eq V c t) cover0]
  rfl

/-! ## The second kernel's output array -/

/-- Entry `(n, f)` of the next round's scaled product: the activation of row `n` — the row's factor times the sum of the
    aggregated and the own scaled features, plus the bias, clipped below at zero — contracted with column `f` of the
    weights, times the row's factor. -/
def g1 (d : S100000x1.Idx → EReal) (g : S100000x64.Idx → EReal) (h : S100000x64.Idx → EReal) (b : S1x64.Idx → EReal)
    (w : S64x64.Idx → EReal) (n : Fin 100000) (f : Fin 64) : EReal :=
  (∑ k : Fin 64, max (d (ix2 n (0 : Fin 1)) * (g (ix2 n k) + h (ix2 n k)) + b (ix2 (0 : Fin 1) k)) 0 * w (ix2 k f))
    * d (ix2 n (0 : Fin 1))

/-- The whole array of them. -/
def G1 (d : S100000x1.Idx → EReal) (g : S100000x64.Idx → EReal) (h : S100000x64.Idx → EReal) (b : S1x64.Idx → EReal)
    (w : S64x64.Idx → EReal) : S100000x64.Idx → EReal :=
  fun i => g1 d g h b w (i 0) (i 1)

theorem G1_apply (d : S100000x1.Idx → EReal) (g : S100000x64.Idx → EReal) (h : S100000x64.Idx → EReal) (b : S1x64.Idx → EReal)
    (w : S64x64.Idx → EReal) (n : Fin 100000) (f : Fin 64) : G1 d g h b w (ix2 n f) = g1 d g h b w n f := rfl

/-- The block indices at grid point `t`: the row-blocked windows are at block `t`, the whole-array windows at block 0. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of the body's block, from the entries of the input blocks it reads. -/
theorem point1 (d : Vec Ideal S4000x1 .f32) (g : Vec Ideal S4000x64 .f32) (hs : Vec Ideal S4000x64 .bf16) (b : Vec Ideal S1x64 .f32)
    (w : Vec Ideal S64x64 .f32)
    (D : S100000x1.Idx → EReal) (Gg : S100000x64.Idx → EReal) (H : S100000x64.Idx → EReal) (B : S1x64.Idx → EReal) (W : S64x64.Idx → EReal)
    (p : Fin 4000) (q : Fin 64) (n : Fin 100000)
    (hd : d (ix2 p (0 : Fin 1)) = D (ix2 n (0 : Fin 1))) (hg : ∀ k : Fin 64, g (ix2 p k) = Gg (ix2 n k))
    (hh : ∀ k : Fin 64, hs (ix2 p k) = H (ix2 n k)) (hb : ∀ k : Fin 64, b (ix2 (0 : Fin 1) k) = B (ix2 (0 : Fin 1) k))
    (hw : ∀ k : Fin 64, w (ix2 k q) = W (ix2 k q)) :
    k1_pay1 (F := Ideal) d g hs b w d (ix2 p q) = g1 D Gg H B W n q := by
  rw [Pay.pay1]
  unfold g1
  rw [hd]
  refine congrArg (· * D (ix2 n (0 : Fin 1))) ?_
  exact Finset.sum_congr rfl fun k _ => by rw [hg, hh, hb, hw]

/-- Window 0's block at point `t` is rows `4000 t … 4000 t + 3999` of the aggregated features. -/
theorem iblk1_0_apply (c : Dev nD) (t : Fin cfg1.N) (p : Fin 4000) (k : Fin 64) (n : Fin 100000) (hn : n.val = 4000 * t.val + p.val) :
    (iblk1 V c 0 t : Vec Ideal S4000x64 .f32) (ix2 p k) = (V c main_v28 : S100000x64.Idx → EReal) (ix2 n k) := by
  obtain ⟨e0, e1, -⟩ := index1 t
  unfold iblk1
  rw [View.read_apply]
  show V c main_v28 _ = V c main_v28 _
  congr 1
  funext a
  apply Fin.ext
  match a with
  | ⟨0, _⟩ => show win1_0.index t 0 * 4000 + 1 * p.val = n.val; rw [e0, hn]; omega
  | ⟨1, _⟩ => show win1_0.index t 1 * 64 + 1 * k.val = k.val; rw [e1]; omega

/-- Window 1's block at point `t` is rows `4000 t …` of the scaled features. -/
theorem iblk1_1_apply (c : Dev nD) (t : Fin cfg1.N) (p : Fin 4000) (k : Fin 64) (n : Fin 100000) (hn : n.val = 4000 * t.val + p.val) :
    (iblk1 V c 1 t : Vec Ideal S4000x64 .bf16) (ix2 p k) = (V c main_v17 : S100000x64.Idx → EReal) (ix2 n k) := by
  obtain ⟨-, -, e2, e3, -⟩ := index1 t
  unfold iblk1
  rw [View.read_apply]
  show V c main_v17 _ = V c main_v17 _
  congr 1
  funext a
  apply Fin.ext
  match a with
  | ⟨0, _⟩ => show win1_1.index t 0 * 4000 + 1 * p.val = n.val; rw [e2, hn]; omega
  | ⟨1, _⟩ => show win1_1.index t 1 * 64 + 1 * k.val = k.val; rw [e3]; omega

/-- Window 2's block at point `t` is rows `4000 t …` of the factors. -/
theorem iblk1_2_apply (c : Dev nD) (t : Fin cfg1.N) (p : Fin 4000) (n : Fin 100000) (hn : n.val = 4000 * t.val + p.val) :
    (iblk1 V c 2 t : Vec Ideal S4000x1 .f32) (ix2 p (0 : Fin 1)) = (V c main_v13 : S100000x1.Idx → EReal) (ix2 n (0 : Fin 1)) := by
  obtain ⟨-, -, -, -, e4, e5, -⟩ := index1 t
  unfold iblk1
  rw [View.read_apply]
  show V c main_v13 _ = V c main_v13 _
  congr 1
  funext a
  apply Fin.ext
  match a with
  | ⟨0, _⟩ => show win1_2.index t 0 * 4000 + 1 * p.val = n.val; rw [e4, hn]; omega
  | ⟨1, _⟩ => show win1_2.index t 1 * 1 + 1 * 0 = 0; rw [e5]

/-- Window 3's block is the bias row. -/
theorem iblk1_3_apply (c : Dev nD) (t : Fin cfg1.N) (k : Fin 64) :
    (iblk1 V c 3 t : Vec Ideal S1x64 .f32) (ix2 (0 : Fin 1) k) = (V c main_v14 : S1x64.Idx → EReal) (ix2 (0 : Fin 1) k) := by
  obtain ⟨-, -, -, -, -, -, e6, e7, -⟩ := index1 t
  unfold iblk1
  rw [View.read_apply]
  show V c main_v14 _ = V c main_v14 _
  congr 1
  funext a
  apply Fin.ext
  match a with
  | ⟨0, _⟩ => show win1_3.index t 0 * 1 + 1 * 0 = 0; rw [e6]
  | ⟨1, _⟩ => show win1_3.index t 1 * 64 + 1 * k.val = k.val; rw [e7]; omega

/-- Window 4's block is the weights. -/
theorem iblk1_4_apply (c : Dev nD) (t : Fin cfg1.N) (k : Fin 64) (q : Fin 64) :
    (iblk1 V c 4 t : Vec Ideal S64x64 .f32) (ix2 k q) = (V c main_arg5 : S64x64.Idx → EReal) (ix2 k q) := by
  obtain ⟨-, -, -, -, -, -, -, -, e8, e9, -⟩ := index1 t
  unfold iblk1
  rw [View.read_apply]
  show V c main_arg5 _ = V c main_arg5 _
  congr 1
  funext a
  apply Fin.ext
  match a with
  | ⟨0, _⟩ => show win1_4.index t 0 * 64 + 1 * k.val = k.val; rw [e8]; omega
  | ⟨1, _⟩ => show win1_4.index t 1 * 64 + 1 * q.val = q.val; rw [e9]; omega

/-- Entry `(p, q)` of the output window's block at point `t` is entry `(4000 t + p, q)` of the array. -/
theorem emb1_5 (t : Fin cfg1.N) (p : Fin 4000) (q : Fin 64) (n : Fin 100000) (hn : n.val = 4000 * t.val + p.val) :
    (((cfg1.win 5).blk t).view.emb (ix2 p q) : S100000x64.Idx) = ix2 n q := by
  obtain ⟨-, -, -, -, -, -, -, -, -, -, e10, e11⟩ := index1 t
  funext a
  apply Fin.ext
  match a with
  | ⟨0, _⟩ => show win1_5.index t 0 * 4000 + 1 * p.val = n.val; rw [e10, hn]; omega
  | ⟨1, _⟩ => show win1_5.index t 1 * 64 + 1 * q.val = q.val; rw [e11]; omega

/-- What point `t` writes back is block `t` of `G1` of the arrays as the region finds them. -/
theorem flushed1_eq (c : Dev nD) (t : Fin cfg1.N) :
    (dat1 (F := Ideal) V c).flushed 5 t
      = ((cfg1.win 5).blk t).view.read (Elt Ideal) (G1 (V c main_v13) (V c main_v28) (V c main_v17) (V c main_v14) (V c main_arg5)) := by
  show (cfg1.win 5).cut (grid1.coords t) ((dat1 V c).after 5 t) = _
  rw [after1_5]
  unfold out1_5
  rw [View.canon_unit_zero zero_offsets]
  simp only [View.ld_unit_zero (S := S4000x64) zero_offsets, View.ld_unit_zero (S := S64x64) zero_offsets,
    View.ld_unit_zero (S := S4000x1) zero_offsets, View.ld_unit_zero (S := S1x64) zero_offsets]
  show (fun j : S4000x64.Idx => k1_pay1 (F := Ideal) (iblk1 V c 2 t) (iblk1 V c 0 t) (iblk1 V c 1 t) (iblk1 V c 3 t) (iblk1 V c 4 t) (iblk1 V c 2 t) j)
    = fun j : S4000x64.Idx => G1 (V c main_v13) (V c main_v28) (V c main_v17) (V c main_v14) (V c main_arg5) (((cfg1.win 5).blk t).view.emb j)
  funext j
  obtain ⟨p, q, rfl⟩ : ∃ (p : Fin 4000) (q : Fin 64), j = ix2 p q := ⟨j 0, j 1, eq_ix2 j⟩
  have ht : t.val < 25 := by have h1 := t.isLt; have hN : cfg1.N = 25 := N_1; omega
  have hp : p.val < 4000 := p.isLt
  let n : Fin 100000 := ⟨4000 * t.val + p.val, by omega⟩
  rw [emb1_5 t p q n rfl, G1_apply]
  exact point1 (iblk1 V c 2 t) (iblk1 V c 0 t) (iblk1 V c 1 t) (iblk1 V c 3 t) (iblk1 V c 4 t)
    (V c main_v13) (V c main_v28) (V c main_v17) (V c main_v14) (V c main_arg5) p q n
    (iblk1_2_apply V c t p n rfl) (fun k => iblk1_0_apply V c t p k n rfl) (fun k => iblk1_1_apply V c t p k n rfl)
    (fun k => iblk1_3_apply V c t k) (fun k => iblk1_4_apply V c t k q)

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v29).slice (win1_5.rect t)).set ↔ _
  rw [View.set_slice_whole, Rect.mem_set_unit]
  exact Iff.rfl

/-- Every entry of the array is in some point's block: row `r` in block `r / 4000`. -/
theorem cover1 (i : S100000x64.Idx) :
    ∃ t : Fin cfg1.N, (cfg1.win 5).flush t = true ∧ i ∈ ((cfg1.win 5).blk t).view.set := by
  have h0 : (i 0).val < 100000 := idx2_lt0 i
  have h1 : (i 1).val < 64 := idx2_lt1 i
  have hN : cfg1.N = 25 := N_1
  refine ⟨⟨(i 0).val / 4000, by rw [hN]; omega⟩, flush1_5 _, ?_⟩
  rw [mem_blk1]
  obtain ⟨-, -, -, -, -, -, -, -, -, -, e10, e11⟩ := index1 ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e10]; show (i 0).val / 4000 * 4000 ≤ (i 0).val ∧ (i 0).val < (i 0).val / 4000 * 4000 + 4000; omega
  | ⟨1, _⟩ =>
    show win1_5.index _ (1 : Fin 2) * 64 ≤ (i 1).val ∧ (i 1).val < win1_5.index _ (1 : Fin 2) * 64 + 64
    rw [e11]; omega

/-- The second kernel's output array after the run, entry by entry. -/
theorem arr1 (c : Dev nD) (n : Fin 100000) (f : Fin 64) :
    ((dat1 (F := Ideal) V c).arrAt 5 cfg1.N : S100000x64.Idx → EReal) (ix2 n f)
      = g1 (V c main_v13) (V c main_v28) (V c main_v17) (V c main_v14) (V c main_arg5) n f := by
  rw [(dat1 (F := Ideal) V c).arrAt_eq_of_cover 5 (G1 (V c main_v13) (V c main_v28) (V c main_v17) (V c main_v14) (V c main_arg5))
    (fun t _ => flushed1_eq V c t) cover1]
  rfl

end Cert.KernelIdeal.Val

end
-- ==== Proof.LibHostScatter.lean ====
/-
  The accumulating row scatters of LibGatherScatter, stated for the host operation `Host.scatterAdd` itself at the ideal
  instance (which is, by definition, the exact sum `Ideal.hostScatterAdd`), generic in the extents and in the float format:
  a goal that spells the operation as the program prints it meets these lemmas head on.
-/
import proofs.«139629_j28845000360148_2_alg».proof.Proof.LibGatherScatter

noncomputable section

open scoped BigOperators

namespace Idealize.ShloMosaic.RowIdx

open Idealize.ShloMosaic Idealize.ShloMosaic.ValueIdx

/-- The host's accumulating row scatter at `(n, q)`: the operand there plus the updates `(e, q)` of the rows whose
    start index is `n`. -/
theorem host_rowScatterAdd_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (n : Fin N) (q : Fin C) :
    Host.scatterAdd (F := Ideal) (rowScatterDims N M C wf) x idx upd (ix2 n q)
      = x (ix2 n q) + ∑ e ∈ Finset.univ.filter (fun e : Fin M => (idx (ix2 e (0 : Fin 1))).toInt = (n.val : Int)), upd (ix2 e q) :=
  rowScatterAdd_apply wf x idx upd n q

/-- The host's accumulating flat scatter at `n`: the operand there plus the updates whose start index is `n`. -/
theorem host_flatScatterAdd_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (flatScatterDims N M wf) x idx upd (ix1 n)
      = x (ix1 n) + ∑ e ∈ Finset.univ.filter (fun e : Fin M => (idx (ix2 e (0 : Fin 1))).toInt = (n.val : Int)), upd (ix1 e) :=
  flatScatterAdd_apply wf x idx upd n

end Idealize.ShloMosaic.RowIdx

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.HostVals.lean ====
/-
  What the host operations between the three kernels compute, read at one index, over the extended reals.

  The program runs three stretches of array operations, each followed by a kernel. The first cuts the edge array
  into its row of source words and its row of destination words, counts for every node the edges that arrive at it
  (ones added up at the destinations), adds one for the node's own loop, floors the count at a small positive constant
  and takes the reciprocal square root: the node's symmetric weight, laid out as a column. It also lays two bias
  vectors out as rows and the last bias as a one-entry matrix. The second and the third stretch are one computation on
  two arrays: a negative source word is moved up by the number of nodes, the rows of the preceding kernel's output are
  gathered at the sources, widened, and added up into zeros at the destinations.

  Each theorem below reads one result buffer of a stretch at an index and names the value in terms of the buffers the
  stretch started from: an entry of the edge array, an entry of a bias, the closed-form weight `Cert.Gcn.dinvK`, or
  the sum over the edges into a node (`Cert.Gcn.into`) of the gathered rows (`Cert.Gcn.rowOf`).
-/
import proofs.«139629_j28845000360148_2_alg».proof.Proof.Gen.KernelIdeal.Launch
import proofs.«139629_j28845000360148_2_alg».proof.Proof.Spec
import proofs.«139629_j28845000360148_2_alg».proof.Proof.LibGatherScatter
import proofs.«139629_j28845000360148_2_alg».proof.Proof.LibHostScatter
import proofs.«139629_j28845000360148_2_alg».proof.Proof.LibHostLayout
import Idealize.ShloMosaic.PureOps.Ideal.Laws
import Idealize.ShloMosaic.Lib.StableHlo.Run
import Idealize.ShloMosaic.Lib.ValueIdx
import Idealize.ShloMosaic.Lib.Pipeline.Value
import Idealize.ShloMosaic.Lib.ValueLayout

noncomputable section

open scoped BigOperators

namespace Cert.KernelIdeal.HostVal

open Cert.KernelIdeal Cert.KernelIdeal.Gen Idealize.ShloMosaic Idealize.ShloMosaic.ValueIdx

/-! ## The edge words, the biases -/

/-- The source word of edge `e` is row 0 of the edge array. -/
theorem v1_apply (V : Valuation τ sig (Elt Ideal)) (e : Fin 1000000) :
    (StableHlo.after (hostOps0 (F := Ideal)) V (Proc.devRef .tc main_v1) : S1000000.Idx → BitVec 32) (ix1 e)
      = (V (Proc.devRef .tc main_arg1) : S2x1000000.Idx → BitVec 32) (ix2 (0 : Fin 2) e) := by
  have h : (StableHlo.after (hostOps0 (F := Ideal)) V (Proc.devRef .tc main_v1) : S1000000.Idx → BitVec 32)
      = shapeCast S1000000 (extractStridedSlice S1x1000000 ![0, 0]
          (V (Proc.devRef .tc main_arg1) : S2x1000000.Idx → BitVec 32) Facts₀.slices_S2x1000000_S1x1000000_0_0)
          Facts₀.shapeCasts_S1x1000000_S1000000 := by
    after_results; rfl
  rw [h, shapeCast_1a_a_apply]
  exact Cert.HostLayout.slice_rows_apply 0 _ _ (0 : Fin 1) e (by decide)

/-- The destination word of edge `e` is row 1 of the edge array. -/
theorem v3_apply (V : Valuation τ sig (Elt Ideal)) (e : Fin 1000000) :
    (StableHlo.after (hostOps0 (F := Ideal)) V (Proc.devRef .tc main_v3) : S1000000.Idx → BitVec 32) (ix1 e)
      = (V (Proc.devRef .tc main_arg1) : S2x1000000.Idx → BitVec 32) (ix2 (1 : Fin 2) e) := by
  have h : (StableHlo.after (hostOps0 (F := Ideal)) V (Proc.devRef .tc main_v3) : S1000000.Idx → BitVec 32)
      = shapeCast S1000000 (extractStridedSlice S1x1000000 ![1, 0]
          (V (Proc.devRef .tc main_arg1) : S2x1000000.Idx → BitVec 32) Facts₀.slices_S2x1000000_S1x1000000_1_0)
          Facts₀.shapeCasts_S1x1000000_S1000000 := by
    after_results; rfl
  rw [h, shapeCast_1a_a_apply]
  exact Cert.HostLayout.slice_rows_apply 1 _ _ (0 : Fin 1) e (by decide)

/-- A vector of 64 entries laid out as one row. -/
theorem v14_apply (V : Valuation τ sig (Elt Ideal)) (f : Fin 64) :
    (StableHlo.after (hostOps0 (F := Ideal)) V (Proc.devRef .tc main_v14) : S1x64.Idx → EReal) (ix2 (0 : Fin 1) f)
      = (V (Proc.devRef .tc main_arg4) : S64.Idx → EReal) (ix1 f) := by
  have h : (StableHlo.after (hostOps0 (F := Ideal)) V (Proc.devRef .tc main_v14) : S1x64.Idx → EReal)
      = shapeCast S1x64 (V (Proc.devRef .tc main_arg4) : S64.Idx → EReal) Facts₀.shapeCasts_S64_S1x64 := by
    after_results; rfl
  rw [h, shapeCast_a_1a_apply]

theorem v15_apply (V : Valuation τ sig (Elt Ideal)) (f : Fin 64) :
    (StableHlo.after (hostOps0 (F := Ideal)) V (Proc.devRef .tc main_v15) : S1x64.Idx → EReal) (ix2 (0 : Fin 1) f)
      = (V (Proc.devRef .tc main_arg6) : S64.Idx → EReal) (ix1 f) := by
  have h : (StableHlo.after (hostOps0 (F := Ideal)) V (Proc.devRef .tc main_v15) : S1x64.Idx → EReal)
      = shapeCast S1x64 (V (Proc.devRef .tc main_arg6) : S64.Idx → EReal) Facts₀.shapeCasts_S64_S1x64 := by
    after_results; rfl
  rw [h, shapeCast_a_1a_apply]

/-- A one-entry vector laid out as a one-entry matrix. -/
theorem v16_apply (V : Valuation τ sig (Elt Ideal)) :
    (StableHlo.after (hostOps0 (F := Ideal)) V (Proc.devRef .tc main_v16) : S1x1.Idx → EReal) (ix2 (0 : Fin 1) (0 : Fin 1))
      = (V (Proc.devRef .tc main_arg9) : S1.Idx → EReal) (ix1 (0 : Fin 1)) := by
  have h : (StableHlo.after (hostOps0 (F := Ideal)) V (Proc.devRef .tc main_v16) : S1x1.Idx → EReal)
      = shapeCast S1x1 (V (Proc.devRef .tc main_arg9) : S1.Idx → EReal) Facts₀.shapeCasts_S1_S1x1 := by
    after_results; rfl
  rw [h, shapeCast_a_1a_apply]

/-! ## The printed dimension records are the generic ones -/

open Idealize.ShloMosaic.RowIdx Cert.HostLayout

theorem rowScatter_eq : scatter_S100000x64_S1000000x1_S1000000x64_1_0_0_1
    = rowScatterDims 100000 1000000 64 Facts₀.scatter_S100000x64_S1000000x1_S1000000x64_1_0_0_1_wf := rfl

theorem rowGather_eq : gather_S100000x64_S1000000x1_S1000000x64_1_0_n_n_0_1_164
    = rowGatherDims 100000 1000000 64 Facts₀.gather_S100000x64_S1000000x1_S1000000x64_1_0_n_n_0_1_164_wf := rfl

theorem flatScatter_eq : scatter_S100000_S1000000x1_S1000000_n_0_0_1
    = flatScatterDims 100000 1000000 Facts₀.scatter_S100000_S1000000x1_S1000000_n_0_0_1_wf := rfl

/-! ## Gather the source rows, add them up at the destinations -/

/-- A source word with the negative ones moved up by the number of nodes, read at edge `e`. -/
theorem wrapped_apply (s : IVec S1000000 32) (e : Fin 1000000) :
    select (cmpi .slt s (broadcastInDim S1000000 ![] Facts₀.bcast_S_S1000000 (constantI S_ 32 0#32)))
        (addi s (broadcastInDim S1000000 ![] Facts₀.bcast_S_S1000000 (constantI S_ 32 100000#32))) s (ix1 e)
      = Cert.Gcn.wrap (s (ix1 e)) := by
  show Scalar.select (IntOp.cmpi .slt (s (ix1 e)) (broadcastInDim S1000000 ![] Facts₀.bcast_S_S1000000 (constantI S_ 32 0#32) (ix1 e)))
      (IntOp.addi (s (ix1 e)) (broadcastInDim S1000000 ![] Facts₀.bcast_S_S1000000 (constantI S_ 32 100000#32) (ix1 e))) (s (ix1 e)) = _
  rw [bcast_scalar_apply, bcast_scalar_apply, constantI_apply, constantI_apply]
  rfl

/-- The rows of `x` at the wrapped sources, widened, summed into zeros at the destinations: entry `(n, f)` is the sum
    over the edges into `n` of the source row's entry `f`. -/
theorem gatherScatter_apply (x : FVec Ideal S100000x64 .bf16) (s dd : IVec S1000000 32) (n : Fin 100000) (f : Fin 64) :
    Host.scatterAdd (F := Ideal) scatter_S100000x64_S1000000x1_S1000000x64_1_0_0_1
      (broadcastInDim S100000x64 ![] Facts₀.bcast_S_S100000x64 (constant (F := Ideal) S_ .f32 0x00000000#32))
      (broadcastInDim S1000000x1 ![0] Facts₀.bcast_S1000000_S1000000x1_0 dd)
      (extf (F := Ideal) .f32
        (Host.gather gather_S100000x64_S1000000x1_S1000000x64_1_0_n_n_0_1_164 x
          (broadcastInDim S1000000x1 ![0] Facts₀.bcast_S1000000_S1000000x1_0
            (select (cmpi .slt s (broadcastInDim S1000000 ![] Facts₀.bcast_S_S1000000 (constantI S_ 32 0#32)))
              (addi s (broadcastInDim S1000000 ![] Facts₀.bcast_S_S1000000 (constantI S_ 32 100000#32))) s)))
        bitsLt_bf16_f32) (ix2 n f)
      = ∑ e ∈ Cert.Gcn.into (fun e : Fin 1000000 => dd (ix1 e)) n, x (ix2 (Cert.Gcn.rowOf (s (ix1 e))) f) := by
  rw [rowScatter_eq, host_rowScatterAdd_apply, bcast_scalar_apply, constant_apply, Ideal.ofBits_zero_f32, zero_add]
  unfold Cert.Gcn.into
  refine Finset.sum_congr (Finset.filter_congr fun e _ => by rw [bcast_col_apply]) fun e _ => ?_
  show Host.gather gather_S100000x64_S1000000x1_S1000000x64_1_0_n_n_0_1_164 x _ (ix2 e f) = _
  rw [rowGather_eq, rowGather_apply (by omega : 0 < 100000), bcast_col_apply, wrapped_apply]
  rfl

/-- Stretch 1: entry `(n, f)` of the aggregated array is the sum, over the edges into `n`, of entry `f` of the first
    kernel's row at the edge's source. -/
theorem v28_apply (V : Valuation τ sig (Elt Ideal)) (n : Fin 100000) (f : Fin 64) :
    (StableHlo.after (hostOps1 (F := Ideal)) V (Proc.devRef .tc main_v28) : S100000x64.Idx → EReal) (ix2 n f)
      = Finset.sum (M := EReal)
          (Cert.Gcn.into (fun e : Fin 1000000 => (V (Proc.devRef .tc main_v3) : S1000000.Idx → BitVec 32) (ix1 e)) n)
          fun e => (V (Proc.devRef .tc main_v17) : S100000x64.Idx → EReal)
            (ix2 (Cert.Gcn.rowOf ((V (Proc.devRef .tc main_v1) : S1000000.Idx → BitVec 32) (ix1 e))) f) := by
  after_results_simp
  exact gatherScatter_apply (V (Proc.devRef .tc main_v17)) (V (Proc.devRef .tc main_v1)) (V (Proc.devRef .tc main_v3)) n f

/-- Stretch 2: the same over the second kernel's rows. -/
theorem v40_apply (V : Valuation τ sig (Elt Ideal)) (n : Fin 100000) (f : Fin 64) :
    (StableHlo.after (hostOps2 (F := Ideal)) V (Proc.devRef .tc main_v40) : S100000x64.Idx → EReal) (ix2 n f)
      = Finset.sum (M := EReal)
          (Cert.Gcn.into (fun e : Fin 1000000 => (V (Proc.devRef .tc main_v3) : S1000000.Idx → BitVec 32) (ix1 e)) n)
          fun e => (V (Proc.devRef .tc main_v29) : S100000x64.Idx → EReal)
            (ix2 (Cert.Gcn.rowOf ((V (Proc.devRef .tc main_v1) : S1000000.Idx → BitVec 32) (ix1 e))) f) := by
  after_results_simp
  exact gatherScatter_apply (V (Proc.devRef .tc main_v29)) (V (Proc.devRef .tc main_v1)) (V (Proc.devRef .tc main_v3)) n f

/-! ## The in-degree, floored and under the reciprocal square root -/

/-- A vector of `a` entries laid out as a column: entry `(i, 0)` is entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's pointwise operations at the extended reals, read at one index. -/
theorem hostRsqrt_apply {s : Shape} {φ : FTy} (x : FVec Ideal s φ) (i : s.Idx) :
    Host.rsqrt (F := Ideal) x i = Ideal.rsqrt (x i) := rfl
theorem maximumf_apply {s : Shape} {φ : FTy} (x y : FVec Ideal s φ) (i : s.Idx) :
    maximumf (F := Ideal) x y i = max (x i) (y i) := rfl
theorem addf_apply {s : Shape} {φ : FTy} (x y : FVec Ideal s φ) (i : s.Idx) :
    addf (F := Ideal) x y i = x i + y i := rfl

/-- A vector plus one, floored at the small constant, under the reciprocal square root, as a column. -/
theorem degree_core (sc : FVec Ideal S100000 .f32) (n : Fin 100000) :
    shapeCast S100000x1
      (Host.rsqrt (F := Ideal) (maximumf (F := Ideal)
        (addf (F := Ideal) sc
          (broadcastInDim S100000 ![] Facts₀.bcast_S_S100000 (constant (F := Ideal) S_ .f32 0x3F800000#32)))
        (broadcastInDim S100000 ![] Facts₀.bcast_S_S100000 (constant (F := Ideal) S_ .f32 0x2B8CBCCC#32))))
      Facts₀.shapeCasts_S100000_S100000x1 (ix2 n (0 : Fin 1))
      = Cert.Gcn.rs (sc (ix1 n) + Cert.Gcn.one) := by
  rw [shapeCast_a_a1_apply, hostRsqrt_apply, maximumf_apply, addf_apply, bcast_scalar_apply, bcast_scalar_apply,
    constant_apply, constant_apply]
  unfold Cert.Gcn.rs Cert.Gcn.one Cert.Gcn.eps
  rfl

/-- Ones added up into zeros at the destinations: entry `n` counts the edges into `n`. -/
theorem degSum_apply (dd : IVec S1000000 32) (n : Fin 100000) :
    Host.scatterAdd (F := Ideal) scatter_S100000_S1000000x1_S1000000_n_0_0_1
        (broadcastInDim S100000 ![] Facts₀.bcast_S_S100000 (constant (F := Ideal) S_ .f32 0x00000000#32))
        (broadcastInDim S1000000x1 ![0] Facts₀.bcast_S1000000_S1000000x1_0 dd)
        (broadcastInDim S1000000 ![] Facts₀.bcast_S_S1000000 (constant (F := Ideal) S_ .f32 0x3F800000#32)) (ix1 n)
      = Finset.sum (M := EReal) (Cert.Gcn.into (fun e : Fin 1000000 => dd (ix1 e)) n) fun _e => Cert.Gcn.one := by
  rw [flatScatter_eq, host_flatScatterAdd_apply, bcast_scalar_apply, constant_apply, Ideal.ofBits_zero_f32, zero_add]
  unfold Cert.Gcn.into
  refine Finset.sum_congr (Finset.filter_congr fun e _ => by rw [bcast_col_apply]) fun e _ => ?_
  rw [bcast_scalar_apply, constant_apply]
  unfold Cert.Gcn.one
  rfl

/-- Ones added up at the destinations, plus one, floored at the small constant, under the reciprocal square root,
    as a column: entry `(n, 0)` is the symmetric weight of node `n`. -/
theorem degree_apply (dd : IVec S1000000 32) (n : Fin 100000) :
    shapeCast S100000x1
      (Host.rsqrt (F := Ideal) (maximumf (F := Ideal)
        (addf (F := Ideal)
          (Host.scatterAdd (F := Ideal) scatter_S100000_S1000000x1_S1000000_n_0_0_1
            (broadcastInDim S100000 ![] Facts₀.bcast_S_S100000 (constant (F := Ideal) S_ .f32 0x00000000#32))
            (broadcastInDim S1000000x1 ![0] Facts₀.bcast_S1000000_S1000000x1_0 dd)
            (broadcastInDim S1000000 ![] Facts₀.bcast_S_S1000000 (constant (F := Ideal) S_ .f32 0x3F800000#32)))
          (broadcastInDim S100000 ![] Facts₀.bcast_S_S100000 (constant (F := Ideal) S_ .f32 0x3F800000#32)))
        (broadcastInDim S100000 ![] Facts₀.bcast_S_S100000 (constant (F := Ideal) S_ .f32 0x2B8CBCCC#32))))
      Facts₀.shapeCasts_S100000_S100000x1 (ix2 n (0 : Fin 1))
      = Cert.Gcn.dinvK (fun e : Fin 1000000 => dd (ix1 e)) n := by
  rw [degree_core, degSum_apply]
  unfold Cert.Gcn.dinvK Cert.Gcn.degK
  rfl

/-- Stretch 0: entry `(n, 0)` of the weight column is the symmetric weight of node `n` for the destinations in row 1
    of the edge array. -/
theorem v13_apply (V : Valuation τ sig (Elt Ideal)) (n : Fin 100000) :
    (StableHlo.after (hostOps0 (F := Ideal)) V (Proc.devRef .tc main_v13) : S100000x1.Idx → EReal) (ix2 n (0 : Fin 1))
      = Cert.Gcn.dinvK (Cert.Gcn.dstOf (V (Proc.devRef .tc main_arg1))) n := by
  have hd : (fun e : Fin 1000000 => shapeCast S1000000 (extractStridedSlice S1x1000000 ![1, 0]
        (V (Proc.devRef .tc main_arg1) : S2x1000000.Idx → BitVec 32) Facts₀.slices_S2x1000000_S1x1000000_1_0)
        Facts₀.shapeCasts_S1x1000000_S1000000 (ix1 e))
      = Cert.Gcn.dstOf (V (Proc.devRef .tc main_arg1)) := by
    funext e
    rw [shapeCast_1a_a_apply]
    unfold Cert.Gcn.dstOf
    exact Cert.HostLayout.slice_rows_apply 1 _ _ (0 : Fin 1) e (by decide)
  after_results_simp
  refine (degree_apply _ n).trans ?_
  exact congrArg (fun d => Cert.Gcn.dinvK d n) hd

end Cert.KernelIdeal.HostVal

end
-- ==== Proof.KiValue2Pieces.lean ====
/-
  The pooled readout's body, piece by piece: what each kind of grid point leaves in the running row and in the output
  buffer, as the body's pure terms of the point's input blocks and of the row the point before left. At the first point
  the row is the accumulation step over the cleared row, at every later point the step over the row before, and at the
  last point the output buffer receives the readout of the row just accumulated. At any float values.
-/
import proofs.«139629_j28845000360148_2_alg».proof.Proof.KiRegion2
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Fr

section Pieces

variable {F : FTy → Type} [FloatOps F] [Named F]

/-- The zero offsets of a whole-buffer access. -/
theorem hz : (![0, 0] : Fin 2 → Nat) = fun _ => 0 := funext fun a => by fin_cases a <;> rfl

/-- At a middle point the running row becomes the accumulation step of the point's blocks over the row before. -/
theorem soutB_eq (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : ¬cond2_1 i) (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    sout2_B_0 c i arg1 harg1 arg2 harg2 arg3 harg3 arg4 harg4 arg5 harg5 arg6 harg6 arg7 harg7 arg8 harg8 hc0 hc1 x0 x1 x2 x3 x4 x5 xs0 = k2_pay2 x2 x0 x1 x3 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 x4 x5 xs0)]
  unfold kernelRun2_B
  dsimp only
  try sl_unfold_words
  rw [View.canon_unit_zero hz]
  simp only [View.readAt_eq_ld, harg1.read_unread, harg2.read_unread, harg3.read_unread, harg4.read_unread, harg8.read_unread,
    View.ld_unit_zero (S := S4000x64) hz, View.ld_unit_zero (S := S4000x1) hz, View.ld_unit_zero (S := S1x64) hz]

/-- At the first point the running row becomes the accumulation step over the cleared row. -/
theorem soutA_eq (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : cond2_0 i) (hc1 : ¬cond2_1 i) (x0 : Vec F S4000x64 .f32) (x1 : Vec F S4000x64 .bf16) (x2 : Vec F S4000x1 .f32) (x3 : Vec F S1x64 .f32) (x4 : Vec F S64x1 .f32) (x5 : Vec F S1x1 .f32) :
    sout2_A_0 c i arg1 harg1 arg2 harg2 arg3 harg3 arg4 harg4 arg5 harg5 arg6 harg6 arg7 harg7 arg8 harg8 hc0 hc1 x0 x1 x2 x3 x4 x5 = k2_pay2 x2 x0 x1 x3 k2_pay1 := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3 x4 x5)]
  unfold kernelRun2_A
  dsimp only
  try sl_unfold_words
  rw [View.canon_cons_unit_zero hz]
  rw [View.readCov_unit_zero (S := S1x64) _ hz]
  simp only [View.readAt_eq_ld, harg1.read_unread, harg2.read_unread, harg3.read_unread, harg4.read_unread, harg5.read_unread, harg6.read_unread, harg8.read_unread,
    View.ld_unit_zero (S := S4000x64) hz, View.ld_unit_zero (S := S4000x1) hz, View.ld_unit_zero (S := S1x64) hz]

/-- At the last point the running row takes the same accumulation step. -/
theorem soutC_eq (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i) (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    sout2_C_0 c i arg1 harg1 arg2 harg2 arg3 harg3 arg4 harg4 arg5 harg5 arg6 harg6 arg7 harg7 arg8 harg8 hc0 hc1 x0 x1 x2 x3 x4 x5 xs0 = k2_pay2 x2 x0 x1 x3 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 x4 x5 xs0)]
  unfold kernelRun2_C
  dsimp only
  try sl_unfold_words
  rw [View.canon_unit_zero hz]
  simp only [View.readAt_eq_ld, harg1.read_unread, harg2.read_unread, harg3.read_unread, harg4.read_unread, harg5.read_unread, harg6.read_unread, harg8.read_unread,
    View.ld_unit_zero (S := S4000x64) hz, View.ld_unit_zero (S := S4000x1) hz, View.ld_unit_zero (S := S1x64) hz]

/-- At the last point the output buffer receives the readout of the row just accumulated. -/
theorem outC_eq (c : Dev nD) (i : grid2.Coords) (arg1 : Memref sig .tc .vmem S4000x64 .f32) (harg1 : arg1.IsWhole) (arg2 : Memref sig .tc .vmem S4000x64 .bf16) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x64 .f32) (harg8 : arg8.IsWhole) (hc0 : ¬cond2_0 i) (hc1 : cond2_1 i) (x0 : Vec F S4000x64 .f32) (x1 : Vec F S4000x64 .bf16) (x2 : Vec F S4000x1 .f32) (x3 : Vec F S1x64 .f32) (x4 : Vec F S64x1 .f32) (x5 : Vec F S1x1 .f32) (xs0 : Vec F S1x64 .f32) :
    out2_C_6 c i arg1 harg1 arg2 harg2 arg3 harg3 arg4 harg4 arg5 harg5 arg6 harg6 arg7 harg7 arg8 harg8 hc0 hc1 x0 x1 x2 x3 x4 x5 xs0 = k2_pay3 (k2_pay2 x2 x0 x1 x3 xs0) x4 x5 := by
  unfold out2_C_6
  rw [View.read_writes_eq_canon _ _ _ (cover2_C_6 c i arg1 harg1 arg2 harg2 arg3 harg3 arg4 harg4 arg5 harg5 arg6 harg6 arg7 harg7 arg8 harg8 hc0 hc1 x0 x1 x2 x3 x4 x5 xs0)]
  unfold kernelRun2_C
  dsimp only
  try sl_unfold_words
  rw [View.canon_unit_zero hz]
  rw [View.readCov_unit_zero (S := S1x64) _ hz]
  simp only [View.readAt_eq_ld, harg1.read_unread, harg2.read_unread, harg3.read_unread, harg4.read_unread, harg5.read_unread, harg6.read_unread, harg8.read_unread,
    View.ld_unit_zero (S := S4000x64) hz, View.ld_unit_zero (S := S4000x1) hz, View.ld_unit_zero (S := S1x64) hz, View.ld_unit_zero (S := S64x1) hz, View.ld_unit_zero (S := S1x1) hz]

end Pieces

end Cert.KernelIdeal.Val

end
-- ==== Proof.KiValue2Blocks.lean ====
/-
  The pooled readout's input blocks as rows of the arrays the region finds. The three node-indexed windows advance by
  one block of 4000 rows per grid point, so row r of the block at point t is node row 4000·t + r; the bias row, the final
  weight column and the final bias are whole-array windows, the same block at every point. At any float values.
-/
import proofs.«139629_j28845000360148_2_alg».proof.Proof.KiRegion2
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Fr

section Blocks

variable {F : FTy → Type} [FloatOps F] [Named F]
variable (V : (c : Dev nD) → (b : Ref sig .tc) → Buf (Elt F) ((c : Thread nD τ).loc b))

/-- The row windows are at block row t and block column 0 at point t; the three small windows stay at block (0, 0). -/
theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)
theorem index2_2 : ∀ t : Fin cfg2.N, win2_2.index t 0 = t.val ∧ win2_2.index t 1 = 0 :=
  (by decide +kernel : ∀ t : Fin grid2.N, win2_2.index t 0 = t.val ∧ win2_2.index t 1 = 0)
theorem index2_3 : ∀ t : Fin cfg2.N, win2_3.index t 0 = 0 ∧ win2_3.index t 1 = 0 :=
  (by decide +kernel : ∀ t : Fin grid2.N, win2_3.index t 0 = 0 ∧ win2_3.index t 1 = 0)
theorem index2_4 : ∀ t : Fin cfg2.N, win2_4.index t 0 = 0 ∧ win2_4.index t 1 = 0 :=
  (by decide +kernel : ∀ t : Fin grid2.N, win2_4.index t 0 = 0 ∧ win2_4.index t 1 = 0)
theorem index2_5 : ∀ t : Fin cfg2.N, win2_5.index t 0 = 0 ∧ win2_5.index t 1 = 0 :=
  (by decide +kernel : ∀ t : Fin grid2.N, win2_5.index t 0 = 0 ∧ win2_5.index t 1 = 0)

/-- Row r of the aggregated-feature block at point t is node row 4000·t + r. -/
theorem iblk2_0_apply (c : Dev nD) (t : Fin cfg2.N) (r : Fin 4000) (f : Fin 64) (n : Fin 100000) (hn : n.val = 4000 * t.val + r.val) :
    (iblk2 V c 0 t : Vec F S4000x64 .f32) (ix2 r f) = (V c main_v40 : S100000x64.Idx → Elt F .f32) (ix2 n f) := by
  have hi := index2_0 t
  unfold iblk2
  rw [View.read_apply]
  show V c main_v40 _ = V c main_v40 _
  congr 1
  funext a
  apply Fin.ext
  match a with
  | ⟨0, _⟩ => show win2_0.index t 0 * 4000 + 1 * r.val = n.val; rw [hi.1, hn]; omega
  | ⟨1, _⟩ => show win2_0.index t 1 * 64 + 1 * f.val = f.val; rw [hi.2]; omega

/-- Row r of the own-feature block at point t is node row 4000·t + r. -/
theorem iblk2_1_apply (c : Dev nD) (t : Fin cfg2.N) (r : Fin 4000) (f : Fin 64) (n : Fin 100000) (hn : n.val = 4000 * t.val + r.val) :
    (iblk2 V c 1 t : Vec F S4000x64 .bf16) (ix2 r f) = (V c main_v29 : S100000x64.Idx → Elt F .bf16) (ix2 n f) := by
  have hi := index2_1 t
  unfold iblk2
  rw [View.read_apply]
  show V c main_v29 _ = V c main_v29 _
  congr 1
  funext a
  apply Fin.ext
  match a with
  | ⟨0, _⟩ => show win2_1.index t 0 * 4000 + 1 * r.val = n.val; rw [hi.1, hn]; omega
  | ⟨1, _⟩ => show win2_1.index t 1 * 64 + 1 * f.val = f.val; rw [hi.2]; omega

/-- Row r of the scale block at point t is node row 4000·t + r. -/
theorem iblk2_2_apply (c : Dev nD) (t : Fin cfg2.N) (r : Fin 4000) (n : Fin 100000) (hn : n.val = 4000 * t.val + r.val) :
    (iblk2 V c 2 t : Vec F S4000x1 .f32) (ix2 r (0 : Fin 1)) = (V c main_v13 : S100000x1.Idx → Elt F .f32) (ix2 n (0 : Fin 1)) := by
  have hi := index2_2 t
  unfold iblk2
  rw [View.read_apply]
  show V c main_v13 _ = V c main_v13 _
  congr 1
  funext a
  apply Fin.ext
  match a with
  | ⟨0, _⟩ => show win2_2.index t 0 * 4000 + 1 * r.val = n.val; rw [hi.1, hn]; omega
  | ⟨1, _⟩ => show win2_2.index t 1 * 1 + 1 * 0 = 0; rw [hi.2]

/-- The bias window's block is the bias row itself at every point. -/
theorem iblk2_3_apply (c : Dev nD) (t : Fin cfg2.N) (f : Fin 64) :
    (iblk2 V c 3 t : Vec F S1x64 .f32) (ix2 (0 : Fin 1) f) = (V c main_v15 : S1x64.Idx → Elt F .f32) (ix2 (0 : Fin 1) f) := by
  have hi := index2_3 t
  unfold iblk2
  rw [View.read_apply]
  show V c main_v15 _ = V c main_v15 _
  congr 1
  funext a
  apply Fin.ext
  match a with
  | ⟨0, _⟩ => show win2_3.index t 0 * 1 + 1 * 0 = 0; rw [hi.1]
  | ⟨1, _⟩ => show win2_3.index t 1 * 64 + 1 * f.val = f.val; rw [hi.2]; omega

/-- The final weights' block is the weight column itself at every point. -/
theorem iblk2_4_apply (c : Dev nD) (t : Fin cfg2.N) (k : Fin 64) :
    (iblk2 V c 4 t : Vec F S64x1 .f32) (ix2 k (0 : Fin 1)) = (V c main_arg8 : S64x1.Idx → Elt F .f32) (ix2 k (0 : Fin 1)) := by
  have hi := index2_4 t
  unfold iblk2
  rw [View.read_apply]
  show V c main_arg8 _ = V c main_arg8 _
  congr 1
  funext a
  apply Fin.ext
  match a with
  | ⟨0, _⟩ => show win2_4.index t 0 * 64 + 1 * k.val = k.val; rw [hi.1]; omega
  | ⟨1, _⟩ => show win2_4.index t 1 * 1 + 1 * 0 = 0; rw [hi.2]

/-- The final bias' block is the bias entry itself at every point. -/
theorem iblk2_5_apply (c : Dev nD) (t : Fin cfg2.N) :
    (iblk2 V c 5 t : Vec F S1x1 .f32) (ix2 (0 : Fin 1) (0 : Fin 1)) = (V c main_v16 : S1x1.Idx → Elt F .f32) (ix2 (0 : Fin 1) (0 : Fin 1)) := by
  have hi := index2_5 t
  unfold iblk2
  rw [View.read_apply]
  show V c main_v16 _ = V c main_v16 _
  congr 1
  funext a
  apply Fin.ext
  match a with
  | ⟨0, _⟩ => show win2_5.index t 0 * 1 + 1 * 0 = 0; rw [hi.1]
  | ⟨1, _⟩ => show win2_5.index t 1 * 1 + 1 * 0 = 0; rw [hi.2]

end Blocks

end Cert.KernelIdeal.Val

end
-- ==== Proof.KiValue2.lean ====
/-
  What the pooled readout leaves in its one-entry output array, at the ideal values.

  The readout kernel walks the 100000 node rows in 25 blocks of 4000. It keeps a running row of 64 column sums across the
  blocks: cleared before the first block, then at every block increased by the block's column sums of the activation
  relu(d(n)·(g(n,k) + h(n,k)) + b(k)). After the last block it multiplies the row by the reciprocal of the node count,
  contracts it with the final weight column and adds the final bias, and only then is the output array written.
  So the running row after block t is the sum of the activation over the rows of blocks 0 … t, the row after the last
  block is the sum over all nodes, and the output entry is  ∑ₖ ((∑ₙ act(n,k)) · 1/N) · fw(k) + fb.
-/
import proofs.«139629_j28845000360148_2_alg».proof.Proof.Payloads
import proofs.«139629_j28845000360148_2_alg».proof.Proof.KiValue2Pieces
import proofs.«139629_j28845000360148_2_alg».proof.Proof.KiValue2Blocks
import proofs.«139629_j28845000360148_2_alg».proof.Proof.Spec
import Idealize.ShloMosaic.Lib.Pipeline.Value
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Fr Cert.KernelIdeal.Pay

section Rows

variable {F : FTy → Type} [FloatOps F] [Named F]
variable (V : (c : Dev nD) → (b : Ref sig .tc) → Buf (Elt F) ((c : Thread nD τ).loc b))

/-- After the first point the running row is the accumulation step of the point's blocks over the cleared row. -/
theorem row_A (c : Dev nD) (t : Fin cfg2.N) (h0 : t.val = 0) (h1 : ¬t.val = 24) :
    (outsAt2 V c t.val t.isLt).2 = k2_pay2 (iblk2 V c 2 t) (iblk2 V c 0 t) (iblk2 V c 1 t) (iblk2 V c 3 t) k2_pay1 := by
  rw [outsAt2_A V c t h0 h1]
  exact soutA_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun hh => h1 ((hcond2_1 t).mp hh)) (iblk2 V c 0 t) (iblk2 V c 1 t) (iblk2 V c 2 t) (iblk2 V c 3 t) (iblk2 V c 4 t) (iblk2 V c 5 t)

/-- After a middle point it is the step over the row the point before left. -/
theorem row_B (c : Dev nD) (t : Fin cfg2.N) (h0 : ¬t.val = 0) (h1 : ¬t.val = 24) :
    (outsAt2 V c t.val t.isLt).2 = k2_pay2 (iblk2 V c 2 t) (iblk2 V c 0 t) (iblk2 V c 1 t) (iblk2 V c 3 t) (outsAt2 V c (t.val - 1) (Nat.lt_of_le_of_lt (Nat.sub_le _ _) t.isLt)).2 := by
  rw [outsAt2_B V c t h0 h1]
  exact soutB_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

/-- After the last point likewise. -/
theorem row_C (c : Dev nD) (t : Fin cfg2.N) (h0 : ¬t.val = 0) (h1 : t.val = 24) :
    (outsAt2 V c t.val t.isLt).2 = k2_pay2 (iblk2 V c 2 t) (iblk2 V c 0 t) (iblk2 V c 1 t) (iblk2 V c 3 t) (outsAt2 V c (t.val - 1) (Nat.lt_of_le_of_lt (Nat.sub_le _ _) t.isLt)).2 := by
  rw [outsAt2_C V c t h0 h1]
  exact soutC_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

/-- After the last point the output buffer holds the readout of the running row as that point leaves it. -/
theorem out_C (c : Dev nD) (t : Fin cfg2.N) (h0 : ¬t.val = 0) (h1 : t.val = 24) :
    (outsAt2 V c t.val t.isLt).1 = k2_pay3 (outsAt2 V c t.val t.isLt).2 (iblk2 V c 4 t) (iblk2 V c 5 t) := by
  rw [row_C V c t h0 h1, outsAt2_C V c t h0 h1]
  exact outC_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2

end Rows

section Sums

/-- Consecutive blocks of b terms, a of them, are the first a·b terms. -/
theorem sum_blocks {M : Type*} [AddCommMonoid M] (b : ℕ) (g : ℕ → M) : ∀ a : ℕ,
    ∑ s ∈ Finset.range a, ∑ r : Fin b, g (b * s + r.val) = ∑ n ∈ Finset.range (a * b), g n
  | 0 => by rw [Finset.sum_range_zero, Nat.zero_mul, Finset.sum_range_zero]
  | a + 1 => by
    rw [Finset.sum_range_succ, sum_blocks b g a, Nat.add_mul, Nat.one_mul, Finset.sum_range_add,
      Finset.sum_range (fun x => g (a * b + x)), Nat.mul_comm b a]

end Sums

section Array

variable {F : FTy → Type} [FloatOps F] [Named F]
variable (V : (c : Dev nD) → (b : Ref sig .tc) → Buf (Elt F) ((c : Thread nD τ).loc b))

/-- The last of the 25 grid points. -/
theorem lt24 : 24 < cfg2.N := lt_of_lt_of_eq (by decide : 24 < 25) N_2.symm
abbrev tL : Fin cfg2.N := ⟨24, lt24⟩

/-- The output window's one block at the last point sits at the array's origin. -/
theorem origin2_6 :
    (fun a => win2_6.index tL a * main_v41.ty.shape.size a) = fun _ => 0 :=
  funext fun a => by fin_cases a <;> decide +kernel

/-- The one write-back, at the last point, writes the output buffer as that point leaves it: the window's block is the
    whole one-entry array. -/
theorem flushed2_eq (c : Dev nD) (t : Fin cfg2.N) (hf : (cfg2.win 6).flush t = true) :
    (dat2 V c).flushed 6 t = ((cfg2.win 6).blk t).view.read (Elt F) (outsAt2 V c 24 lt24).1 := by
  have hN : cfg2.N = 25 := N_2
  have h1 : t.val = 24 := by have := (flush2_6 t).mp hf; have := t.isLt; omega
  obtain rfl : t = tL := Fin.ext h1
  show (cfg2.win 6).cut (grid2.coords tL) ((dat2 V c).after 6 tL) = _
  rw [after2_6]
  exact (Memref.read_access_unit_zero (Elt F) main_v41 origin2_6 (fun a => by rw [congrFun origin2_6 a]; simp)
    (outsAt2 V c 24 lt24).1).symm

/-- So the output array ends holding what the last point left in the output buffer. -/
theorem final2 (c : Dev nD) : (dat2 V c).arrAt 6 cfg2.N = (outsAt2 V c 24 lt24).1 :=
  (dat2 V c).arrAt_eq_of_cover 6 (outsAt2 V c 24 lt24).1 (flushed2_eq V c) fun i =>
    ⟨tL, (flush2_6 tL).mpr rfl, by
      show i ∈ ((View.whole main_v41).slice (win2_6.rect tL)).set
      rw [View.set_slice_whole, Rect.mem_set_unit]
      intro a
      have h0 : (i 0 : Nat) < 1 := (i 0).isLt
      have h1 : (i 1 : Nat) < 1 := (i 1).isLt
      match a with
      | ⟨0, _⟩ => show win2_6.index tL 0 * win2_6.size 0 ≤ (i 0 : Nat) ∧ (i 0 : Nat) < win2_6.index tL 0 * win2_6.size 0 + win2_6.xsize (grid2.coords tL) 0
                  rw [show win2_6.index tL 0 * win2_6.size 0 = 0 from by decide +kernel, show win2_6.xsize (grid2.coords tL) 0 = 1 from by decide +kernel]; omega
      | ⟨1, _⟩ => show win2_6.index tL 1 * win2_6.size 1 ≤ (i 1 : Nat) ∧ (i 1 : Nat) < win2_6.index tL 1 * win2_6.size 1 + win2_6.xsize (grid2.coords tL) 1
                  rw [show win2_6.index tL 1 * win2_6.size 1 = 0 from by decide +kernel, show win2_6.xsize (grid2.coords tL) 1 = 1 from by decide +kernel]; omega⟩

end Array

section AtIdeal

variable (V : (c : Dev nD) → (b : Ref sig .tc) → Buf (Elt Ideal) ((c : Thread nD τ).loc b))

/-- The arrays the region finds, at their literal shapes: the node scales, the aggregated and the own features, the bias
    row, the final weight column and the final bias. -/
abbrev nodeScale (c : Dev nD) : S100000x1.Idx → EReal := V c main_v13
abbrev aggFeat (c : Dev nD) : S100000x64.Idx → EReal := V c main_v40
abbrev ownFeat (c : Dev nD) : S100000x64.Idx → EReal := V c main_v29
abbrev biasRow (c : Dev nD) : S1x64.Idx → EReal := V c main_v15
abbrev finalW (c : Dev nD) : S64x1.Idx → EReal := V c main_arg8
abbrev finalB (c : Dev nD) : S1x1.Idx → EReal := V c main_v16

/-- The activation of node n at column f. -/
def act (c : Dev nD) (f : Fin 64) (n : Fin 100000) : EReal :=
  max (nodeScale V c (ix2 n (0 : Fin 1)) * (aggFeat V c (ix2 n f) + ownFeat V c (ix2 n f)) + biasRow V c (ix2 (0 : Fin 1) f)) 0

/-- The same over the naturals: zero past the last node. -/
def actN (c : Dev nD) (f : Fin 64) (n : ℕ) : EReal := if h : n < 100000 then act V c f ⟨n, h⟩ else 0

/-- One accumulation step at point t adds, at column f, the activation summed over the point's 4000 node rows. -/
theorem step_apply (c : Dev nD) (t : Fin cfg2.N) (acc : Vec Ideal S1x64 .f32) (f : Fin 64) :
    k2_pay2 (F := Ideal) (iblk2 V c 2 t) (iblk2 V c 0 t) (iblk2 V c 1 t) (iblk2 V c 3 t) acc (ix2 (0 : Fin 1) f)
      = acc (ix2 (0 : Fin 1) f) + ∑ r : Fin 4000, actN V c f (4000 * t.val + r.val) := by
  have hN : t.val < 25 := lt_of_lt_of_eq t.isLt (show cfg2.N = 25 from N_2)
  refine (pay2_acc (iblk2 V c 2 t) (iblk2 V c 0 t) (iblk2 V c 1 t) (iblk2 V c 3 t) acc f).trans ?_
  refine congrArg (acc (ix2 (0 : Fin 1) f) + ·) (Finset.sum_congr rfl fun r _ => ?_)
  have h : 4000 * t.val + r.val < 100000 := by have := r.isLt; omega
  unfold actN
  rw [dif_pos h]
  unfold act
  exact congrArg₂ max (congrArg₂ (· + ·) (congrArg₂ (· * ·) (iblk2_2_apply V c t r ⟨_, h⟩ rfl)
    (congrArg₂ (· + ·) (iblk2_0_apply V c t r f ⟨_, h⟩ rfl) (iblk2_1_apply V c t r f ⟨_, h⟩ rfl))) (iblk2_3_apply V c t f)) rfl

/-- After the first point the running row holds the first block's sums. -/
theorem row_zero (c : Dev nD) (f : Fin 64) (hn : 0 < cfg2.N) :
    ((outsAt2 V c 0 hn).2 : Vec Ideal S1x64 .f32) (ix2 (0 : Fin 1) f) = ∑ r : Fin 4000, actN V c f (4000 * 0 + r.val) := by
  have key : (outsAt2 V c 0 hn).2 = k2_pay2 (F := Ideal) (iblk2 V c 2 ⟨0, hn⟩) (iblk2 V c 0 ⟨0, hn⟩) (iblk2 V c 1 ⟨0, hn⟩) (iblk2 V c 3 ⟨0, hn⟩) (k2_pay1 (F := Ideal)) :=
    row_A V c ⟨0, hn⟩ rfl (show ¬(0 : ℕ) = 24 by decide)
  refine (congrFun key _).trans ((step_apply V c ⟨0, hn⟩ (k2_pay1 (F := Ideal)) f).trans ?_)
  rw [pay2_zero f, zero_add]

/-- Each later point adds its block's sums to the row the point before left. -/
theorem row_succ (c : Dev nD) (f : Fin 64) (n : ℕ) (hn : n + 1 < cfg2.N) :
    ((outsAt2 V c (n + 1) hn).2 : Vec Ideal S1x64 .f32) (ix2 (0 : Fin 1) f)
      = ((outsAt2 V c n (Nat.lt_of_succ_lt hn)).2 : Vec Ideal S1x64 .f32) (ix2 (0 : Fin 1) f) + ∑ r : Fin 4000, actN V c f (4000 * (n + 1) + r.val) := by
  have key : (outsAt2 V c (n + 1) hn).2 = k2_pay2 (F := Ideal) (iblk2 V c 2 ⟨n + 1, hn⟩) (iblk2 V c 0 ⟨n + 1, hn⟩) (iblk2 V c 1 ⟨n + 1, hn⟩) (iblk2 V c 3 ⟨n + 1, hn⟩) (outsAt2 V c n (Nat.lt_of_succ_lt hn)).2 := by
    by_cases h1 : n + 1 = 24
    · exact row_C V c ⟨n + 1, hn⟩ (Nat.succ_ne_zero n) h1
    · exact row_B V c ⟨n + 1, hn⟩ (Nat.succ_ne_zero n) h1
  exact (congrFun key _).trans (step_apply V c ⟨n + 1, hn⟩ (outsAt2 V c n (Nat.lt_of_succ_lt hn)).2 f)

/-- So after point n the running row holds the sums over the blocks 0 … n. -/
theorem row_sum (c : Dev nD) (f : Fin 64) : ∀ (n : ℕ) (hn : n < cfg2.N),
    ((outsAt2 V c n hn).2 : Vec Ideal S1x64 .f32) (ix2 (0 : Fin 1) f)
      = ∑ s ∈ Finset.range (n + 1), ∑ r : Fin 4000, actN V c f (4000 * s + r.val)
  | 0, hn => (row_zero V c f hn).trans (Finset.sum_range_one (fun s => ∑ r : Fin 4000, actN V c f (4000 * s + r.val))).symm
  | n + 1, hn => by
    rw [row_succ V c f n hn, row_sum c f n (Nat.lt_of_succ_lt hn)]
    exact (Finset.sum_range_succ (fun s => ∑ r : Fin 4000, actN V c f (4000 * s + r.val)) (n + 1)).symm

/-- After the last point it holds the activation summed over all nodes. -/
theorem row_last (c : Dev nD) (f : Fin 64) :
    ((outsAt2 V c 24 lt24).2 : Vec Ideal S1x64 .f32) (ix2 (0 : Fin 1) f) = ∑ n : Fin 100000, act V c f n := by
  refine (row_sum V c f 24 lt24).trans ((sum_blocks 4000 (actN V c f) 25).trans ?_)
  refine (Finset.sum_range (n := 25 * 4000) (actN V c f)).trans ?_
  exact Finset.sum_congr rfl fun n _ => dif_pos n.isLt

/-- THE OUTPUT ENTRY: the activation's column sums over all nodes, each times the reciprocal of the node count,
    contracted with the final weights, plus the final bias. -/
theorem arr2 (c : Dev nD) :
    ((dat2 (F := Ideal) V c).arrAt 6 cfg2.N : S1x1.Idx → EReal) (ix2 (0 : Fin 1) (0 : Fin 1))
      = (∑ k : Fin 64, ((∑ n : Fin 100000, max (nodeScale V c (ix2 n (0 : Fin 1)) * (aggFeat V c (ix2 n k) + ownFeat V c (ix2 n k)) + biasRow V c (ix2 (0 : Fin 1) k)) 0) * Cert.Gcn.invN) * finalW V c (ix2 k (0 : Fin 1))) + finalB V c (ix2 (0 : Fin 1) (0 : Fin 1)) := by
  have e1 : (dat2 (F := Ideal) V c).arrAt 6 cfg2.N = (outsAt2 V c 24 lt24).1 := final2 V c
  have e2 : (outsAt2 V c 24 lt24).1 = k2_pay3 (F := Ideal) (outsAt2 V c 24 lt24).2 (iblk2 V c 4 tL) (iblk2 V c 5 tL) :=
    out_C V c tL (show ¬(24 : ℕ) = 0 by decide) rfl
  refine (congrFun (e1.trans e2) _).trans ?_
  refine (pay2_out (outsAt2 V c 24 lt24).2 (iblk2 V c 4 tL) (iblk2 V c 5 tL)).trans ?_
  exact congrArg₂ (· + ·)
    (Finset.sum_congr rfl fun k _ => congrArg₂ (· * ·) (congrArg (· * Cert.Gcn.invN) (row_last V c k)) (iblk2_4_apply V c tL k))
    (iblk2_5_apply V c tL)

end AtIdeal

end Cert.KernelIdeal.Val

end
-- ==== Proof.KiValue.lean ====
/-
  The value of the whole kernel program: the result buffer after the last region, as the kernel's closed form of the
  launch arrays.

  The program is three stretches of host operations, each followed by a kernel region. Reading each buffer at an index:
  the first stretch splits the edge array into sources and destinations, computes the factors `dinv` from the
  in-degrees, and reshapes the biases; the first kernel leaves `h₁ = (x · W₁) ⊙ dinv`; the second stretch gathers the
  rows of `h₁` at the sources and adds them at the destinations, `agg h₁`; the second kernel leaves
  `h₂ = (relu(dinv ⊙ (agg h₁ + h₁) + b₁) · W₂) ⊙ dinv`; the third stretch leaves `agg h₂`; the last kernel pools
  `relu(dinv ⊙ (agg h₂ + h₂) + b₂)` over the nodes, multiplies by the reciprocal of the node count, contracts with the final
  weights and adds the final bias. A buffer no later step writes is carried unchanged to where it is read. Put together
  these are the kernel's arrangement `outK` of the two rounds, the mean and the final map.
-/
import proofs.«139629_j28845000360148_2_alg».proof.Proof.KiRun
import proofs.«139629_j28845000360148_2_alg».proof.Proof.KiValue01
import proofs.«139629_j28845000360148_2_alg».proof.Proof.HostVals
import proofs.«139629_j28845000360148_2_alg».proof.Proof.KiValue2
import proofs.«139629_j28845000360148_2_alg».proof.Proof.Spec
import Idealize.ShloMosaic.Lib.ValueIdx

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.ShloMosaic.ValueIdx

/-- The pooled readout of the arrays the last region finds: the activation's column sums over the nodes, each times the
    reciprocal of the node count, contracted with the final weights, plus the final bias. -/
def g2 (d : S100000x1.Idx → EReal) (g : S100000x64.Idx → EReal) (h : S100000x64.Idx → EReal) (b : S1x64.Idx → EReal)
    (fw : S64x1.Idx → EReal) (fb : S1x1.Idx → EReal) : EReal :=
  (∑ k : Fin 64, ((∑ n : Fin 100000, max (d (ix2 n (0 : Fin 1)) * (g (ix2 n k) + h (ix2 n k)) + b (ix2 (0 : Fin 1) k)) 0) * Cert.Gcn.invN) * fw (ix2 k (0 : Fin 1)))
    + fb (ix2 (0 : Fin 1) (0 : Fin 1))

/-- The last kernel's one-entry output array is the pooled readout of the arrays its region finds. -/
abbrev ReadoutValue : Prop :=
  ∀ (V : (c : Dev nD) → (b : Ref sig .tc) → Buf (Elt Ideal) ((c : Thread nD τ).loc b)) (c : Dev nD),
    ((dat2 (F := Ideal) V c).arrAt 6 cfg2.N : S1x1.Idx → EReal) (ix2 (0 : Fin 1) (0 : Fin 1))
      = g2 (V c main_v13) (V c main_v40) (V c main_v29) (V c main_v15) (V c main_arg8) (V c main_v16)

end Cert.KernelIdeal.Val

namespace Cert.KernelIdeal.Val

open Cert.KernelIdeal Cert.KernelIdeal.Gen Cert.KernelIdeal.Fr Idealize.ShloMosaic Idealize.ShloMosaic.TcCoe Idealize.ShloMosaic.ValueIdx

variable (m : (ℓ : Loc nD τ sig) → Buf (Elt Ideal) ℓ) (ρ : Dev nD → PrngReg) (c : Dev nD)

/-! ## The launch arrays, as plain functions of their indices -/

abbrev aX : S100000x64.Idx → EReal := m ((c.tc : Thread nD τ).loc main_arg0)
abbrev aE : S2x1000000.Idx → BitVec 32 := m ((c.tc : Thread nD τ).loc main_arg1)
abbrev aW1 : S64x64.Idx → EReal := m ((c.tc : Thread nD τ).loc main_arg3)
abbrev aB1 : S64.Idx → EReal := m ((c.tc : Thread nD τ).loc main_arg4)
abbrev aW2 : S64x64.Idx → EReal := m ((c.tc : Thread nD τ).loc main_arg5)
abbrev aB2 : S64.Idx → EReal := m ((c.tc : Thread nD τ).loc main_arg6)
abbrev aFw : S64x1.Idx → EReal := m ((c.tc : Thread nD τ).loc main_arg8)
abbrev aFb : S1.Idx → EReal := m ((c.tc : Thread nD τ).loc main_arg9)

/-- The edges' sources and destinations, the features, the weights and the biases, read at plain indices. -/
abbrev src : Fin 1000000 → BitVec 32 := Gcn.srcOf (aE m c)
abbrev dst : Fin 1000000 → BitVec 32 := Gcn.dstOf (aE m c)
abbrev xx : Fin 100000 → Fin 64 → EReal := Gcn.mat (aX m c)
abbrev w1 : Fin 64 → Fin 64 → EReal := Gcn.mat (aW1 m c)
abbrev w2 : Fin 64 → Fin 64 → EReal := Gcn.mat (aW2 m c)
abbrev b1 : Fin 64 → EReal := Gcn.vec (aB1 m c)
abbrev b2 : Fin 64 → EReal := Gcn.vec (aB2 m c)

/-! ## The edge words -/

theorem v1_at1 (e : Fin 1000000) :
    (W1 (F := Ideal) m ρ c (Proc.devRef .tc main_v1) : S1000000.Idx → BitVec 32) (ix1 e) = src m c e :=
  HostVal.v1_apply (W0 m ρ c) e
theorem v3_at1 (e : Fin 1000000) :
    (W1 (F := Ideal) m ρ c (Proc.devRef .tc main_v3) : S1000000.Idx → BitVec 32) (ix1 e) = dst m c e :=
  HostVal.v3_apply (W0 m ρ c) e
theorem v1_at2 (e : Fin 1000000) :
    (W2 (F := Ideal) m ρ c (Proc.devRef .tc main_v1) : S1000000.Idx → BitVec 32) (ix1 e) = src m c e := by
  rw [W2_of_ne m ρ c main_v1 (by decide)]; exact v1_at1 m ρ c e
theorem v3_at2 (e : Fin 1000000) :
    (W2 (F := Ideal) m ρ c (Proc.devRef .tc main_v3) : S1000000.Idx → BitVec 32) (ix1 e) = dst m c e := by
  rw [W2_of_ne m ρ c main_v3 (by decide)]; exact v3_at1 m ρ c e
theorem v1_at4 (e : Fin 1000000) :
    (W4 (F := Ideal) m ρ c (Proc.devRef .tc main_v1) : S1000000.Idx → BitVec 32) (ix1 e) = src m c e := by
  rw [W4_of_ne m ρ c main_v1 (by decide), W3_keep m ρ c main_v1 (by decide)]; exact v1_at2 m ρ c e
theorem v3_at4 (e : Fin 1000000) :
    (W4 (F := Ideal) m ρ c (Proc.devRef .tc main_v3) : S1000000.Idx → BitVec 32) (ix1 e) = dst m c e := by
  rw [W4_of_ne m ρ c main_v3 (by decide), W3_keep m ρ c main_v3 (by decide)]; exact v3_at2 m ρ c e

/-! ## The factors -/

theorem v13_at1 (n : Fin 100000) :
    (W1 (F := Ideal) m ρ c (Proc.devRef .tc main_v13) : S100000x1.Idx → EReal) (ix2 n (0 : Fin 1)) = Gcn.dinvK (dst m c) n :=
  HostVal.v13_apply (W0 m ρ c) n
theorem v13_at3 (n : Fin 100000) :
    (W3 (F := Ideal) m ρ c (Proc.devRef .tc main_v13) : S100000x1.Idx → EReal) (ix2 n (0 : Fin 1)) = Gcn.dinvK (dst m c) n := by
  rw [W3_keep m ρ c main_v13 (by decide),
    show W2 (F := Ideal) m ρ c (Proc.devRef .tc main_v13) = W1 m ρ c (Proc.devRef .tc main_v13) from W2_in m ρ c 2 rfl]
  exact v13_at1 m ρ c n
theorem v13_at5 (n : Fin 100000) :
    (W5 (F := Ideal) m ρ c (Proc.devRef .tc main_v13) : S100000x1.Idx → EReal) (ix2 n (0 : Fin 1)) = Gcn.dinvK (dst m c) n := by
  rw [W5_keep m ρ c main_v13 (by decide),
    show W4 (F := Ideal) m ρ c (Proc.devRef .tc main_v13) = W3 m ρ c (Proc.devRef .tc main_v13) from W4_in m ρ c 2 rfl]
  exact v13_at3 m ρ c n

/-! ## The weights and the biases -/

theorem arg0_at1 : W1 (F := Ideal) m ρ c (Proc.devRef .tc main_arg0) = aX m c := W1_keep m ρ c main_arg0 (by decide)
theorem arg3_at1 : W1 (F := Ideal) m ρ c (Proc.devRef .tc main_arg3) = aW1 m c := W1_keep m ρ c main_arg3 (by decide)
theorem arg5_at3 : W3 (F := Ideal) m ρ c (Proc.devRef .tc main_arg5) = aW2 m c :=
  (W3_keep m ρ c main_arg5 (by decide)).trans <| (W2_of_ne m ρ c main_arg5 (by decide)).trans <| W1_keep m ρ c main_arg5 (by decide)
theorem arg8_at5 : W5 (F := Ideal) m ρ c (Proc.devRef .tc main_arg8) = aFw m c :=
  (W5_keep m ρ c main_arg8 (by decide)).trans <| (W4_of_ne m ρ c main_arg8 (by decide)).trans <|
    (W3_keep m ρ c main_arg8 (by decide)).trans <| (W2_of_ne m ρ c main_arg8 (by decide)).trans <| W1_keep m ρ c main_arg8 (by decide)

theorem v14_at3 (f : Fin 64) :
    (W3 (F := Ideal) m ρ c (Proc.devRef .tc main_v14) : S1x64.Idx → EReal) (ix2 (0 : Fin 1) f) = b1 m c f := by
  rw [W3_keep m ρ c main_v14 (by decide), W2_of_ne m ρ c main_v14 (by decide)]
  exact HostVal.v14_apply (W0 m ρ c) f
theorem v15_at5 (f : Fin 64) :
    (W5 (F := Ideal) m ρ c (Proc.devRef .tc main_v15) : S1x64.Idx → EReal) (ix2 (0 : Fin 1) f) = b2 m c f := by
  rw [W5_keep m ρ c main_v15 (by decide), W4_of_ne m ρ c main_v15 (by decide), W3_keep m ρ c main_v15 (by decide),
    W2_of_ne m ρ c main_v15 (by decide)]
  exact HostVal.v15_apply (W0 m ρ c) f
theorem v16_at5 :
    (W5 (F := Ideal) m ρ c (Proc.devRef .tc main_v16) : S1x1.Idx → EReal) (ix2 (0 : Fin 1) (0 : Fin 1)) = Gcn.vec (aFb m c) (0 : Fin 1) := by
  rw [W5_keep m ρ c main_v16 (by decide), W4_of_ne m ρ c main_v16 (by decide), W3_keep m ρ c main_v16 (by decide),
    W2_of_ne m ρ c main_v16 (by decide)]
  exact HostVal.v16_apply (W0 m ρ c)

/-! ## The first round -/

/-- The first kernel leaves the scaled product of the features with the first weights. -/
theorem v17_at2 (n : Fin 100000) (f : Fin 64) :
    (W2 (F := Ideal) m ρ c (Proc.devRef .tc main_v17) : S100000x64.Idx → EReal) (ix2 n f)
      = Gcn.h1K (dst m c) (xx m c) (w1 m c) n f := by
  rw [show W2 (F := Ideal) m ρ c (Proc.devRef .tc main_v17) = (dat0 (V1 m ρ) c).arrAt 3 cfg0.N from W2_arr m ρ c 3,
    arr0 (V1 m ρ) c n f]
  unfold g0
  rw [show V1 (F := Ideal) m ρ c main_arg0 = aX m c from arg0_at1 m ρ c,
    show V1 (F := Ideal) m ρ c main_arg3 = aW1 m c from arg3_at1 m ρ c,
    show (V1 (F := Ideal) m ρ c main_v13 : S100000x1.Idx → EReal) (ix2 n (0 : Fin 1)) = Gcn.dinvK (dst m c) n from v13_at1 m ρ c n]
  rfl
theorem v17_at3 (n : Fin 100000) (f : Fin 64) :
    (W3 (F := Ideal) m ρ c (Proc.devRef .tc main_v17) : S100000x64.Idx → EReal) (ix2 n f)
      = Gcn.h1K (dst m c) (xx m c) (w1 m c) n f := by
  rw [W3_keep m ρ c main_v17 (by decide)]; exact v17_at2 m ρ c n f

/-- The host's scatter of the gathered rows is the sum over the edges into `n`. -/
theorem v28_at3 (n : Fin 100000) (f : Fin 64) :
    (W3 (F := Ideal) m ρ c (Proc.devRef .tc main_v28) : S100000x64.Idx → EReal) (ix2 n f)
      = Gcn.agg (src m c) (dst m c) (Gcn.h1K (dst m c) (xx m c) (w1 m c)) n f := by
  refine (HostVal.v28_apply (W2 m ρ c) n f).trans ?_
  rw [show (fun e : Fin 1000000 => (W2 (F := Ideal) m ρ c (Proc.devRef .tc main_v3) : S1000000.Idx → BitVec 32) (ix1 e)) = dst m c
    from funext fun e => v3_at2 m ρ c e]
  unfold Gcn.agg
  exact Finset.sum_congr (M := EReal) rfl fun e _ => by rw [v1_at2 m ρ c e, v17_at2 m ρ c]

/-! ## The closed forms, one definition at a time -/

section Forms
variable (s d : Fin Gcn.Ne → BitVec 32) (x : Fin Gcn.Nn → Fin 64 → EReal) (W1 W2 : Fin 64 → Fin 64 → EReal) (b1 b2 : Fin 64 → EReal)
  (fw : Fin 64 → EReal) (fb : EReal)

theorem h1K_apply (n : Fin Gcn.Nn) (f : Fin 64) :
    Gcn.h1K d x W1 n f = (∑ k : Fin 64, x n k * W1 k f) * Gcn.dinvK d n := rfl
theorem a1K_apply (n : Fin Gcn.Nn) (k : Fin 64) :
    Gcn.a1K s d x W1 b1 n k
      = max (Gcn.dinvK d n * (Gcn.agg s d (Gcn.h1K d x W1) n k + Gcn.h1K d x W1 n k) + b1 k) 0 := rfl
theorem h2K_apply (n : Fin Gcn.Nn) (f : Fin 64) :
    Gcn.h2K s d x W1 W2 b1 n f = (∑ k : Fin 64, Gcn.a1K s d x W1 b1 n k * W2 k f) * Gcn.dinvK d n := rfl
theorem a2K_apply (n : Fin Gcn.Nn) (k : Fin 64) :
    Gcn.a2K s d x W1 W2 b1 b2 n k
      = max (Gcn.dinvK d n * (Gcn.agg s d (Gcn.h2K s d x W1 W2 b1) n k + Gcn.h2K s d x W1 W2 b1 n k) + b2 k) 0 := rfl
theorem outK_apply :
    Gcn.outK s d x W1 W2 b1 b2 fw fb
      = (∑ k : Fin 64, ((∑ n : Fin Gcn.Nn, Gcn.a2K s d x W1 W2 b1 b2 n k) * Gcn.invN) * fw k) + fb := rfl
end Forms

/-! ## The second round -/

/-- The second kernel leaves the scaled product of the first round's activation with the second weights. -/
theorem v29_at4 (n : Fin 100000) (f : Fin 64) :
    (W4 (F := Ideal) m ρ c (Proc.devRef .tc main_v29) : S100000x64.Idx → EReal) (ix2 n f)
      = Gcn.h2K (src m c) (dst m c) (xx m c) (w1 m c) (w2 m c) (b1 m c) n f := by
  rw [show W4 (F := Ideal) m ρ c (Proc.devRef .tc main_v29) = (dat1 (V3 m ρ) c).arrAt 5 cfg1.N from W4_arr m ρ c 5,
    arr1 (V3 m ρ) c n f]
  unfold g1
  rw [show (V3 (F := Ideal) m ρ c main_v13 : S100000x1.Idx → EReal) (ix2 n (0 : Fin 1)) = Gcn.dinvK (dst m c) n from v13_at3 m ρ c n,
    show V3 (F := Ideal) m ρ c main_arg5 = aW2 m c from arg5_at3 m ρ c, h2K_apply]
  refine congrArg (· * Gcn.dinvK (dst m c) n) (Finset.sum_congr rfl fun k _ => ?_)
  rw [a1K_apply,
    show (V3 (F := Ideal) m ρ c main_v28 : S100000x64.Idx → EReal) (ix2 n k) = _ from v28_at3 m ρ c n k,
    show (V3 (F := Ideal) m ρ c main_v17 : S100000x64.Idx → EReal) (ix2 n k) = _ from v17_at3 m ρ c n k,
    show (V3 (F := Ideal) m ρ c main_v14 : S1x64.Idx → EReal) (ix2 (0 : Fin 1) k) = _ from v14_at3 m ρ c k]
  rfl
theorem v29_at5 (n : Fin 100000) (f : Fin 64) :
    (W5 (F := Ideal) m ρ c (Proc.devRef .tc main_v29) : S100000x64.Idx → EReal) (ix2 n f)
      = Gcn.h2K (src m c) (dst m c) (xx m c) (w1 m c) (w2 m c) (b1 m c) n f := by
  rw [W5_keep m ρ c main_v29 (by decide)]; exact v29_at4 m ρ c n f

theorem v40_at5 (n : Fin 100000) (f : Fin 64) :
    (W5 (F := Ideal) m ρ c (Proc.devRef .tc main_v40) : S100000x64.Idx → EReal) (ix2 n f)
      = Gcn.agg (src m c) (dst m c) (Gcn.h2K (src m c) (dst m c) (xx m c) (w1 m c) (w2 m c) (b1 m c)) n f := by
  refine (HostVal.v40_apply (W4 m ρ c) n f).trans ?_
  rw [show (fun e : Fin 1000000 => (W4 (F := Ideal) m ρ c (Proc.devRef .tc main_v3) : S1000000.Idx → BitVec 32) (ix1 e)) = dst m c
    from funext fun e => v3_at4 m ρ c e]
  unfold Gcn.agg
  exact Finset.sum_congr (M := EReal) rfl fun e _ => by rw [v1_at4 m ρ c e, v29_at4 m ρ c]

/-! ## The pooled readout -/

theorem v41_at6 (hread : ReadoutValue) :
    (W6 (F := Ideal) m ρ c (Proc.devRef .tc main_v41) : S1x1.Idx → EReal) (ix2 (0 : Fin 1) (0 : Fin 1))
      = Gcn.outK (src m c) (dst m c) (xx m c) (w1 m c) (w2 m c) (b1 m c) (b2 m c)
          (fun k => Gcn.mat (aFw m c) k (0 : Fin 1)) (Gcn.vec (aFb m c) (0 : Fin 1)) := by
  rw [show W6 (F := Ideal) m ρ c (Proc.devRef .tc main_v41) = (dat2 (V5 m ρ) c).arrAt 6 cfg2.N from W6_arr m ρ c 6,
    hread (V5 m ρ) c]
  unfold g2
  rw [show V5 (F := Ideal) m ρ c main_arg8 = aFw m c from arg8_at5 m ρ c,
    show (V5 (F := Ideal) m ρ c main_v16 : S1x1.Idx → EReal) (ix2 (0 : Fin 1) (0 : Fin 1)) = _ from v16_at5 m ρ c, outK_apply]
  refine congrArg (· + Gcn.vec (aFb m c) (0 : Fin 1)) (Finset.sum_congr rfl fun k _ => ?_)
  refine congrArg (· * Gcn.mat (aFw m c) k (0 : Fin 1)) (congrArg (· * Gcn.invN) (Finset.sum_congr rfl fun n _ => ?_))
  rw [a2K_apply,
    show (V5 (F := Ideal) m ρ c main_v13 : S100000x1.Idx → EReal) (ix2 n (0 : Fin 1)) = _ from v13_at5 m ρ c n,
    show (V5 (F := Ideal) m ρ c main_v40 : S100000x64.Idx → EReal) (ix2 n k) = _ from v40_at5 m ρ c n k,
    show (V5 (F := Ideal) m ρ c main_v29 : S100000x64.Idx → EReal) (ix2 n k) = _ from v29_at5 m ρ c n k,
    show (V5 (F := Ideal) m ρ c main_v15 : S1x64.Idx → EReal) (ix2 (0 : Fin 1) k) = _ from v15_at5 m ρ c k]

/-- THE KERNEL PROGRAM'S VALUE, given the last kernel's: the result buffer after the last region is the kernel's closed form
    of the launch arrays. -/
theorem kernel_value_of (hread : ReadoutValue) :
    W6 (F := Ideal) m ρ c (Proc.devRef .tc main_v41)
      = (fun _ => Gcn.kernOf (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg8)) (m ((c.tc : Thread nD τ).loc main_arg9))) := by
  show (W6 (F := Ideal) m ρ c (Proc.devRef .tc main_v41) : S1x1.Idx → EReal) = fun _ : S1x1.Idx => _
  funext i
  have h0 : i 0 = (0 : Fin 1) := Fin.ext (by have := idx2_lt0 i; show (i 0).val = 0; omega)
  have h1 : i 1 = (0 : Fin 1) := Fin.ext (by have := idx2_lt1 i; show (i 1).val = 0; omega)
  rw [eq_ix2 i, h0, h1]
  unfold Gcn.kernOf
  exact v41_at6 m ρ c hread

/-- THE KERNEL PROGRAM'S VALUE: the result buffer after the last region is the kernel's closed form of the launch arrays. -/
theorem kernel_value :
    W6 (F := Ideal) m ρ c (Proc.devRef .tc main_v41)
      = (fun _ => Gcn.kernOf (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg8)) (m ((c.tc : Thread nD τ).loc main_arg9))) :=
  kernel_value_of m ρ c (fun V c => arr2 V c)

end Cert.KernelIdeal.Val

end
-- ==== Proof.RefValue.lean ====
/-
  The value of the reference program, in closed form.

  The reference computes, from the node features, the edge array, two weight matrices with their biases and a last
  column of weights with its bias: two rounds of a graph convolution, each followed by a clip below at zero, the mean
  over the nodes, one product with the column and the bias. This module reads the program's composed term stage by
  stage, every stage stated over variables for its operands, and identifies the result with `Cert.Gcn.refOf`:

  * the index words: a row of the edge array with the node numbers appended is `withLoops` of the row, and the
    compare-add-select stage moves a negative word up by the number of nodes (`wrap`);
  * the degrees: the accumulating scatter of ones over the destination words counts the words equal to the node, and
    the floored reciprocal square root of that count is `dinvR`;
  * one round (`layerT`): the product of features and weights, gathered at the source words, times the two gathered
    per-node factors, scattered onto the destination words, plus the bias, clipped below at zero, is `layerR`;
  * the tail: the sum over the nodes, the quotient by the number of nodes, the last product and the bias are `outR`.

  `run_ref` then says every weakly fair execution of the reference ends with its result buffer at that closed form
  and its arguments unchanged.
-/
import proofs.«139629_j28845000360148_2_alg».proof.Proof.Gen.ReferenceIdeal.Read
import proofs.«139629_j28845000360148_2_alg».proof.Proof.Spec
import proofs.«139629_j28845000360148_2_alg».proof.Proof.LibGatherScatter
import proofs.«139629_j28845000360148_2_alg».proof.Proof.LibHostScatter
import proofs.«139629_j28845000360148_2_alg».proof.Proof.LibHostLayout
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Idealize.ShloMosaic.RowIdx Cert.Gcn Cert.HostLayout

/-! ## The printed dimension records are the generic ones -/

example : gather_S100000x64_S1100000x1_S1100000x64_1_0_n_n_0_1_164
    = rowGatherDims 100000 1100000 64 gather_S100000x64_S1100000x1_S1100000x64_1_0_n_n_0_1_164_wf := rfl
example : gather_S100000_S1100000x1_S1100000_n_0_n_n_0_1_1
    = flatGatherDims 100000 1100000 gather_S100000_S1100000x1_S1100000_n_0_n_n_0_1_1_wf := rfl
example : scatter_S100000x64_S1100000x1_S1100000x64_1_0_0_1
    = rowScatterDims 100000 1100000 64 scatter_S100000x64_S1100000x1_S1100000x64_1_0_0_1_wf := rfl
example : scatter_S100000_S1100000x1_S1100000_n_0_0_1
    = flatScatterDims 100000 1100000 scatter_S100000_S1100000x1_S1100000_n_0_0_1_wf := rfl

/-- Two rank-1 arrays joined along their one axis, read at position `e`: the first array below its extent, the second
    array past it. -/
theorem concat_at (a : IVec S1000000 32) (b : IVec S100000 32) (e : Fin 1100000) :
    concatenate S1100000 0 [⟨S1000000, a⟩, ⟨S100000, b⟩] concatenates_S1000000_S100000_S1100000_d0 (ix1 e)
      = if h : e.val < 1000000 then a (ix1 ⟨e.val, h⟩)
        else b (ix1 ⟨e.val - 1000000, by have := e.isLt; omega⟩) := by
  split
  · next h =>
    exact concatenate_pair_apply_left (t := S1100000) (0 : Fin 1) a b concatenates_S1000000_S100000_S1100000_d0 (ix1 e) rfl
      (ix1 ⟨e.val, h⟩) (fun c => match c with | ⟨0, _⟩ => rfl)
  · next h =>
    exact concatenate_pair_apply_right (t := S1100000) (0 : Fin 1) a b concatenates_S1000000_S100000_S1100000_d0 (ix1 e) rfl rfl
      (ix1 ⟨e.val - 1000000, by have := e.isLt; omega⟩)
      (fun c hc => match c, hc with | ⟨0, _⟩, hc => absurd rfl hc)
      (by show e.val - 1000000 + 1000000 = e.val; omega)

/-! ## The index words -/

/-- Row 0 of the edge array, as the program slices and reshapes it, read at an edge. -/
theorem v1_at (x1 : IVec S2x1000000 32) (e : Fin 1000000) : val_main_v1 (F := Ideal) x1 (ix1 e) = srcOf x1 e := by
  rw [val_main_v1_apply, val_main_v0_apply]
  unfold srcOf
  refine congrArg x1 (funext fun a => Fin.ext ?_)
  match a with
  | ⟨0, _⟩ => rfl
  | ⟨1, _⟩ => show e.val % 1000000 = e.val; have := e.isLt; omega

/-- Row 1 of the edge array, as the program slices and reshapes it, read at an edge. -/
theorem v3_at (x1 : IVec S2x1000000 32) (e : Fin 1000000) : val_main_v3 (F := Ideal) x1 (ix1 e) = dstOf x1 e := by
  rw [val_main_v3_apply, val_main_v2_apply]
  unfold dstOf
  refine congrArg x1 (funext fun a => Fin.ext ?_)
  match a with
  | ⟨0, _⟩ => rfl
  | ⟨1, _⟩ => show e.val % 1000000 = e.val; have := e.isLt; omega

/-- An edge list with the node numbers appended is `withLoops` of the list. -/
theorem loops_at (a : IVec S1000000 32) (d : Fin Ne → BitVec 32) (had : ∀ e : Fin 1000000, a (ix1 e) = d e) (e : Fin 1100000) :
    concatenate S1100000 0 [⟨S1000000, a⟩, ⟨S100000, iotaInDim S100000 32 0⟩] concatenates_S1000000_S100000_S1100000_d0 (ix1 e)
      = withLoops d e := by
  rw [concat_at]
  unfold withLoops
  split
  · next h => exact had _
  · next h => rfl

theorem v9_at (x1 : IVec S2x1000000 32) (e : Fin 1100000) : val_main_v9 (F := Ideal) x1 (ix1 e) = withLoops (srcOf x1) e :=
  loops_at _ _ (v1_at x1) e
theorem v10_at (x1 : IVec S2x1000000 32) (e : Fin 1100000) : val_main_v10 (F := Ideal) x1 (ix1 e) = withLoops (dstOf x1) e :=
  loops_at _ _ (v3_at x1) e
theorem v52_eq (x1 : IVec S2x1000000 32) : val_main_v52 (F := Ideal) x1 = val_main_v9 (F := Ideal) x1 := rfl
theorem v53_eq (x1 : IVec S2x1000000 32) : val_main_v53 (F := Ideal) x1 = val_main_v10 (F := Ideal) x1 := rfl

/-- The index words with the negative ones moved up by the number of nodes, as the program computes them. -/
def wrapT (w : IVec S1100000 32) : IVec S1100000 32 :=
  select (cmpi .slt w (broadcastInDim S1100000 ![] bcast_S_S1100000 (constantI S_ 32 0#32)))
    (addi w (broadcastInDim S1100000 ![] bcast_S_S1100000 (constantI S_ 32 100000#32))) w

theorem wrapT_at (w : IVec S1100000 32) (e : Fin 1100000) : wrapT w (ix1 e) = wrap (w (ix1 e)) := by
  unfold wrapT wrap
  show Scalar.select (IntOp.cmpi .slt (w (ix1 e)) (broadcastInDim S1100000 ![] bcast_S_S1100000 (constantI S_ 32 0#32) (ix1 e)))
    (IntOp.addi (w (ix1 e)) (broadcastInDim S1100000 ![] bcast_S_S1100000 (constantI S_ 32 100000#32) (ix1 e))) (w (ix1 e)) = _
  rw [bcast_scalar_apply, bcast_scalar_apply]
  rfl

/-- A vector of index words made a column, read at a row. -/
theorem col_at (w : IVec S1100000 32) (e : Fin 1100000) :
    broadcastInDim S1100000x1 ![0] bcast_S1100000_S1100000x1_0 w (ix2 e (0 : Fin 1)) = w (ix1 e) :=
  bcast_col_apply _ w e 0

/-- A vector made a column, read at a row (any element type). -/
theorem colv_at {α : Type} (w : S1100000.Idx → α) (e : Fin 1100000) :
    broadcastInDim S1100000x1 ![0] bcast_S1100000_S1100000x1_0 w (ix2 e (0 : Fin 1)) = w (ix1 e) :=
  bcast_col_apply _ w e 0

/-! ## The degrees -/

/-- The reciprocal square roots of the floored in-degrees, as the program computes them from the destination words. -/
def dinvT (w : IVec S1100000 32) : FVec Ideal S100000 .f32 :=
  Host.rsqrt (maximumf (Host.scatterAdd (F := Ideal) scatter_S100000_S1100000x1_S1100000_n_0_0_1
      (broadcastInDim S100000 ![] bcast_S_S100000 (constant S_ .f32 0x00000000#32))
      (broadcastInDim S1100000x1 ![0] bcast_S1100000_S1100000x1_0 w)
      (broadcastInDim S1100000 ![] bcast_S_S1100000 (constant S_ .f32 0x3F800000#32)))
    (broadcastInDim S100000 ![] bcast_S_S100000 (constant S_ .f32 0x2B8CBCCC#32)))

theorem const_zero : (constant (F := Ideal) S_ .f32 0x00000000#32) ix0 = 0 := Ideal.ofBits_zero_f32
theorem const_one : (constant (F := Ideal) S_ .f32 0x3F800000#32) ix0 = one := rfl
theorem const_eps : (constant (F := Ideal) S_ .f32 0x2B8CBCCC#32) ix0 = eps := rfl
theorem const_cN : (constant (F := Ideal) S_ .f32 0x47C35000#32) ix0 = cN := rfl

/-- The accumulating scatter of ones over the destination words counts the words that are the node. -/
theorem deg_at (w : IVec S1100000 32) (n : Fin 100000) :
    Host.scatterAdd (F := Ideal) scatter_S100000_S1100000x1_S1100000_n_0_0_1
      (broadcastInDim S100000 ![] bcast_S_S100000 (constant S_ .f32 0x00000000#32))
      (broadcastInDim S1100000x1 ![0] bcast_S1100000_S1100000x1_0 w)
      (broadcastInDim S1100000 ![] bcast_S_S1100000 (constant S_ .f32 0x3F800000#32)) (ix1 n)
      = ∑ _e ∈ into (fun e : Fin 1100000 => w (ix1 e)) n, one := by
  rw [show scatter_S100000_S1100000x1_S1100000_n_0_0_1 = flatScatterDims 100000 1100000 scatter_S100000_S1100000x1_S1100000_n_0_0_1_wf from rfl,
    host_flatScatterAdd_apply, bcast_scalar_apply, const_zero, zero_add]
  unfold into
  refine Finset.sum_congr (Finset.filter_congr fun e _ => by rw [col_at]) fun e _ => ?_
  rw [bcast_scalar_apply, const_one]

/-- The host's reciprocal square root and quotient at an index, at the ideal values. -/
theorem hrsqrt_apply {s : Shape} {φ : FTy} (a : FVec Ideal s φ) (i : s.Idx) : Host.rsqrt a i = Ideal.rsqrt (a i) := rfl
theorem hdivf_apply {s : Shape} {φ : FTy} (a b : FVec Ideal s φ) (i : s.Idx) : Host.divf a b i = Ideal.div (a i) (b i) := rfl

theorem dinvT_at (w : IVec S1100000 32) (n : Fin 100000) :
    dinvT w (ix1 n) = rs (∑ _e ∈ into (fun e : Fin 1100000 => w (ix1 e)) n, one) := by
  unfold dinvT rs
  rw [hrsqrt_apply, maximumf_apply, bcast_scalar_apply, const_eps, deg_at]

theorem v17_eq (x1 : IVec S2x1000000 32) : val_main_v17 (F := Ideal) x1 = dinvT (val_main_v10 (F := Ideal) x1) := by
  unfold val_main_v17 val_main_v16 val_main_v15 val_main_v14 val_main_v13 val_main_v12 val_main_v11 val_main_cst val_main_cst_0
    val_main_cst_1 dinvT
  with_reducible rfl

/-- The program's reciprocal square roots are the closed form's. -/
theorem v17_at (x1 : IVec S2x1000000 32) (n : Fin 100000) : val_main_v17 (F := Ideal) x1 (ix1 n) = dinvR (dstOf x1) n := by
  rw [v17_eq, dinvT_at]
  unfold dinvR degR
  simp only [v10_at]

/-! ## One round -/

/-- A gather of feature rows at the wrapped words reads row `rowOf` of the word. -/
theorem gatherRow_at (h : FVec Ideal S100000x64 .f32) (w : IVec S1100000 32) (e : Fin 1100000) (f : Fin 64) :
    Host.gather gather_S100000x64_S1100000x1_S1100000x64_1_0_n_n_0_1_164 h
      (broadcastInDim S1100000x1 ![0] bcast_S1100000_S1100000x1_0 (wrapT w)) (ix2 e f) = h (ix2 (rowOf (w (ix1 e))) f) := by
  rw [show gather_S100000x64_S1100000x1_S1100000x64_1_0_n_n_0_1_164
      = rowGatherDims 100000 1100000 64 gather_S100000x64_S1100000x1_S1100000x64_1_0_n_n_0_1_164_wf from rfl,
    rowGather_apply (by omega : 0 < 100000), colv_at, wrapT_at]
  rfl

/-- A gather of per-node values at the wrapped words reads entry `rowOf` of the word. -/
theorem gatherFlat_at (d : FVec Ideal S100000 .f32) (w : IVec S1100000 32) (e : Fin 1100000) :
    Host.gather gather_S100000_S1100000x1_S1100000_n_0_n_n_0_1_1 d
      (broadcastInDim S1100000x1 ![0] bcast_S1100000_S1100000x1_0 (wrapT w)) (ix1 e) = d (ix1 (rowOf (w (ix1 e)))) := by
  rw [show gather_S100000_S1100000x1_S1100000_n_0_n_n_0_1_1
      = flatGatherDims 100000 1100000 gather_S100000_S1100000x1_S1100000_n_0_n_n_0_1_1_wf from rfl,
    flatGather_apply (by omega : 0 < 100000), colv_at, wrapT_at]
  rfl

/-- One round of the reference as the program computes it, from the product `h` of features and weights, the source and
    destination words, the per-node factors and the bias. -/
def layerT (h : FVec Ideal S100000x64 .f32) (ws wd : IVec S1100000 32) (dinv : FVec Ideal S100000 .f32) (b : FVec Ideal S64 .f32) :
    FVec Ideal S100000x64 .f32 :=
  maximumf (addf (Host.scatterAdd (F := Ideal) scatter_S100000x64_S1100000x1_S1100000x64_1_0_0_1
        (broadcastInDim S100000x64 ![] bcast_S_S100000x64 (constant S_ .f32 0x00000000#32))
        (broadcastInDim S1100000x1 ![0] bcast_S1100000_S1100000x1_0 wd)
        (mulf (Host.gather gather_S100000x64_S1100000x1_S1100000x64_1_0_n_n_0_1_164 h
            (broadcastInDim S1100000x1 ![0] bcast_S1100000_S1100000x1_0 (wrapT ws)))
          (broadcastInDim S1100000x64 ![0, 1] bcast_S1100000x1_S1100000x64_0_1
            (broadcastInDim S1100000x1 ![0] bcast_S1100000_S1100000x1_0
              (mulf (Host.gather gather_S100000_S1100000x1_S1100000_n_0_n_n_0_1_1 dinv
                  (broadcastInDim S1100000x1 ![0] bcast_S1100000_S1100000x1_0 (wrapT ws)))
                (Host.gather gather_S100000_S1100000x1_S1100000_n_0_n_n_0_1_1 dinv
                  (broadcastInDim S1100000x1 ![0] bcast_S1100000_S1100000x1_0 (wrapT wd))))))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

theorem layerT_at (h : FVec Ideal S100000x64 .f32) (ws wd : IVec S1100000 32) (dinv : FVec Ideal S100000 .f32)
    (b : FVec Ideal S64 .f32) (n : Fin 100000) (f : Fin 64) :
    layerT h ws wd dinv b (ix2 n f)
      = max ((∑ e ∈ into (fun e : Fin 1100000 => wd (ix1 e)) n,
          h (ix2 (rowOf (ws (ix1 e))) f) * (dinv (ix1 (rowOf (ws (ix1 e)))) * dinv (ix1 (rowOf (wd (ix1 e)))))) + b (ix1 f)) 0 := by
  unfold layerT
  rw [maximumf_apply, addf_apply, bcast_scalar_apply, const_zero, bcast_cols_apply, bcast_rowvec_apply,
    show scatter_S100000x64_S1100000x1_S1100000x64_1_0_0_1
      = rowScatterDims 100000 1100000 64 scatter_S100000x64_S1100000x1_S1100000x64_1_0_0_1_wf from rfl,
    host_rowScatterAdd_apply, bcast_scalar_apply, const_zero, zero_add]
  unfold into
  refine congrArg (fun s => max (s + b (ix1 f)) 0)
    (Finset.sum_congr (Finset.filter_congr fun e _ => by rw [colv_at]) fun e _ => ?_)
  rw [mulf_apply, gatherRow_at, bcast_rows_apply, colv_at, mulf_apply, gatherFlat_at, gatherFlat_at]

/-- The host product of node features and a weight matrix, read at a node and a column. -/
theorem dot_at (l : FVec Ideal S100000x64 .f32) (r : FVec Ideal S64x64 .f32) (p : Fin 100000) (f : Fin 64) :
    Host.dotGeneral (F := Ideal) dot_S100000x64_S64x64_S100000x64_1_0_0_1_n_n none l r (ix2 p f) = mm (mat l) (mat r) p f := by
  have h := val_main_v18_apply l r (ix2 p f)
  unfold val_main_v18 at h
  rw [h]
  unfold mm mat
  refine Finset.sum_congr rfl fun k _ => ?_
  refine congrArg₂ (· * ·) (congrArg l (funext fun a => ?_)) (congrArg r (funext fun a => ?_))
  · match a with
    | ⟨0, _⟩ => rfl
    | ⟨1, _⟩ => rfl
  · match a with
    | ⟨0, _⟩ => rfl
    | ⟨1, _⟩ => rfl

theorem v50_eq (x0 : FVec Ideal S100000x64 .f32) (x1 : IVec S2x1000000 32) (x3 : FVec Ideal S64x64 .f32) (x4 : FVec Ideal S64 .f32) :
    val_main_v50 (F := Ideal) x0 x1 x3 x4
      = layerT (val_main_v18 (F := Ideal) x0 x3) (val_main_v9 (F := Ideal) x1) (val_main_v10 (F := Ideal) x1) (val_main_v17 (F := Ideal) x1) x4 := by
  unfold val_main_v50 val_main_v49 val_main_v48 val_main_v47 val_main_v46 val_main_v45 val_main_v44 val_main_v43 val_main_v42
    val_main_v41 val_main_v40 val_main_v39 val_main_v38 val_main_v37 val_main_v36 val_main_v35 val_main_v34 val_main_v33
    val_main_v32 val_main_v31 val_main_v30 val_main_v29 val_main_v28 val_main_v27 val_main_v26 val_main_v25 val_main_v24
    val_main_v23 val_main_v22 val_main_v21 val_main_v20 val_main_v19 val_main_c val_main_c_2 val_main_c_3 val_main_c_4
    val_main_c_5 val_main_c_6 val_main_cst_7 val_main_call0_v0 val_main_call0_cst layerT wrapT
  with_reducible rfl

/-- The first round's output is the closed form's. -/
theorem v50_at (x0 : FVec Ideal S100000x64 .f32) (x1 : IVec S2x1000000 32) (x3 : FVec Ideal S64x64 .f32) (x4 : FVec Ideal S64 .f32)
    (n : Fin 100000) (f : Fin 64) :
    val_main_v50 (F := Ideal) x0 x1 x3 x4 (ix2 n f) = a1R (srcOf x1) (dstOf x1) (mat x0) (mat x3) (vec x4) n f := by
  rw [v50_eq, layerT_at]
  unfold a1R layerR into
  refine congrArg (fun s => max (s + vec x4 f) 0)
    (Finset.sum_congr (Finset.filter_congr fun e _ => by beta_reduce; rw [v10_at]) fun e _ => ?_)
  rw [v9_at, v10_at, v17_at, v17_at]
  unfold val_main_v18
  rw [dot_at]

theorem v60_eq (x1 : IVec S2x1000000 32) : val_main_v60 (F := Ideal) x1 = val_main_v17 (F := Ideal) x1 := by
  unfold val_main_v60 val_main_v59 val_main_v58 val_main_v57 val_main_v56 val_main_v55 val_main_v54 val_main_v53 val_main_v51
    val_main_cst_8 val_main_cst_9 val_main_cst_10
    val_main_v17 val_main_v16 val_main_v15 val_main_v14 val_main_v13 val_main_v12 val_main_v11 val_main_v10 val_main_v8
    val_main_cst val_main_cst_0 val_main_cst_1
  with_reducible rfl

/-- The second round's product of the first round's output and the second weight matrix. -/
theorem v61_at (x0 : FVec Ideal S100000x64 .f32) (x1 : IVec S2x1000000 32) (x3 : FVec Ideal S64x64 .f32) (x4 : FVec Ideal S64 .f32)
    (x5 : FVec Ideal S64x64 .f32) (p : Fin 100000) (f : Fin 64) :
    val_main_v61 (F := Ideal) x0 x1 x3 x4 x5 (ix2 p f)
      = mm (a1R (srcOf x1) (dstOf x1) (mat x0) (mat x3) (vec x4)) (mat x5) p f := by
  unfold val_main_v61
  rw [dot_at]
  unfold mm
  exact Finset.sum_congr rfl fun k _ => congrArg (· * mat x5 k f) (v50_at x0 x1 x3 x4 p k)

theorem v93_eq (x0 : FVec Ideal S100000x64 .f32) (x1 : IVec S2x1000000 32) (x3 : FVec Ideal S64x64 .f32) (x4 : FVec Ideal S64 .f32)
    (x5 : FVec Ideal S64x64 .f32) (x6 : FVec Ideal S64 .f32) :
    val_main_v93 (F := Ideal) x0 x1 x3 x4 x5 x6
      = layerT (val_main_v61 (F := Ideal) x0 x1 x3 x4 x5) (val_main_v52 (F := Ideal) x1) (val_main_v53 (F := Ideal) x1)
          (val_main_v60 (F := Ideal) x1) x6 := by
  unfold val_main_v93 val_main_v92 val_main_v91 val_main_v90 val_main_v89 val_main_v88 val_main_v87 val_main_v86 val_main_v85
    val_main_v84 val_main_v83 val_main_v82 val_main_v81 val_main_v80 val_main_v79 val_main_v78 val_main_v77 val_main_v76
    val_main_v75 val_main_v74 val_main_v73 val_main_v72 val_main_v71 val_main_v70 val_main_v69 val_main_v68 val_main_v67
    val_main_v66 val_main_v65 val_main_v64 val_main_v63 val_main_v62 val_main_c_11 val_main_c_12 val_main_c_13 val_main_c_14
    val_main_c_15 val_main_c_16 val_main_cst_17 val_main_call1_v0 val_main_call1_cst layerT wrapT
  with_reducible rfl

/-- The second round's output is the closed form's. -/
theorem v93_at (x0 : FVec Ideal S100000x64 .f32) (x1 : IVec S2x1000000 32) (x3 : FVec Ideal S64x64 .f32) (x4 : FVec Ideal S64 .f32)
    (x5 : FVec Ideal S64x64 .f32) (x6 : FVec Ideal S64 .f32) (n : Fin 100000) (f : Fin 64) :
    val_main_v93 (F := Ideal) x0 x1 x3 x4 x5 x6 (ix2 n f)
      = a2R (srcOf x1) (dstOf x1) (mat x0) (mat x3) (mat x5) (vec x4) (vec x6) n f := by
  rw [v93_eq, layerT_at, v52_eq, v53_eq, v60_eq]
  unfold a2R layerR into
  refine congrArg (fun s => max (s + vec x6 f) 0)
    (Finset.sum_congr (Finset.filter_congr fun e _ => by beta_reduce; rw [v10_at]) fun e _ => ?_)
  rw [v9_at, v10_at, v17_at, v17_at, v61_at]

/-! ## The mean over the nodes, the last product and the bias -/

theorem v97_at (x0 : FVec Ideal S100000x64 .f32) (x1 : IVec S2x1000000 32) (x3 : FVec Ideal S64x64 .f32) (x4 : FVec Ideal S64 .f32)
    (x5 : FVec Ideal S64x64 .f32) (x6 : FVec Ideal S64 .f32) (z : Fin 1) (k : Fin 64) :
    val_main_v97 (F := Ideal) x0 x1 x3 x4 x5 x6 (ix2 z k)
      = Ideal.div (∑ n, a2R (srcOf x1) (dstOf x1) (mat x0) (mat x3) (mat x5) (vec x4) (vec x6) n k) cN := by
  have hz : (FloatOps.ofBits .f32 0x00000000#32 : Ideal .f32) = 0 := Ideal.ofBits_zero_f32
  rw [val_main_v97_apply, Ideal.hostDivf_def, val_main_v95_apply, val_main_v96_apply, val_main_cst_19_apply, val_main_v94_apply,
    val_main_cst_18_apply, hz, zero_add]
  refine congrArg₂ Ideal.div (Finset.sum_congr rfl fun n _ => ?_) rfl
  have e : idx_main_v94 (idx_main_v95 (ix2 z k)) n = ix2 n k := funext fun a => by
    match a with
    | ⟨0, _⟩ => rfl
    | ⟨1, _⟩ => rfl
  rw [e, v93_at]

/-- THE REFERENCE'S VALUE: the composed term of the eight arrays the program reads is the closed form, at its one index. -/
theorem result_eq (x0 : FVec Ideal S100000x64 .f32) (x1 : IVec S2x1000000 32) (x3 : FVec Ideal S64x64 .f32) (x4 : FVec Ideal S64 .f32)
    (x5 : FVec Ideal S64x64 .f32) (x6 : FVec Ideal S64 .f32) (x8 : FVec Ideal S64x1 .f32) (x9 : FVec Ideal S1 .f32) :
    val_main_v100 (F := Ideal) x0 x1 x3 x4 x5 x6 x8 x9 = fun _ => refOf x0 x1 x3 x4 x5 x6 x8 x9 := by
  funext i
  obtain ⟨p, q, rfl⟩ : ∃ (p q : Fin 1), i = ix2 p q := ⟨i 0, i 1, eq_ix2 i⟩
  obtain rfl : p = 0 := Subsingleton.elim _ _
  obtain rfl : q = 0 := Subsingleton.elim _ _
  rw [val_main_v100_apply, Ideal.addf_def, val_main_v98_apply, val_main_v99_apply]
  unfold refOf outR
  refine congrArg₂ (· + ·) (Finset.sum_congr rfl fun k _ => ?_) ?_
  · have el : lidx_main_v98 (ix2 (0 : Fin 1) (0 : Fin 1)) k = ix2 (0 : Fin 1) k := funext fun a => by
      match a with
      | ⟨0, _⟩ => rfl
      | ⟨1, _⟩ => rfl
    have er : ridx_main_v98 (ix2 (0 : Fin 1) (0 : Fin 1)) k = ix2 k (0 : Fin 1) := funext fun a => by
      match a with
      | ⟨0, _⟩ => rfl
      | ⟨1, _⟩ => rfl
    rw [el, er, v97_at]
    rfl
  · unfold vec
    refine congrArg x9 (funext fun a => ?_)
    match a with
    | ⟨0, _⟩ => rfl

/-- Every weakly fair execution of the reference terminates with its result buffer at the closed form of the argument
    arrays, the arguments unchanged. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v100)
          = (fun _ => Cert.Gcn.refOf (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono
    (fun _ h c => ⟨(h c).1.trans ((val_main_v100_eq (F := Ideal) m c).trans (result_eq _ _ _ _ _ _ _ _)), (h c).2⟩)
    (Cert.ReferenceIdeal.Value.run (F := Ideal) m ρ)

end Cert.ReferenceIdeal.RefValue

end
-- ==== Proof.Algebra.lean ====
/-
  The kernel's arrangement of the two rounds and the reference's are one extended real.

  The reference appends a self-loop `i → i` per node to the edge list. A sum over the updates of the extended list that
  land on node `n` is the sum over the real edges that land on `n`, plus the one term of the loop at `n`: the word of
  `i < 100000` read signed is `i`, so the loop at `i` lands on `n` exactly when `i = n`, and the row it reads is `n`.
  Hence the reference's degree is the kernel's (in-edges plus one), and so are the factors `dinv`.

  In one round, an edge landing on `n` carries `m · (dinv s · dinv n)` and the loop carries `m_n · (dinv n · dinv n)`; the kernel
  forms `dinv n · (Σ m · dinv s + m_n · dinv n)`. The two agree by commutativity and associativity of the product and the
  one distributive law `c · (y + z) = c · y + c · z`, which on the extended reals holds for `0 ≤ c`, `c ≠ ⊤`: `dinv n` is the
  reciprocal square root of a degree floored at a positive constant, a nonnegative real. No finiteness of the features,
  weights or biases is used.

  The mean: the divisor's word denotes the real `100000`, and a quotient by a nonzero real is the product with its reciprocal.
-/
import proofs.«139629_j28845000360148_2_alg».proof.Proof.Spec

noncomputable section

open scoped BigOperators

namespace Cert.Gcn

open Idealize.ShloMosaic Idealize.ShloMosaic.RowIdx

/-! ## The constants -/

theorem one_eq : one = 1 := by
  unfold one
  simp [Ideal.ofBits, Ideal.ieee, -EReal.coe_mul]; norm_num

theorem cN_eq : cN = ((100000 : ℝ) : EReal) := by
  unfold cN
  simp [Ideal.ofBits, Ideal.ieee, -EReal.coe_mul]; norm_num

theorem eps_pos : 0 < eps := by
  unfold eps
  simp [Ideal.ofBits, Ideal.ieee, -EReal.coe_mul]

theorem div_cN (y : EReal) : Ideal.div y cN = y * invN := by
  rw [cN_eq]
  exact Ideal.div_coe (by norm_num : (100000 : ℝ) ≠ 0) y

/-! ## The reciprocal square root of a floored degree -/

theorem rsqrt_of_pos (y : EReal) (hy : 0 < y) : 0 ≤ Ideal.rsqrt y ∧ Ideal.rsqrt y ≠ ⊤ := by
  induction y using EReal.rec with
  | bot => exact absurd hy (by simp)
  | top => exact ⟨le_of_eq rfl, (show (0 : EReal) ≠ ⊤ from EReal.zero_ne_top)⟩
  | coe r =>
    have hr : 0 < r := by exact_mod_cast hy
    have h1 : ¬ r < 0 := not_lt.mpr hr.le
    have h2 : ¬ r = 0 := hr.ne'
    have : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [this]
    exact ⟨by exact_mod_cast inv_nonneg.mpr (Real.sqrt_nonneg r), EReal.coe_ne_top _⟩

theorem rs_nonneg (deg : EReal) : 0 ≤ rs deg :=
  (rsqrt_of_pos _ (lt_max_of_lt_right eps_pos)).1

theorem rs_ne_top (deg : EReal) : rs deg ≠ ⊤ :=
  (rsqrt_of_pos _ (lt_max_of_lt_right eps_pos)).2

/-- A factor that is nonnegative and not `⊤` distributes over a finite sum. -/
theorem mul_sum_of_nonneg_of_ne_top {ι : Type*} (c : EReal) (hc : 0 ≤ c) (hc' : c ≠ ⊤) (s : Finset ι) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-! ## Start indices that are row numbers -/

theorem toInt_ofNat_small (k : Nat) (hk : k < 2147483648) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

theorem wrap_of_nonneg (v : BitVec 32) (h : 0 ≤ v.toInt) : wrap v = v := by
  unfold wrap Scalar.select IntOp.cmpi
  have hs : v.slt 0#32 = false := by
    rw [BitVec.slt_eq_decide, BitVec.toInt_zero]
    exact decide_eq_false (not_lt.mpr h)
  simp only [hs]
  rfl

theorem rowOf_of_toInt (v : BitVec 32) (n : Fin Nn) (h : v.toInt = (n.val : Int)) : rowOf v = n := by
  unfold rowOf
  rw [wrap_of_nonneg v (by omega)]
  exact clampRow_of_toInt _ v n h

/-! ## Splitting a sum over the edges with the self-loops appended -/

theorem sum_filter_split {A B M : Nat} (h : A + B = M) (P : Fin M → Prop) [DecidablePred P] (g : Fin M → EReal) :
    ∑ e ∈ Finset.univ.filter P, g e
      = (∑ e ∈ Finset.univ.filter (fun e : Fin A => P ⟨e.val, by omega⟩), g ⟨e.val, by omega⟩)
        + ∑ i ∈ Finset.univ.filter (fun i : Fin B => P ⟨A + i.val, by omega⟩), g ⟨A + i.val, by omega⟩ := by
  subst h
  rw [Finset.sum_filter, Fin.sum_univ_add, Finset.sum_filter, Finset.sum_filter]
  rfl

theorem withLoops_left (d : Fin Ne → BitVec 32) (e : Fin Ne) (h : e.val < Nf) : withLoops d ⟨e.val, h⟩ = d e := by
  unfold withLoops
  rw [dif_pos (show (⟨e.val, h⟩ : Fin Nf).val < Ne from e.isLt)]

theorem withLoops_right (d : Fin Ne → BitVec 32) (i : Fin Nn) (h : Ne + i.val < Nf) :
    withLoops d ⟨Ne + i.val, h⟩ = BitVec.ofNat 32 i.val := by
  unfold withLoops
  rw [dif_neg (show ¬ (⟨Ne + i.val, h⟩ : Fin Nf).val < Ne from by simp only; omega)]
  show BitVec.ofNat 32 (Ne + i.val - Ne) = _
  rw [Nat.add_sub_cancel_left]

theorem loops_filter (n : Fin Nn) :
    Finset.univ.filter (fun i : Fin Nn => (BitVec.ofNat 32 i.val).toInt = (n.val : Int)) = {n} := by
  ext i
  simp only [Finset.mem_filter, Finset.mem_univ, true_and, Finset.mem_singleton]
  rw [toInt_ofNat_small i.val (by have : i.val < 100000 := i.isLt; omega)]
  constructor
  · intro h; exact Fin.ext (by omega)
  · intro h; rw [h]

theorem rowOf_loop (n : Fin Nn) : rowOf (BitVec.ofNat 32 n.val) = n :=
  rowOf_of_toInt _ n (toInt_ofNat_small n.val (by have : n.val < 100000 := n.isLt; omega))

/-- A sum over the updates of the extended edge list that land on `n`: the real edges landing on `n`, and the loop at `n`. -/
theorem sum_into_withLoops (d : Fin Ne → BitVec 32) (n : Fin Nn) (g : Fin Nf → EReal) :
    ∑ e ∈ into (withLoops d) n, g e
      = (∑ e ∈ into d n, g ⟨e.val, by have : e.val < 1000000 := e.isLt; show e.val < 1100000; omega⟩) + g ⟨Ne + n.val, by have : n.val < 100000 := n.isLt; show 1000000 + n.val < 1100000; omega⟩ := by
  unfold into
  rw [sum_filter_split (A := Ne) (B := Nn) (M := Nf) (by norm_num)]
  simp only [withLoops_left, withLoops_right]
  rw [loops_filter n, Finset.sum_singleton]

/-! ## The degrees -/

theorem degR_eq (dst : Fin Ne → BitVec 32) (n : Fin Nn) : degR dst n = degK dst n := by
  unfold degR degK
  rw [sum_into_withLoops dst n (fun _ => one)]

theorem dinvR_eq (dst : Fin Ne → BitVec 32) : dinvR dst = dinvK dst := by
  funext n
  unfold dinvR dinvK
  rw [degR_eq]

theorem dinvK_nonneg (dst : Fin Ne → BitVec 32) (n : Fin Nn) : 0 ≤ dinvK dst n := rs_nonneg _
theorem dinvK_ne_top (dst : Fin Ne → BitVec 32) (n : Fin Nn) : dinvK dst n ≠ ⊤ := rs_ne_top _

/-! ## One round -/

theorem mul_rearr (m s d : EReal) : m * (s * d) = d * (m * s) := by
  rw [← mul_assoc, mul_comm]

/-- The messages into `n` with their whole weights, and the loop at `n`: the receiving node's factor taken out. -/
theorem layer_core (src dst : Fin Ne → BitVec 32) (a : Fin Nn → Fin 64 → EReal) (W : Fin 64 → Fin 64 → EReal) (n : Fin Nn) (f : Fin 64) :
    (∑ e ∈ into dst n, mm a W (rowOf (src e)) f * (dinvK dst (rowOf (src e)) * dinvK dst (rowOf (dst e))))
        + mm a W n f * (dinvK dst n * dinvK dst n)
      = dinvK dst n * (agg src dst (scaled dst a W) n f + scaled dst a W n f) := by
  unfold agg scaled
  rw [EReal.left_distrib_of_nonneg_of_ne_top (dinvK_nonneg dst n) (dinvK_ne_top dst n),
    mul_sum_of_nonneg_of_ne_top _ (dinvK_nonneg dst n) (dinvK_ne_top dst n)]
  have h1 : ∀ e ∈ into dst n,
      mm a W (rowOf (src e)) f * (dinvK dst (rowOf (src e)) * dinvK dst (rowOf (dst e)))
        = dinvK dst n * (mm a W (rowOf (src e)) f * dinvK dst (rowOf (src e))) := by
    intro e he
    have hd : rowOf (dst e) = n := rowOf_of_toInt _ n (Finset.mem_filter.mp he).2
    rw [hd]
    exact mul_rearr _ _ _
  have h2 : mm a W n f * (dinvK dst n * dinvK dst n) = dinvK dst n * (mm a W n f * dinvK dst n) :=
    mul_rearr _ _ _
  rw [Finset.sum_congr rfl h1, h2]

theorem layerR_eq (src dst : Fin Ne → BitVec 32) (a : Fin Nn → Fin 64 → EReal) (W : Fin 64 → Fin 64 → EReal) (b : Fin 64 → EReal) :
    layerR src dst a W b = act src dst (scaled dst a W) b := by
  funext n f
  unfold layerR act
  rw [sum_into_withLoops dst n]
  simp only [withLoops_left, withLoops_right, dinvR_eq, rowOf_loop]
  rw [layer_core]

theorem a1R_eq (src dst : Fin Ne → BitVec 32) (x : Fin Nn → Fin 64 → EReal) (W1 : Fin 64 → Fin 64 → EReal) (b1 : Fin 64 → EReal) :
    a1R src dst x W1 b1 = a1K src dst x W1 b1 := by
  unfold a1R a1K
  exact layerR_eq src dst x W1 b1

theorem a2R_eq (src dst : Fin Ne → BitVec 32) (x : Fin Nn → Fin 64 → EReal) (W1 W2 : Fin 64 → Fin 64 → EReal) (b1 b2 : Fin 64 → EReal) :
    a2R src dst x W1 W2 b1 b2 = a2K src dst x W1 W2 b1 b2 := by
  unfold a2R a2K
  rw [a1R_eq, layerR_eq]

theorem kern_eq_ref (src dst : Fin Ne → BitVec 32) (x : Fin Nn → Fin 64 → EReal) (W1 W2 : Fin 64 → Fin 64 → EReal) (b1 b2 : Fin 64 → EReal) (fw : Fin 64 → EReal) (fb : EReal) :
    outK src dst x W1 W2 b1 b2 fw fb = outR src dst x W1 W2 b1 b2 fw fb := by
  unfold outK outR
  rw [a2R_eq]
  simp only [div_cN]

theorem kernOf_eq_refOf (x : (⟨2, ![100000, 64]⟩ : Shape).Idx → EReal) (ei : (⟨2, ![2, 1000000]⟩ : Shape).Idx → BitVec 32) (W1 : (⟨2, ![64, 64]⟩ : Shape).Idx → EReal) (b1 : (⟨1, ![64]⟩ : Shape).Idx → EReal) (W2 : (⟨2, ![64, 64]⟩ : Shape).Idx → EReal) (b2 : (⟨1, ![64]⟩ : Shape).Idx → EReal) (fw : (⟨2, ![64, 1]⟩ : Shape).Idx → EReal) (fb : (⟨1, ![1]⟩ : Shape).Idx → EReal) :
    kernOf x ei W1 b1 W2 b2 fw fb = refOf x ei W1 b1 W2 b2 fw fb := by
  unfold kernOf refOf
  exact kern_eq_ref _ _ _ _ _ _ _ _ _

end Cert.Gcn

end
-- ==== Proof.lean ====
/-
  Two graph-convolution layers, a mean pool and a final linear map: the Pallas program against its jnp reference.

  Both programs compute, for node features x, an edge list (src, dst) and weights W1, b1, W2, b2, fc_w, fc_b,
      a₁ = relu(Â · (x W1) + b1),   a₂ = relu(Â · (a₁ W2) + b2),   out = mean_n(a₂) · fc_w + fc_b,
  where Â is the adjacency with self-loops normalised symmetrically, Â[d, s] = dinv d · dinv s summed over the edges
  s → d and the loop d → d, dinv n = (max(deg n, ε))^(-1/2), deg n = 1 + the number of edges into n. The reference
  appends the self-loops to the edge list and scatters every message with its whole weight; the Pallas program
  scales the features by dinv once inside its first two kernels, scatters only the real edges on the host, and
  applies the receiving node's factor, its own scaled row, the bias and the clip inside the next kernel; the third
  kernel accumulates the column sums of a₂ over 25 blocks of 4000 nodes in a scratch row and finishes with the
  mean, as a product with the reciprocal 1/100000, the last product and bias.

  The pieces: each kernel region's frame, at any float instance (the three region modules and the run module, once
  for the word-level program and once for its idealization); the idealized kernel program's result as the closed
  form `Cert.Gcn.kernOf` of the argument arrays (the value modules over the run: the bodies' arithmetic at an
  index, the host stretches between the kernels at an index, blocks to arrays); the reference's result as the closed
  form `Cert.Gcn.refOf` (over its generated run and read-at-an-index lemmas); and the algebra `kernOf = refOf` on
  the extended reals, whose one law beyond commutativity and associativity — a factor moved across a sum — holds
  because every dinv is a non-negative real. The named reciprocal is the rational 1/100000 at the ideal instance
  by the certificate's table; the reference's quotient by 100000 is the product with it.
-/
import proofs.«139629_j28845000360148_2_alg».proof.Defs
import proofs.«139629_j28845000360148_2_alg».proof.Proof.Gen.Kernel
import proofs.«139629_j28845000360148_2_alg».proof.Proof.Gen.KernelIdeal
import proofs.«139629_j28845000360148_2_alg».proof.Proof.Gen.ReferenceIdeal
import proofs.«139629_j28845000360148_2_alg».proof.Proof.Gen.Pre_finite_inputs
import proofs.«139629_j28845000360148_2_alg».proof.Proof.Gen.ReferenceIdeal.Read
import proofs.«139629_j28845000360148_2_alg».proof.Proof.KbRun
import proofs.«139629_j28845000360148_2_alg».proof.Proof.KiRun
import proofs.«139629_j28845000360148_2_alg».proof.Proof.KiValue
import proofs.«139629_j28845000360148_2_alg».proof.Proof.RefValue
import proofs.«139629_j28845000360148_2_alg».proof.Proof.Algebra
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the folded reciprocal of the node count is the rational 1/100000. -/
theorem preserves : Cert.preserves_Kernel_KernelIdeal :=
  IdealRules.named_const.statement Cert.KernelIdeal.κ "inv_100000" .f32 0x3727C5AC#32 ((1 / 100000 : ℝ) : EReal) rfl

/-- Run from memories agreeing on the arguments, both idealized programs end with the one extended real
    `kernOf = refOf` of the argument arrays in their result buffers. -/
theorem algebraic : Cert.algebraic_KernelIdeal_ReferenceIdeal := by
  intro m ρ m' ρ' _ hagree
  refine ⟨fun c => fun _ => Cert.Gcn.kernOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Val.kernel_value m ρ c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.RefValue.run_ref m' ρ')
    obtain ⟨h0, h1, h2, h3, h4, h5, h6, h7, h8, h9⟩ := hagree c
    rw [h0, h1, h3, h4, h5, h6, h8, h9]
    funext _
    exact (Cert.Gcn.kernOf_eq_refOf _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
